-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x64x64x512 : Shape := ⟨5, ![1, 8, 64, 64, 512]⟩
abbrev S512 : Shape := ⟨1, ![512]⟩
abbrev S512x1536 : Shape := ⟨2, ![512, 1536]⟩
abbrev S1536 : Shape := ⟨1, ![1536]⟩
abbrev S512x512 : Shape := ⟨2, ![512, 512]⟩
abbrev S_ : Shape := ⟨0, ![]⟩

class Facts : Prop where
  bcast_S_S1x8x64x64x512 : S_.BroadcastsInDim S1x8x64x64x512 (![] : Fin 0 → Fin S1x8x64x64x512.rank)
  reducesTo_S1x8x64x64x512_S_d0_1_2_3_4 : S1x8x64x64x512.ReducesTo [0, 1, 2, 3, 4] S_
  h_S_ : 0 < S_.numel
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S1x8x64x64x512 .f32) (main_arg1 : FVec F S512 .f32) (main_arg2 : FVec F S512x1536 .f32) (main_arg3 : FVec F S1536 .f32) (main_arg4 : FVec F S512x512 .f32) (main_arg5 : FVec F S512 .f32) : IVec S_ 1 :=
  let main_v0 : FVec F S1x8x64x64x512 .f32 := Host.absf main_arg0
  let main_cst : FVec F S_ .f32 := constant S_ .f32 0x7F800000#32
  let main_v1 : FVec F S1x8x64x64x512 .f32 := broadcastInDim S1x8x64x64x512 ![] bcast_S_S1x8x64x64x512 main_cst
  let main_v2 : IVec S1x8x64x64x512 1 := cmpf .olt main_v0 main_v1
  let main_c : IVec S_ 1 := constantI S_ 1 1#1
  let main_v3 : IVec S_ 1 := (fun x v => Host.reduce IntOp.andi x v reducesTo_S1x8x64x64x512_S_d0_1_2_3_4 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x1536 .f32 := Host.absf main_arg2
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S1x8x64x64x512 : Shape := ⟨5, ![1, 8, 64, 64, 512]⟩
abbrev S512 : Shape := ⟨1, ![512]⟩
abbrev S512x1536 : Shape := ⟨2, ![512, 1536]⟩
abbrev S1536 : Shape := ⟨1, ![1536]⟩
abbrev S512x512 : Shape := ⟨2, ![512, 512]⟩
abbrev S8x4096x512 : Shape := ⟨3, ![8, 4096, 512]⟩
abbrev S1x4096x512 : Shape := ⟨3, ![1, 4096, 512]⟩
abbrev S1x256x512 : Shape := ⟨3, ![1, 256, 512]⟩
abbrev S4096x512 : Shape := ⟨2, ![4096, 512]⟩
abbrev S1x512x512 : Shape := ⟨3, ![1, 512, 512]⟩
abbrev S512x1 : Shape := ⟨2, ![512, 1]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S512x1024 : Shape := ⟨2, ![512, 1024]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S1x8x64x64x512, .f32⟩
  | .hbm, ⟨1, _⟩ => ⟨S512, .f32⟩
  | .hbm, ⟨2, _⟩ => ⟨S512x1536, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S8x4096x512, .f32⟩
  | .hbm, ⟨7, _⟩ => ⟨S512x1536, .bf16⟩
  | .hbm, ⟨8, _⟩ => ⟨S512x512, .bf16⟩
  | .hbm, ⟨9, _⟩ => ⟨S8x4096x512, .f32⟩
  | .hbm, ⟨10, _⟩ => ⟨S1x8x64x64x512, .f32⟩
  | .local _ .vmem, ⟨0, _⟩ => ⟨S1x4096x512, .f32⟩
  | .local _ .vmem, ⟨1, _⟩ => ⟨S1x4096x512, .f32⟩
  | .local _ .vmem, ⟨2, _⟩ => ⟨S512, .f32⟩
  | .local _ .vmem, ⟨3, _⟩ => ⟨S512x1536, .bf16⟩
  | .local _ .vmem, ⟨4, _⟩ => ⟨S1536, .f32⟩
  | .local _ .vmem, ⟨5, _⟩ => ⟨S512x512, .bf16⟩
  | .local _ .vmem, ⟨6, _⟩ => ⟨S512, .f32⟩
  | .local _ .vmem, ⟨7, _⟩ => ⟨S1x256x512, .f32⟩
  | .local _ .vmem, ⟨8, _⟩ => ⟨S1x256x512, .f32⟩
  | .local _ .vmem, ⟨9, _⟩ => ⟨S4096x512, .bf16⟩
  | .local _ .vmem, ⟨10, _⟩ => ⟨S4096x512, .bf16⟩
  | _, _ => ⟨S1x8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_53 : BitVec 32 := 0#32
  let c512_i32 : BitVec 32 := 512#32
  let v161 : BitVec 32 := Scalar.muli c0_i32_53 c512_i32
  v161
def k0_off1 (c0_i32_53 : BitVec 32) : Fin 3 → Nat :=
  let c0_54 : Index := 0#32
  let c512_i32 : BitVec 32 := 512#32
  let v161 : BitVec 32 := Scalar.muli c0_i32_53 c512_i32
  let v162 : BitVec 32 := v161
  let v163 : Index := Scalar.indexCast v162
  let c0_55 : Index := 0#32
  ![0, v163.toNat, 0]
def k0_off2 (c0_i32_53 : BitVec 32) : Fin 2 → Nat :=
  let c512_i32 : BitVec 32 := 512#32
  let v161 : BitVec 32 := Scalar.muli c0_i32_53 c512_i32
  let v162 : BitVec 32 := v161
  let v191 : Index := Scalar.indexCast v162
  let c0_62 : Index := 0#32
  ![v191.toNat, 0]
def k0_mult2 : BitVec 32 :=
  let c1_i32_64 : BitVec 32 := 1#32
  let c512_i32_65 : BitVec 32 := 512#32
  let v200 : BitVec 32 := Scalar.muli c1_i32_64 c512_i32_65
  v200
def k0_mult3 : BitVec 32 :=
  let c2_i32_76 : BitVec 32 := 2#32
  let c512_i32_77 : BitVec 32 := 512#32
  let v239 : BitVec 32 := Scalar.muli c2_i32_76 c512_i32_77
  v239
def k0_mult4 : BitVec 32 :=
  let c3_i32_88 : BitVec 32 := 3#32
  let c512_i32_89 : BitVec 32 := 512#32
  let v278 : BitVec 32 := Scalar.muli c3_i32_88 c512_i32_89
  v278
def k0_mult5 : BitVec 32 :=
  let c4_i32_100 : BitVec 32 := 4#32
  let c512_i32_101 : BitVec 32 := 512#32
  let v317 : BitVec 32 := Scalar.muli c4_i32_100 c512_i32_101
  v317
def k0_mult6 : BitVec 32 :=
  let c5_i32 : BitVec 32 := 5#32
  let c512_i32_112 : BitVec 32 := 512#32
  let v356 : BitVec 32 := Scalar.muli c5_i32 c512_i32_112
  v356
def k0_mult7 : BitVec 32 :=
  let c6_i32 : BitVec 32 := 6#32
  let c512_i32_123 : BitVec 32 := 512#32
  let v395 : BitVec 32 := Scalar.muli c6_i32 c512_i32_123
  v395
def k0_mult8 : BitVec 32 :=
  let c7_i32 : BitVec 32 := 7#32
  let c512_i32_134 : BitVec 32 := 512#32
  let v434 : BitVec 32 := Scalar.muli c7_i32 c512_i32_134
  v434
def k0_mult9 (i : grid0.Coords) : BitVec 32 :=
  let arg1 : BitVec 32 := BitVec.ofNat 32 (i 1).val
  let c256_i32 : BitVec 32 := 256#32
  let v3 : BitVec 32 := Scalar.muli arg1 c256_i32
  v3
def k0_off3 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_mult10 : BitVec 32 :=
  let c0_i32_14 : BitVec 32 := 0#32
  let c1024_i32 : BitVec 32 := 1024#32
  let v39 : BitVec 32 := Scalar.muli c0_i32_14 c1024_i32
  v39
def k0_off4 (c0_i32_14 : BitVec 32) : Fin 2 → Nat :=
  let c1024_i32 : BitVec 32 := 1024#32
  let v39 : BitVec 32 := Scalar.muli c0_i32_14 c1024_i32
  let v40 : BitVec 32 := v39
  let v41 : Index := Scalar.indexCast v40
  let c0_15 : Index := 0#32
  ![v41.toNat, 0]
def k0_mult11 : BitVec 32 :=
  let c1_i32 : BitVec 32 := 1#32
  let c1024_i32_21 : BitVec 32 := 1024#32
  let v64 : BitVec 32 := Scalar.muli c1_i32 c1024_i32_21
  v64
def k0_mult12 : BitVec 32 :=
  let c2_i32 : BitVec 32 := 2#32
  let c1024_i32_28 : BitVec 32 := 1024#32
  let v89 : BitVec 32 := Scalar.muli c2_i32 c1024_i32_28
  v89
def k0_mult13 : BitVec 32 :=
  let c3_i32 : BitVec 32 := 3#32
  let c1024_i32_35 : BitVec 32 := 1024#32
  let v114 : BitVec 32 := Scalar.muli c3_i32 c1024_i32_35
  v114
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S1x8x64x64x512_S8x4096x512 : S1x8x64x64x512.ShapeCasts S8x4096x512
  bitsLt_bf16_f32 : FTy.bits .bf16 < FTy.bits .f32
  inb_S512_S512_0 : ∀ a, (![0] : Fin 1 → Nat) a + S512.size a ≤ S512.size a
  h_S512 : 0 < S512.numel
  inb_S1536_S1536_0 : ∀ a, (![0] : Fin 1 → Nat) a + S1536.size a ≤ S1536.size a
  h_S1536 : 0 < S1536.numel
  slices_S1536_o512_S512 : S1536.Slices ![512] S512
  slices_S1536_o1024_S512 : S1536.Slices ![1024] S512
  inb_S512x1536_S512x512_0_512 : ∀ a, (![0, 512] : Fin 2 → Nat) a + S512x512.size a ≤ S512x1536.size a
  h_S512x512 : 0 < S512x512.numel
  shapeCasts_S512x512_S512x512 : S512x512.ShapeCasts S512x512
  inb_S512x1536_S512x512_0_1024 : ∀ a, (![0, 1024] : Fin 2 → Nat) a + S512x512.size a ≤ S512x1536.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  shapeCasts_S512_S1x512 : S512.ShapeCasts S1x512
  broadcasts_S1x512_S512x512 : S1x512.Broadcasts S512x512
  h_S1x256x512 : 0 < S1x256x512.numel
  shapeCasts_S1x256x512_S256x512 : S1x256x512.ShapeCasts S256x512
  reduces_S256x512_S256 : S256x512.Reduces [1] S256
  shapeCasts_S256_S256x1 : S256.ShapeCasts S256x1
  broadcasts_S256x1_S256x512 : S256x1.Broadcasts S256x512
  broadcasts_S1x512_S256x512 : S1x512.Broadcasts S256x512
  slices_S1536_o0_S512 : S1536.Slices ![0] S512
  inb_S512x1536_S512x512_0_0 : ∀ a, (![0, 0] : Fin 2 → Nat) a + S512x512.size a ≤ S512x1536.size a
  h_S1024x512 : 0 < S1024x512.numel
  transposes_S1024x512_p1_0_S512x1024 : S1024x512.Transposes [1, 0] S512x1024
  reduces_S256x1024_S256 : S256x1024.Reduces [1] S256
  broadcasts_S256x1_S256x1024 : S256x1.Broadcasts S256x1024
  inb_S512x512_S512x512_0_0 : ∀ a, (![0, 0] : Fin 2 → Nat) a + S512x512.size a ≤ S512x512.size a
  inb_S1x256x512_S1x256x512_0_0_0 : ∀ a, (![0, 0, 0] : Fin 3 → Nat) a + S1x256x512.size a ≤ S1x256x512.size a
  shapeCasts_S256x512_S1x256x512 : S256x512.ShapeCasts S1x256x512
  shapeCasts_S8x4096x512_S1x8x64x64x512 : S8x4096x512.ShapeCasts S1x8x64x64x512
  dot_S512x512_S512x512_S512x512_1_0_0_1_n_n_wf : DotDims.WF S512x512 S512x512 S512x512 [1] [0] [0] [1] [] []
  dot_S256x512_S512x512_S256x512_1_0_0_1_n_n_wf : DotDims.WF S256x512 S512x512 S256x512 [1] [0] [0] [1] [] []
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []
  hrank0 : 0 < grid0.rank
  k0_mult1_dvd : ∀ i : grid0.Coords, ∀ (k0_h1 : k0_cond1 i = 1#1), 512 ∣ k0_mult1.toNat
  k0_off1_inb : ∀ i : grid0.Coords, ∀ (k0_h1 : k0_cond1 i = 1#1), ∀ (r : Fin 8), ∀ a, (k0_off1 (BitVec.ofNat 32 r.val)) a + S1x512x512.size a ≤ S1x4096x512.size a
  k0_off2_inb : ∀ i : grid0.Coords, ∀ (k0_h1 : k0_cond1 i = 1#1), ∀ (r : Fin 8), ∀ a, (k0_off2 (BitVec.ofNat 32 r.val)) a + S512x512.size a ≤ S4096x512.size a
  k0_off2_packedbf16 : ∀ i : grid0.Coords, ∀ (k0_h1 : k0_cond1 i = 1#1), ∀ (r : Fin 8), (Rect.unit (s := S4096x512) (k0_off2 (BitVec.ofNat 32 r.val)) S512x512.size (k0_off2_inb i k0_h1 r)).PackedRows (EltTy.packing .bf16)
  k0_mult2_dvd : ∀ i : grid0.Coords, ∀ (k0_h1 : k0_cond1 i = 1#1), 512 ∣ k0_mult2.toNat
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  k0_mult5_dvd : ∀ i : grid0.Coords, ∀ (k0_h1 : k0_cond1 i = 1#1), 512 ∣ k0_mult5.toNat
  k0_mult6_dvd : ∀ i : grid0.Coords, ∀ (k0_h1 : k0_cond1 i = 1#1), 512 ∣ k0_mult6.toNat
  k0_mult7_dvd : ∀ i : grid0.Coords, ∀ (k0_h1 : k0_cond1 i = 1#1), 512 ∣ k0_mult7.toNat
  k0_mult8_dvd : ∀ i : grid0.Coords, ∀ (k0_h1 : k0_cond1 i = 1#1), 512 ∣ k0_mult8.toNat
  k0_mult9_dvd : ∀ i : grid0.Coords, 256 ∣ (k0_mult9 i).toNat
  k0_off3_inb : ∀ i : grid0.Coords, ∀ a, (k0_off3 i) a + S1x256x512.size a ≤ S1x4096x512.size a
  k0_mult10_dvd : 1024 ∣ k0_mult10.toNat
  k0_off4_inb : ∀ (r : Fin 4), ∀ a, (k0_off4 (BitVec.ofNat 32 r.val)) a + S1024x512.size a ≤ S4096x512.size a
  k0_mult11_dvd : 1024 ∣ k0_mult11.toNat
  k0_mult12_dvd : 1024 ∣ k0_mult12.toNat
  k0_mult13_dvd : 1024 ∣ k0_mult13.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x4096x512.size a
  hwx0_0 : ∀ i : grid0.Coords, EltTy.bits .f32 = 32 ∨ (Rect.block (s := S8x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536.size a ≤ S1536.size a
  hwx0_3 : ∀ i : grid0.Coords, EltTy.bits .f32 = 32 ∨ (Rect.block (s := S1536) S1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x512.size a ≤ S8x4096x512.size a
  hwx0_6 : ∀ i : grid0.Coords, EltTy.bits .f32 = 32 ∨ (Rect.block (s := S8x4096x512) S1x256x512.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_v0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x8x64x64x512 : Shape := ⟨5, ![1, 8, 64, 64, 512]⟩
abbrev S512 : Shape := ⟨1, ![512]⟩
abbrev S512x1536 : Shape := ⟨2, ![512, 1536]⟩
abbrev S1536 : Shape := ⟨1, ![1536]⟩
abbrev S512x512 : Shape := ⟨2, ![512, 512]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x4096x1536 : Shape := ⟨3, ![8, 4096, 1536]⟩
abbrev S1x1x1536 : Shape := ⟨3, ![1, 1, 1536]⟩
abbrev S8x4096x4096 : Shape := ⟨3, ![8, 4096, 4096]⟩

abbrev nBuf : Space → Nat
  | .hbm => 58
  | .vmem => 0
  | .smem => 0
  | _ => 0

abbrev bufTy : (tb : Table) → Fin (tcTables nBuf tb) → BufTy
  | .hbm, ⟨0, _⟩ => ⟨S1x8x64x64x512, .f32⟩
  | .hbm, ⟨1, _⟩ => ⟨S512, .f32⟩
  | .hbm, ⟨2, _⟩ => ⟨S512x1536, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S8x4096x512, .f32⟩
  | .hbm, ⟨7, _⟩ => ⟨S8x4096x512, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x512, .f32⟩
  | .hbm, ⟨19, _⟩ => ⟨S8x4096x512, .f32⟩
  | .hbm, ⟨20, _⟩ => ⟨S_, .f32⟩
  | .hbm, ⟨21, _⟩ => ⟨S8x4096x512, .f32⟩
  | .hbm, ⟨22, _⟩ => ⟨S8x4096x512, .f32⟩
  | .hbm, ⟨23, _⟩ => ⟨S1x1x512, .f32⟩
  | .hbm, ⟨24, _⟩ => ⟨S8x4096x512, .f32⟩
  | .hbm, ⟨25, _⟩ => ⟨S8x4096x512, .f32⟩
  | .hbm, ⟨26, _⟩ => ⟨S8x4096x1536, .f32⟩
  | .hbm, ⟨27, _⟩ => ⟨S1x1x1536, .f32⟩
  | .hbm, ⟨28, _⟩ => ⟨S8x4096x1536, .f32⟩
  | .hbm, ⟨29, _⟩ => ⟨S8x4096x1536, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x512, .f32⟩
  | .hbm, ⟨52, _⟩ => ⟨S8x4096x512, .f32⟩
  | .hbm, ⟨53, _⟩ => ⟨S1x1x512, .f32⟩
  | .hbm, ⟨54, _⟩ => ⟨S8x4096x512, .f32⟩
  | .hbm, ⟨55, _⟩ => ⟨S8x4096x512, .f32⟩
  | .hbm, ⟨56, _⟩ => ⟨S1x8x64x64x512, .f32⟩
  | .hbm, ⟨57, _⟩ => ⟨S1x8x64x64x512, .f32⟩
  | _, _ => ⟨S1x8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  shapeCasts_S1x8x64x64x512_S8x4096x512 : S1x8x64x64x512.ShapeCasts S8x4096x512
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x512_0_1_2 : S8x4096x1.BroadcastsInDim S8x4096x512 (![0, 1, 2] : Fin 3 → Fin S8x4096x512.rank)
  bcast_S_S8x4096x512 : S_.BroadcastsInDim S8x4096x512 (![] : Fin 0 → Fin S8x4096x512.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  bcast_S1536_S1x1x1536_2 : S1536.BroadcastsInDim S1x1x1536 (![2] : Fin 1 → Fin S1x1x1536.rank)
  bcast_S1x1x1536_S8x4096x1536_0_1_2 : S1x1x1536.BroadcastsInDim S8x4096x1536 (![0, 1, 2] : Fin 3 → Fin S8x4096x1536.rank)
  slices_S8x4096x1536_S8x4096x512_0_0_0 : S8x4096x1536.Slices ![0, 0, 0] S8x4096x512
  slices_S8x4096x1536_S8x4096x512_0_0_512 : S8x4096x1536.Slices ![0, 0, 512] S8x4096x512
  slices_S8x4096x1536_S8x4096x512_0_0_1024 : S8x4096x1536.Slices ![0, 0, 1024] S8x4096x512
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S8x4096x1_S8x4096x4096_0_1_2 : S8x4096x1.BroadcastsInDim S8x4096x4096 (![0, 1, 2] : Fin 3 → Fin S8x4096x4096.rank)
  shapeCasts_S8x4096x512_S1x8x64x64x512 : S8x4096x512.ShapeCasts S1x8x64x64x512
  dot_S8x4096x512_S512x1536_S8x4096x1536_2_0_01_1_n_n_wf : DotDims.WF S8x4096x512 S512x1536 S8x4096x1536 [2] [0] [0, 1] [1] [] []
  dot_S8x4096x512_S8x4096x512_S8x4096x4096_2_2_1_1_0_0_wf : DotDims.WF S8x4096x512 S8x4096x512 S8x4096x4096 [2] [2] [1] [1] [0] [0]
  dot_S8x4096x4096_S8x4096x512_S8x4096x512_2_1_1_2_0_0_wf : DotDims.WF S8x4096x4096 S8x4096x512 S8x4096x512 [2] [1] [1] [2] [0] [0]
  dot_S8x4096x512_S512x512_S8x4096x512_2_0_01_1_n_n_wf : DotDims.WF S8x4096x512 S512x512 S8x4096x512 [2] [0] [0, 1] [1] [] []

variable [Facts₀]

def dot_S8x4096x512_S512x1536_S8x4096x1536_2_0_01_1_n_n : DotDims S8x4096x512 S512x1536 S8x4096x1536 where
  lhsContracting := [2]
  rhsContracting := [0]
  lhsNonContracting := [0, 1]
  rhsNonContracting := [1]
  lhsBatch := []
  rhsBatch := []
  wf := dot_S8x4096x512_S512x1536_S8x4096x1536_2_0_01_1_n_n_wf
def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf
def dot_S8x4096x4096_S8x4096x512_S8x4096x512_2_1_1_2_0_0 : DotDims S8x4096x4096 S8x4096x512 S8x4096x512 where
  lhsContracting := [2]
  rhsContracting := [1]
  lhsNonContracting := [1]
  rhsNonContracting := [2]
  lhsBatch := [0]
  rhsBatch := [0]
  wf := dot_S8x4096x4096_S8x4096x512_S8x4096x512_2_1_1_2_0_0_wf
def dot_S8x4096x512_S512x512_S8x4096x512_2_0_01_1_n_n : DotDims S8x4096x512 S512x512 S8x4096x512 where
  lhsContracting := [2]
  rhsContracting := [0]
  lhsNonContracting := [0, 1]
  rhsNonContracting := [1]
  lhsBatch := []
  rhsBatch := []
  wf := dot_S8x4096x512_S512x512_S8x4096x512_2_0_01_1_n_n_wf

class Facts : Prop extends Facts₀ where

variable [Facts]
-- ==== Proof.FiniteInputs.lean ====
/-
  The precondition read back: every entry of every float argument is a real number.

  The generated precondition `Cert.Pre_finite_inputs.fn` is, for each of its six float arguments x, the conjunction
  over all entries of |x| < +∞, the six results and-ed together. At the extended-real values |x| is max x (-x) and the
  f32 pattern 0x7F800000 is ⊤, so |x| < ⊤ fails exactly at x = ⊥ and x = ⊤: the result being 1 says every entry of
  every argument is neither ⊥ nor ⊤.
-/
import proofs.«116806_j90975997264646_2_alg».proof.Pre_finite_inputs
import Idealize.ShloMosaic.Lib.ReduceAll
import Idealize.ShloMosaic.Lib.ValueIdx
import Idealize.ShloMosaic.PureOps.Ideal.Laws

noncomputable section

namespace Cert.FiniteIn

open Idealize.ShloMosaic Cert.Pre_finite_inputs

/-- The f32 pattern 0x7F800000 (sign 0, exponent all ones, significand 0) is plus infinity. -/
private theorem ofBits_inf : Ideal.ofBits .f32 0x7F800000#32 = (⊤ : EReal) := by
  simp [Ideal.ofBits, Ideal.ieee]

/-- The element fact: |x| < +∞ holds only at a real number x. -/
private theorem finite_of_abs_lt (x : EReal)
    (h : Ideal.cmp .olt (max x (-x)) (Ideal.ofBits .f32 0x7F800000#32) = 1#1) : x ≠ ⊥ ∧ x ≠ ⊤ := by
  rw [ofBits_inf] at h
  induction x using EReal.rec with
  | bot => simp [Ideal.cmp] at h
  | top => simp [Ideal.cmp] at h
  | coe r => exact ⟨EReal.coe_ne_bot r, EReal.coe_ne_top r⟩

/-- The rank-0 shape has one index. -/
instance : Subsingleton S_.Idx := ⟨fun a b => funext fun d => d.elim0⟩

/-- One argument: if the conjunction over all entries of |a| < +∞ is 1, every entry of a is a real number. -/
private theorem all_finite {s : Shape} {axes : List (Fin s.rank)} (a : FVec Ideal s .f32)
    (hb : S_.BroadcastsInDim s ![]) (hr : s.ReducesTo axes S_) (hu : 0 < S_.numel) (init : IVec S_ 1) (j : S_.Idx)
    (e : Host.reduce IntOp.andi
      (cmpf .olt (Host.absf a) (broadcastInDim s ![] hb (constant (F := Ideal) S_ .f32 0x7F800000#32))) init hr hu j = 1#1) :
    ∀ i, a i ≠ ⊥ ∧ a i ≠ ⊤ := by
  intro i
  have hi := Host.reduce_andi_all _ _ hr hu j e i
  exact finite_of_abs_lt (a i) hi

/-- THE PRECONDITION DECODED: every entry of each of the six float arguments is neither ⊥ nor ⊤. -/
theorem finite_of_pre [hPre_finite_inputs : Cert.Pre_finite_inputs.Facts]
    (a0 : FVec Ideal S1x8x64x64x512 .f32) (a1 : FVec Ideal S512 .f32) (a2 : FVec Ideal S512x1536 .f32)
    (a3 : FVec Ideal S1536 .f32) (a4 : FVec Ideal S512x512 .f32) (a5 : FVec Ideal S512 .f32)
    (h : Cert.Pre_finite_inputs.fn (F := Ideal) a0 a1 a2 a3 a4 a5 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, a3 i ≠ ⊥ ∧ a3 i ≠ ⊤) ∧ (∀ i, a4 i ≠ ⊥ ∧ a4 i ≠ ⊤) ∧ (∀ i, a5 i ≠ ⊥ ∧ a5 i ≠ ⊤) := by
  have e := congrFun h ValueIdx.ix0
  dsimp only [Cert.Pre_finite_inputs.fn, Cert.Pre_finite_inputs.fn_part1] at e
  simp only [andi, IntOp.andi_eq_one] at e
  obtain ⟨⟨⟨⟨⟨h0, h1⟩, h2⟩, h3⟩, h4⟩, h5⟩ := e
  exact ⟨all_finite a0 _ _ _ _ _ h0, all_finite a1 _ _ _ _ _ h1, all_finite a2 _ _ _ _ _ h2,
    all_finite a3 _ _ _ _ _ h3, all_finite a4 _ _ _ _ _ h4, all_finite a5 _ _ _ _ _ h5⟩

end Cert.FiniteIn

end
-- ==== Proof.AttnSpec.lean ====
/-
  One frame of the attention layer, as plain functions on the extended reals.

  A frame is `X : Fin 4096 → Fin 512 → EReal` (tokens × channels).  Each token is normalised by the root of
  its mean square, `xn n c = X n c / √(∑ X n ·² / 512 + ε) · √512 · scale c`; the normalised frame is projected
  to queries, keys and values by the three column blocks of `W` (columns `d`, `512 + d`, `1024 + d`) plus the
  bias; token `i` attends to every token `j` with weight `exp (s i j − m i) / ∑ⱼ exp (s i j − m i)`, where
  `s i j = (q i · k j) · 512^(−1/2)` and `m i` is the row maximum; the weighted sum of values is projected by
  `PW`, the bias `pb` is added, and then the input token itself (the residual).
  The four float literals are kept as their binary words: both programs carry the same words.
-/
import Mathlib
import Idealize.ShloMosaic.PureOps.Ideal

open Idealize.ShloMosaic

noncomputable section

namespace Cert.Attn

/-- ε = f32 1e-6, 512, √512 and 512^(−1/2) as the f32 words both programs hold. -/
def eps : EReal := Ideal.ofBits .f32 0x358637BD#32
def c512 : EReal := Ideal.ofBits .f32 0x44000000#32
def rt512 : EReal := Ideal.ofBits .f32 0x41B504F3#32
def irt512 : EReal := Ideal.ofBits .f32 0x3D3504F3#32

/-- The query, key and value columns of the fused projection. -/
def colQ (d : Fin 512) : Fin 1536 := ⟨d.val, by have := d.isLt; omega⟩
def colK (d : Fin 512) : Fin 1536 := ⟨512 + d.val, by have := d.isLt; omega⟩
def colV (d : Fin 512) : Fin 1536 := ⟨1024 + d.val, by have := d.isLt; omega⟩

variable (X : Fin 4096 → Fin 512 → EReal) (sc : Fin 512 → EReal) (W : Fin 512 → Fin 1536 → EReal)
  (b : Fin 1536 → EReal) (PW : Fin 512 → Fin 512 → EReal) (pb : Fin 512 → EReal)

/-- The sum of squares of token `n`. -/
def sumsq (n : Fin 4096) : EReal := ∑ c : Fin 512, X n c * X n c

/-- The root mean square of token `n`, with ε under the root. -/
def rms (n : Fin 4096) : EReal := Ideal.sqrt (Ideal.div (sumsq X n) c512 + eps)

/-- The normalised, rescaled token. -/
def xn (n : Fin 4096) (c : Fin 512) : EReal := Ideal.div (X n c) (rms X n) * rt512 * sc c

/-- The same normalisation written for one token's row of channels. -/
def xnRow (row : Fin 512 → EReal) (c : Fin 512) : EReal :=
  Ideal.div (row c) (Ideal.sqrt (Ideal.div (∑ c' : Fin 512, row c' * row c') c512 + eps)) * rt512 * sc c

theorem xn_eq_xnRow (n : Fin 4096) (c : Fin 512) : xn X sc n c = xnRow sc (X n) c := rfl

/-- The fused projection: column `e` of token `n`. -/
def qkv (n : Fin 4096) (e : Fin 1536) : EReal := (∑ c : Fin 512, xn X sc n c * W c e) + b e

/-- The scaled score of query token `i` against key token `j`. -/
def score (i j : Fin 4096) : EReal :=
  (∑ d : Fin 512, qkv X sc W b i (colQ d) * qkv X sc W b j (colK d)) * irt512

/-- The row maximum, folded from the bottom. -/
def rowmax (i : Fin 4096) : EReal :=
  max ⊥ ((Finset.univ : Finset (Fin 4096)).fold max ⊥ (fun j => score X sc W b i j))

/-- The shifted exponential and its row sum. -/
def pexp (i j : Fin 4096) : EReal := Ideal.exp (score X sc W b i j - rowmax X sc W b i)
def den (i : Fin 4096) : EReal := ∑ j : Fin 4096, pexp X sc W b i j

/-- The attention weight and the attended value. -/
def attn (i j : Fin 4096) : EReal := Ideal.div (pexp X sc W b i j) (den X sc W b i)
def ctx (i : Fin 4096) (c : Fin 512) : EReal := ∑ j : Fin 4096, attn X sc W b i j * qkv X sc W b j (colV c)

/-- The layer's output for token `i`, channel `d`: projection, bias, residual. -/
def out (i : Fin 4096) (d : Fin 512) : EReal :=
  ((∑ c : Fin 512, ctx X sc W b i c * PW c d) + pb d) + X i d

end Cert.Attn

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.KChunk.lean ====
/-
  One chunk of 512 tokens normalised and projected to keys or values, and the query tile's projection.

  A chunk of the frame (512 tokens × 512 channels) is normalised token by token by the root of its mean square,
  rescaled, and multiplied by a 512 × 512 block of the fused weight; a 512-slice of the bias is added along rows.
  The eight chunks of the body compute this same function of (scale, bias slice, weight block, chunk) — once for the
  key block and once for the value block — so it is defined once and each chunk's stored value is an instance of it.
  The query tile (256 tokens) is projected the same way and then multiplied by 512^(−1/2).
-/
import proofs.«116806_j90975997264646_2_alg».proof.Proof.Gen.KernelIdeal.Skeleton
import proofs.«116806_j90975997264646_2_alg».proof.Proof.AttnSpec
import proofs.«116806_j90975997264646_2_alg».proof.Proof.LibColumn
import proofs.«116806_j90975997264646_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx

section Generic
variable {F : FTy → Type} [FloatOps F] [Named F]

/-- A chunk projected: normalise (the body's own normalisation of a chunk, `k0_pay6`), multiply by the weight
    block, add the bias slice along rows. -/
def proj (sc : Vec F S512 .f32) (bias : FVec F S512 .f32) (w : FVec F S512x512 .bf16) (xc : Vec F S1x512x512 .f32) : FVec F S512x512 .f32 :=
  addf (matmul dot_S512x512_S512x512_S512x512_1_0_0_1_n_n none (k0_pay6 sc xc) w (constant S512x512 .f32 0x00000000#32))
    (broadcastTo S512x512 (shapeCast S1x512 bias shapeCasts_S512_S1x512) broadcasts_S1x512_S512x512)

/-- … and stored in the narrower format (the identity on extended reals). -/
def kv (sc : Vec F S512 .f32) (bias : FVec F S512 .f32) (w : FVec F S512x512 .bf16) (xc : Vec F S1x512x512 .f32) : FVec F S512x512 .bf16 :=
  shapeCast S512x512 (truncf .bf16 (proj sc bias w xc) bitsLt_bf16_f32) shapeCasts_S512x512_S512x512

/-! The eight chunks' stored values, keys then values, are `kv` of the key / value bias slice and weight block. -/

theorem c0K (sc : Vec F S512 .f32) (b : Vec F S1536 .f32) (wK : Vec F S512x512 .bf16) (xc : Vec F S1x512x512 .f32) :
    k0_pay8 sc b wK xc = kv sc (k0_pay2 b) (k0_pay4 wK) xc := rfl
theorem c0V (sc : Vec F S512 .f32) (b : Vec F S1536 .f32) (wV : Vec F S512x512 .bf16) (xc : Vec F S1x512x512 .f32) :
    k0_pay9 (k0_pay7 sc b wV xc) = kv sc (k0_pay3 b) (k0_pay5 wV) xc := rfl
theorem c1K (sc : Vec F S512 .f32) (bK : FVec F S512 .f32) (wK : FVec F S512x512 .bf16) (xc : Vec F S1x512x512 .f32) :
    k0_pay11 sc bK wK xc = kv sc bK wK xc := rfl
theorem c1V (sc : Vec F S512 .f32) (bV : FVec F S512 .f32) (wV : FVec F S512x512 .bf16) (xc : Vec F S1x512x512 .f32) :
    k0_pay12 sc bV wV xc = kv sc bV wV xc := rfl
theorem c2K (sc : Vec F S512 .f32) (bK : FVec F S512 .f32) (wK : FVec F S512x512 .bf16) (xc : Vec F S1x512x512 .f32) :
    k0_pay14 sc bK wK xc = kv sc bK wK xc := rfl
theorem c2V (sc : Vec F S512 .f32) (bV : FVec F S512 .f32) (wV : FVec F S512x512 .bf16) (xc : Vec F S1x512x512 .f32) :
    k0_pay15 sc bV wV xc = kv sc bV wV xc := rfl
theorem c3K (sc : Vec F S512 .f32) (bK : FVec F S512 .f32) (wK : FVec F S512x512 .bf16) (xc : Vec F S1x512x512 .f32) :
    k0_pay17 sc bK wK xc = kv sc bK wK xc := rfl
theorem c3V (sc : Vec F S512 .f32) (bV : FVec F S512 .f32) (wV : FVec F S512x512 .bf16) (xc : Vec F S1x512x512 .f32) :
    k0_pay18 sc bV wV xc = kv sc bV wV xc := rfl
theorem c4K (sc : Vec F S512 .f32) (bK : FVec F S512 .f32) (wK : FVec F S512x512 .bf16) (xc : Vec F S1x512x512 .f32) :
    k0_pay22 sc bK wK (k0_pay19 xc) (k0_pay20 xc) (Scalar.ofBits .f32 0x44000000#32) = kv sc bK wK xc := rfl
theorem c4V (sc : Vec F S512 .f32) (bV : FVec F S512 .f32) (wV : FVec F S512x512 .bf16) (xc : Vec F S1x512x512 .f32) :
    k0_pay23 sc bV wV (k0_pay19 xc) (k0_pay20 xc) (Scalar.ofBits .f32 0x44000000#32) = kv sc bV wV xc := rfl
theorem c5K (sc : Vec F S512 .f32) (bK : FVec F S512 .f32) (wK : FVec F S512x512 .bf16) (xc : Vec F S1x512x512 .f32) :
    k0_pay27 sc bK wK (k0_pay24 xc) (k0_pay25 xc) = kv sc bK wK xc := rfl
theorem c5V (sc : Vec F S512 .f32) (bV : FVec F S512 .f32) (wV : FVec F S512x512 .bf16) (xc : Vec F S1x512x512 .f32) :
    k0_pay28 sc bV wV (k0_pay24 xc) (k0_pay25 xc) = kv sc bV wV xc := rfl
theorem c6K (sc : Vec F S512 .f32) (bK : FVec F S512 .f32) (wK : FVec F S512x512 .bf16) (xc : Vec F S1x512x512 .f32) :
    k0_pay31 bK wK (k0_pay29 sc xc) = kv sc bK wK xc := rfl
theorem c6V (sc : Vec F S512 .f32) (bV : FVec F S512 .f32) (wV : FVec F S512x512 .bf16) (xc : Vec F S1x512x512 .f32) :
    k0_pay32 bV wV (k0_pay29 sc xc) = kv sc bV wV xc := rfl
theorem c7K (sc : Vec F S512 .f32) (bK : FVec F S512 .f32) (wK : FVec F S512x512 .bf16) (xc : Vec F S1x512x512 .f32) :
    k0_pay35 (k0_pay34 sc bK wK xc) = kv sc bK wK xc := rfl
theorem c7V (sc : Vec F S512 .f32) (bV : FVec F S512 .f32) (wV : FVec F S512x512 .bf16) (xc : Vec F S1x512x512 .f32) :
    k0_pay36 bV wV (k0_pay33 sc xc) (constant S512x512 .f32 0x00000000#32) = kv sc bV wV xc := rfl

end Generic

end Cert.KernelIdeal.Chunk

end
-- ==== Proof.KChunkIdeal.lean ====
/-
  The projected chunk and the projected query tile read at an index, on the extended reals.

  Token `r` of a chunk is normalised by the root of ITS OWN mean square, so the normalised token is the
  specification's `xnRow` of that token's row of channels; the projection is then a dot product with a column of the
  weight block plus that column's bias.
-/
import proofs.«116806_j90975997264646_2_alg».proof.Proof.KChunk
import Idealize.ShloMosaic.PureOps.IdealRules

noncomputable section

namespace Cert.KernelIdeal.Chunk

open Cert.KernelIdeal Cert.KernelIdeal.Gen Idealize.ShloMosaic Idealize.ShloMosaic.ValueIdx
open Cert.Layer.Column Cert.Layer.Matmul

/-- The index a reduction over the second axis inserts: row `r`, column `k`. -/
theorem lift_row512 (h : Shape.Reduces S512x512 [1] S512) (r : Fin 512) (k : Fin 512) :
    h.lift (ix1 r) k = ix2 r k :=
  funext fun a => Fin.ext (by match a with | ⟨0, _⟩ => rfl | ⟨1, _⟩ => rfl)

theorem lift_row256 (h : Shape.Reduces S256x512 [1] S256) (r : Fin 256) (k : Fin 512) :
    h.lift (ix1 r) k = ix2 r k :=
  funext fun a => Fin.ext (by match a with | ⟨0, _⟩ => rfl | ⟨1, _⟩ => rfl)

/-- The body's normalisation of a chunk, at token `r`, channel `c`. -/
theorem norm_apply (sc : Vec Ideal S512 .f32) (xc : Vec Ideal S1x512x512 .f32) (r c : Fin 512) :
    k0_pay6 sc xc (ix2 r c) = Cert.Attn.xnRow (fun c' => sc (ix1 c')) (fun c' => xc (ix3 (0 : Fin 1) r c')) c := by
  unfold k0_pay6 Cert.Attn.xnRow Cert.Attn.eps Cert.Attn.c512 Cert.Attn.rt512
  show Ideal.div (shapeCast S512x512 xc shapeCasts_S1x512x512_S512x512 (ix2 r c))
        (broadcastTo S512x512 _ broadcasts_S512x1_S512x512 (ix2 r c)) * Ideal.ofBits .f32 0x41B504F3#32
      * broadcastTo S512x512 (shapeCast S1x512 sc shapeCasts_S512_S1x512) broadcasts_S1x512_S512x512 (ix2 r c) = _
  rw [shapeCast_1ab_ab_apply, broadcastTo_a1_ab_apply, broadcastTo_1b_ab_apply, shapeCast_a_1a_apply]
  show Ideal.div (xc (ix3 (0 : Fin 1) r c))
        (Ideal.sqrt (Ideal.div (shapeCast S512x1 _ shapeCasts_S512_S512x1 (ix2 r (0 : Fin 1))) (Ideal.ofBits .f32 0x44000000#32)
          + Ideal.ofBits .f32 0x358637BD#32)) * Ideal.ofBits .f32 0x41B504F3#32 * sc (ix1 c) = _
  rw [shapeCast_a_a1_apply]
  refine congrArg (fun z : EReal => Ideal.div (xc (ix3 (0 : Fin 1) r c))
        (Ideal.sqrt (Ideal.div z (Ideal.ofBits .f32 0x44000000#32) + Ideal.ofBits .f32 0x358637BD#32))
          * Ideal.ofBits .f32 0x41B504F3#32 * sc (ix1 c)) ?_
  refine (Ideal.multiReduction_add_single _ _ _ _ _ _).trans ?_
  refine Finset.sum_congr rfl fun (k : Fin 512) _ => ?_
  show shapeCast S512x512 xc shapeCasts_S1x512x512_S512x512 (Shape.Reduces.lift reduces_S512x512_S512 (ix1 r) k)
      * shapeCast S512x512 xc shapeCasts_S1x512x512_S512x512 (Shape.Reduces.lift reduces_S512x512_S512 (ix1 r) k)
      = xc (ix3 (0 : Fin 1) r k) * xc (ix3 (0 : Fin 1) r k)
  rw [lift_row512, shapeCast_1ab_ab_apply]

/-- The projected chunk at token `r`, output channel `d`. -/
theorem proj_apply (sc : Vec Ideal S512 .f32) (bias : FVec Ideal S512 .f32) (w : FVec Ideal S512x512 .bf16)
    (xc : Vec Ideal S1x512x512 .f32) (r d : Fin 512) :
    proj sc bias w xc (ix2 r d)
      = (∑ c : Fin 512, Cert.Attn.xnRow (fun c' => sc (ix1 c')) (fun c' => xc (ix3 (0 : Fin 1) r c')) c * w (ix2 c d)) + bias (ix1 d) := by
  unfold proj
  show FloatOps.matmul dot_S512x512_S512x512_S512x512_1_0_0_1_n_n none (k0_pay6 sc xc) w (constant S512x512 .f32 0x00000000#32) (ix2 r d)
      + broadcastTo S512x512 (shapeCast S1x512 bias shapeCasts_S512_S1x512) broadcasts_S1x512_S512x512 (ix2 r d) = _
  rw [Ideal.matmul_constant_zero_apply, plain_contr_sum _ rfl rfl rfl rfl rfl rfl, broadcastTo_1b_ab_apply, shapeCast_a_1a_apply]
  congr 1
  refine Finset.sum_congr rfl fun c _ => ?_
  show k0_pay6 sc xc (ix2 r c) * w (ix2 c d) = _
  rw [norm_apply]

theorem kv_apply (sc : Vec Ideal S512 .f32) (bias : FVec Ideal S512 .f32) (w : FVec Ideal S512x512 .bf16)
    (xc : Vec Ideal S1x512x512 .f32) (r d : Fin 512) :
    kv sc bias w xc (ix2 r d)
      = (∑ c : Fin 512, Cert.Attn.xnRow (fun c' => sc (ix1 c')) (fun c' => xc (ix3 (0 : Fin 1) r c')) c * w (ix2 c d)) + bias (ix1 d) := by
  unfold kv
  rw [shapeCast_self]
  exact proj_apply sc bias w xc r d

/-- The key and value slices of the bias, and the weight blocks (a cast to the same shape). -/
theorem biasK_apply (b : Vec Ideal S1536 .f32) (d : Fin 512) : k0_pay2 b (ix1 d) = b (ix1 (Cert.Attn.colK d)) := by
  unfold k0_pay2
  exact extractStridedSlice_apply _ b _ (ix1 d) (ix1 (Cert.Attn.colK d)) fun a => by
    match a with | ⟨0, _⟩ => rfl
theorem biasV_apply (b : Vec Ideal S1536 .f32) (d : Fin 512) : k0_pay3 b (ix1 d) = b (ix1 (Cert.Attn.colV d)) := by
  unfold k0_pay3
  exact extractStridedSlice_apply _ b _ (ix1 d) (ix1 (Cert.Attn.colV d)) fun a => by
    match a with | ⟨0, _⟩ => rfl
theorem wK_apply (w : Vec Ideal S512x512 .bf16) (c d : Fin 512) : k0_pay4 w (ix2 c d) = w (ix2 c d) := by
  unfold k0_pay4
  rw [shapeCast_self]
theorem wV_apply (w : Vec Ideal S512x512 .bf16) (c d : Fin 512) : k0_pay5 w (ix2 c d) = w (ix2 c d) := by
  unfold k0_pay5
  rw [shapeCast_self]

/-- The query tile: the input tile itself, and its scaled projection. -/
theorem x7_apply (xq : Vec Ideal S1x256x512 .f32) (r : Fin 256) (d : Fin 512) :
    k0_pay37 xq (ix2 r d) = xq (ix3 (0 : Fin 1) r d) := by
  unfold k0_pay37
  rw [shapeCast_1ab_ab_apply]

theorem q_apply (xq : Vec Ideal S1x256x512 .f32) (sc : Vec Ideal S512 .f32) (b : Vec Ideal S1536 .f32)
    (qw : Vec Ideal S512x512 .bf16) (r : Fin 256) (d : Fin 512) :
    k0_pay38 xq sc b qw (ix2 r d)
      = ((∑ c : Fin 512, Cert.Attn.xnRow (fun c' => sc (ix1 c')) (fun c' => xq (ix3 (0 : Fin 1) r c')) c * qw (ix2 c d))
          + b (ix1 (Cert.Attn.colQ d))) * Cert.Attn.irt512 := by
  unfold k0_pay38 Cert.Attn.irt512
  -- the projection, the bias slice along rows, and the scaling word
  show (FloatOps.matmul (F := Ideal) dot_S256x512_S512x512_S256x512_1_0_0_1_n_n none _
          (shapeCast S512x512 qw shapeCasts_S512x512_S512x512) (constant S256x512 .f32 0x00000000#32) (ix2 r d)
      + broadcastTo S256x512 (shapeCast S1x512 (extractStridedSlice S512 ![0] b slices_S1536_o0_S512) shapeCasts_S512_S1x512)
          broadcasts_S1x512_S256x512 (ix2 r d))
      * Ideal.ofBits .f32 0x3D3504F3#32 = _
  rw [Ideal.matmul_constant_zero_apply, plain_contr_sum _ rfl rfl rfl rfl rfl rfl, broadcastTo_1b_ab_apply,
    shapeCast_a_1a_apply]
  have hb : extractStridedSlice S512 ![0] b slices_S1536_o0_S512 (ix1 d) = b (ix1 (Cert.Attn.colQ d)) :=
    extractStridedSlice_apply _ b _ (ix1 d) (ix1 (Cert.Attn.colQ d)) fun a => by
      match a with | ⟨0, _⟩ => exact (Nat.zero_add _).symm
  rw [hb, shapeCast_self]
  congr 2
  refine Finset.sum_congr rfl fun c _ => ?_
  refine congrArg (· * qw (ix2 c d)) ?_
  -- the normalised query token, as for a chunk
  unfold Cert.Attn.xnRow Cert.Attn.eps Cert.Attn.c512 Cert.Attn.rt512
  show Ideal.div (k0_pay37 xq (ix2 r c))
        (broadcastTo S256x512 _ broadcasts_S256x1_S256x512 (ix2 r c)) * Ideal.ofBits .f32 0x41B504F3#32
      * broadcastTo S256x512 (shapeCast S1x512 sc shapeCasts_S512_S1x512) broadcasts_S1x512_S256x512 (ix2 r c) = _
  rw [x7_apply, broadcastTo_a1_ab_apply, broadcastTo_1b_ab_apply, shapeCast_a_1a_apply]
  show Ideal.div (xq (ix3 (0 : Fin 1) r c))
        (Ideal.sqrt (Ideal.div (shapeCast S256x1 _ shapeCasts_S256_S256x1 (ix2 r (0 : Fin 1))) (Ideal.ofBits .f32 0x44000000#32)
          + Ideal.ofBits .f32 0x358637BD#32)) * Ideal.ofBits .f32 0x41B504F3#32 * sc (ix1 c) = _
  rw [shapeCast_a_a1_apply]
  refine congrArg (fun z : EReal => Ideal.div (xq (ix3 (0 : Fin 1) r c))
        (Ideal.sqrt (Ideal.div z (Ideal.ofBits .f32 0x44000000#32) + Ideal.ofBits .f32 0x358637BD#32))
          * Ideal.ofBits .f32 0x41B504F3#32 * sc (ix1 c)) ?_
  refine (Ideal.multiReduction_add_single _ _ _ _ _ _).trans ?_
  refine Finset.sum_congr rfl fun (k : Fin 512) _ => ?_
  show k0_pay37 xq (Shape.Reduces.lift reduces_S256x512_S256 (ix1 r) k)
      * k0_pay37 xq (Shape.Reduces.lift reduces_S256x512_S256 (ix1 r) k)
      = xq (ix3 (0 : Fin 1) r k) * xq (ix3 (0 : Fin 1) r k)
  rw [lift_row256, x7_apply]

/-- The recurrence's starting values: the running maximum −∞ (the named constant), the row sum 0, the weighted sum 0. -/
theorem m0_apply (i : S256x1.Idx) : k0_pay39 (F := Ideal) i = ⊥ := by
  unfold k0_pay39
  show Named.named (F := Ideal) κ "neg_big" (φ := .f32) 0xFF333332#32 = ⊥
  exact IdealRules.named_const.ideal_named_scalar _ _ _ _ rfl
theorem l0_apply (i : S256x1.Idx) : k0_pay40 (F := Ideal) i = 0 := by
  unfold k0_pay40
  show Ideal.ofBits .f32 0x00000000#32 = 0
  exact Ideal.ofBits_zero_f32
theorem a0_apply (i : S256x512.Idx) : k0_pay41 (F := Ideal) i = 0 := by
  unfold k0_pay41
  show Ideal.ofBits .f32 0x00000000#32 = 0
  exact Ideal.ofBits_zero_f32

end Cert.KernelIdeal.Chunk

end
-- ==== Proof.KPieces.lean ====
/-
  What the first query tile of a frame leaves in the key and value scratch.

  At the first query tile of a frame the body projects the whole frame to keys and to values, eight chunks of 512
  tokens each, and stores chunk `j` into rows `512 j … 512 j + 511` of the key scratch and of the value scratch.  The
  eight stores tile the scratch, and each stored chunk is the matching block of ONE function of the scratch index:
  row `n`, column `d` holds the specification's fused projection of token `n` at the key (value) column `d`.
-/
import proofs.«116806_j90975997264646_2_alg».proof.Proof.Gen.KernelIdeal.Frame
import proofs.«116806_j90975997264646_2_alg».proof.Proof.KChunkIdeal
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Idealize.ShloMosaic.ValueIdx Cert.KernelIdeal.Chunk

/-- The spec's inputs read off the body's whole operands. -/
def Xof (x0 : Vec Ideal S1x4096x512 .f32) : Fin 4096 → Fin 512 → EReal := fun n c => x0 (ix3 (0 : Fin 1) n c)
def scOf (x1 : Vec Ideal S512 .f32) : Fin 512 → EReal := fun c => x1 (ix1 c)
def Wof (x2 : Vec Ideal S512x1536 .bf16) : Fin 512 → Fin 1536 → EReal := fun c e => x2 (ix2 c e)
def bOf (x3 : Vec Ideal S1536 .f32) : Fin 1536 → EReal := fun e => x3 (ix1 e)
def PWof (x4 : Vec Ideal S512x512 .bf16) : Fin 512 → Fin 512 → EReal := fun c d => x4 (ix2 c d)
def pbOf (x5 : Vec Ideal S512 .f32) : Fin 512 → EReal := fun d => x5 (ix1 d)

/-- The frame's keys and values as contents of the scratch. -/
def Kfun (x0 : Vec Ideal S1x4096x512 .f32) (x1 : Vec Ideal S512 .f32) (x2 : Vec Ideal S512x1536 .bf16) (x3 : Vec Ideal S1536 .f32) :
    Vec Ideal S4096x512 .bf16 :=
  fun y => Cert.Attn.qkv (Xof x0) (scOf x1) (Wof x2) (bOf x3) (y 0) (Cert.Attn.colK (y 1))
def Vfun (x0 : Vec Ideal S1x4096x512 .f32) (x1 : Vec Ideal S512 .f32) (x2 : Vec Ideal S512x1536 .bf16) (x3 : Vec Ideal S1536 .f32) :
    Vec Ideal S4096x512 .bf16 :=
  fun y => Cert.Attn.qkv (Xof x0) (scOf x1) (Wof x2) (bOf x3) (y 0) (Cert.Attn.colV (y 1))

/-! ### One stored chunk is a block of the frame's keys (values) -/

/-- Rows o … o + 511 of the frame, as a chunk: token r of the chunk is token o + r of the frame. -/
theorem chunk_row (x0 : Vec Ideal S1x4096x512 .f32) (o : ℕ)
    (inb2 : ∀ a, (![0, o, 0] : Fin 3 → ℕ) a + S1x512x512.size a ≤ S1x4096x512.size a)
    (r : Fin 512) (hn : o + r.val < 4096) :
    (fun c' : Fin 512 => View.ld x0 (Rect.unit (s := S1x4096x512) ![0, o, 0] S1x512x512.size inb2) (ix3 (0 : Fin 1) r c'))
      = Xof x0 ⟨o + r.val, hn⟩ :=
  funext fun c' => congrArg x0 (funext fun a => Fin.ext (by
    match a with
    | ⟨0, _⟩ => rfl
    | ⟨1, _⟩ => show o + 1 * r.val = o + r.val; omega
    | ⟨2, _⟩ => show 0 + 1 * c'.val = c'.val; omega))

/-- The key block of the fused weight: column d of the block is column 512 + d. -/
theorem wblock_K (x2 : Vec Ideal S512x1536 .bf16)
    (inb4 : ∀ a, (![0, 512] : Fin 2 → ℕ) a + S512x512.size a ≤ S512x1536.size a) (c d : Fin 512) :
    View.ld x2 (Rect.unit (s := S512x1536) ![0, 512] S512x512.size inb4) (ix2 c d) = Wof x2 c (Cert.Attn.colK d) :=
  congrArg x2 (funext fun a => Fin.ext (by
    match a with
    | ⟨0, _⟩ => show 0 + 1 * c.val = c.val; omega
    | ⟨1, _⟩ => show 512 + 1 * d.val = 512 + d.val; omega))

/-- The value block of the fused weight: column d of the block is column 1024 + d. -/
theorem wblock_V (x2 : Vec Ideal S512x1536 .bf16)
    (inb4 : ∀ a, (![0, 1024] : Fin 2 → ℕ) a + S512x512.size a ≤ S512x1536.size a) (c d : Fin 512) :
    View.ld x2 (Rect.unit (s := S512x1536) ![0, 1024] S512x512.size inb4) (ix2 c d) = Wof x2 c (Cert.Attn.colV d) :=
  congrArg x2 (funext fun a => Fin.ext (by
    match a with
    | ⟨0, _⟩ => show 0 + 1 * c.val = c.val; omega
    | ⟨1, _⟩ => show 1024 + 1 * d.val = 1024 + d.val; omega))

/-- Where a block of 512 rows at row offset o puts its local index. -/
theorem emb_rows (o : ℕ) (inb9 : ∀ a, (![o, 0] : Fin 2 → ℕ) a + S512x512.size a ≤ S4096x512.size a)
    (r d : Fin 512) (hn : o + r.val < 4096) :
    (Rect.unit (s := S4096x512) ![o, 0] S512x512.size inb9).emb (ix2 r d) = ix2 (⟨o + r.val, hn⟩ : Fin 4096) d :=
  funext fun a => Fin.ext (by
    match a with
    | ⟨0, _⟩ => show o + 1 * r.val = o + r.val; omega
    | ⟨1, _⟩ => show 0 + 1 * d.val = d.val; omega)

/-- ONE stored key chunk: the projected chunk at rows o … o + 511 is that block of the frame's keys. -/
theorem kv_block_K (x0 : Vec Ideal S1x4096x512 .f32) (x1 : Vec Ideal S512 .f32) (x2 : Vec Ideal S512x1536 .bf16)
    (x3 : Vec Ideal S1536 .f32) (o : ℕ)
    (inb2 : ∀ a, (![0, o, 0] : Fin 3 → ℕ) a + S1x512x512.size a ≤ S1x4096x512.size a)
    (inb4 : ∀ a, (![0, 512] : Fin 2 → ℕ) a + S512x512.size a ≤ S512x1536.size a)
    (inb9 : ∀ a, (![o, 0] : Fin 2 → ℕ) a + S512x512.size a ≤ S4096x512.size a)
    (x : (Rect.unit (s := S4096x512) ![o, 0] S512x512.size inb9).shape.Idx) :
    kv x1 (k0_pay2 x3) (k0_pay4 (View.ld x2 (Rect.unit (s := S512x1536) ![0, 512] S512x512.size inb4)))
        (View.ld x0 (Rect.unit (s := S1x4096x512) ![0, o, 0] S1x512x512.size inb2)) x
      = Kfun x0 x1 x2 x3 ((Rect.unit (s := S4096x512) ![o, 0] S512x512.size inb9).emb x) := by
  obtain ⟨r, d, rfl⟩ : ∃ (r d : Fin 512), x = ix2 r d := ⟨x 0, x 1, eq_ix2 x⟩
  have h9 : o + 512 ≤ 4096 := inb9 0
  have hn : o + r.val < 4096 := by have := r.isLt; omega
  rw [emb_rows o inb9 r d hn, kv_apply, chunk_row x0 o inb2 r hn, biasK_apply]
  refine congrArg₂ (· + ·) (Finset.sum_congr rfl fun c _ => ?_) rfl
  rw [wK_apply, wblock_K]
  rfl

/-- ONE stored value chunk. -/
theorem kv_block_V (x0 : Vec Ideal S1x4096x512 .f32) (x1 : Vec Ideal S512 .f32) (x2 : Vec Ideal S512x1536 .bf16)
    (x3 : Vec Ideal S1536 .f32) (o : ℕ)
    (inb2 : ∀ a, (![0, o, 0] : Fin 3 → ℕ) a + S1x512x512.size a ≤ S1x4096x512.size a)
    (inb4 : ∀ a, (![0, 1024] : Fin 2 → ℕ) a + S512x512.size a ≤ S512x1536.size a)
    (inb9 : ∀ a, (![o, 0] : Fin 2 → ℕ) a + S512x512.size a ≤ S4096x512.size a)
    (x : (Rect.unit (s := S4096x512) ![o, 0] S512x512.size inb9).shape.Idx) :
    kv x1 (k0_pay3 x3) (k0_pay5 (View.ld x2 (Rect.unit (s := S512x1536) ![0, 1024] S512x512.size inb4)))
        (View.ld x0 (Rect.unit (s := S1x4096x512) ![0, o, 0] S1x512x512.size inb2)) x
      = Vfun x0 x1 x2 x3 ((Rect.unit (s := S4096x512) ![o, 0] S512x512.size inb9).emb x) := by
  obtain ⟨r, d, rfl⟩ : ∃ (r d : Fin 512), x = ix2 r d := ⟨x 0, x 1, eq_ix2 x⟩
  have h9 : o + 512 ≤ 4096 := inb9 0
  have hn : o + r.val < 4096 := by have := r.isLt; omega
  rw [emb_rows o inb9 r d hn, kv_apply, chunk_row x0 o inb2 r hn, biasV_apply]
  refine congrArg₂ (· + ·) (Finset.sum_congr rfl fun c _ => ?_) rfl
  rw [wV_apply, wblock_V]
  rfl

theorem hz1 : (![0] : Fin 1 → Nat) = fun _ => 0 := funext fun a => by fin_cases a; rfl

/-- ONE stored key chunk, as the body spells it: the loads through the whole operands read the operands. -/
theorem piece_K (arg2 : Memref sig .tc .vmem S1x4096x512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1536 .f32) (harg5 : arg5.IsWhole)
    (x0 : Vec Ideal S1x4096x512 .f32) (x1 : Vec Ideal S512 .f32) (x2 : Vec Ideal S512x1536 .bf16) (x3 : Vec Ideal S1536 .f32) (o : ℕ)
    (inb2 : ∀ a, (![0, o, 0] : Fin 3 → ℕ) a + S1x512x512.size a ≤ S1x4096x512.size a)
    (inb3 : ∀ a, (![0] : Fin 1 → ℕ) a + S512.size a ≤ S512.size a)
    (inb4 : ∀ a, (![0, 512] : Fin 2 → ℕ) a + S512x512.size a ≤ S512x1536.size a)
    (inb5 : ∀ a, (![0] : Fin 1 → ℕ) a + S1536.size a ≤ S1536.size a)
    (inb9 : ∀ a, (![o, 0] : Fin 2 → ℕ) a + S512x512.size a ≤ S4096x512.size a)
    (x : (Rect.unit (s := S4096x512) ![o, 0] S512x512.size inb9).shape.Idx) :
    kv (View.readAt (Elt Ideal) arg3.view (Rect.unit (s := S512) ![0] S512.size inb3).toLoadRect (harg3.unread x1))
        (k0_pay2 (View.readAt (Elt Ideal) arg5.view (Rect.unit (s := S1536) ![0] S1536.size inb5).toLoadRect (harg5.unread x3)))
        (k0_pay4 (View.readAt (Elt Ideal) arg4.view (Rect.unit (s := S512x1536) ![0, 512] S512x512.size inb4).toLoadRect (harg4.unread x2)))
        (View.readAt (Elt Ideal) arg2.view (Rect.unit (s := S1x4096x512) ![0, o, 0] S1x512x512.size inb2).toLoadRect (harg2.unread x0)) x
      = Kfun x0 x1 x2 x3 ((Rect.unit (s := S4096x512) ![o, 0] S512x512.size inb9).emb x) := by
  simp only [View.readAt_eq_ld, harg2.read_unread, harg3.read_unread, harg4.read_unread, harg5.read_unread,
    View.ld_unit_zero (S := S512) hz1, View.ld_unit_zero (S := S1536) hz1]
  exact kv_block_K x0 x1 x2 x3 o inb2 inb4 inb9 x

/-- ONE stored value chunk, as the body spells it. -/
theorem piece_V (arg2 : Memref sig .tc .vmem S1x4096x512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1536 .f32) (harg5 : arg5.IsWhole)
    (x0 : Vec Ideal S1x4096x512 .f32) (x1 : Vec Ideal S512 .f32) (x2 : Vec Ideal S512x1536 .bf16) (x3 : Vec Ideal S1536 .f32) (o : ℕ)
    (inb2 : ∀ a, (![0, o, 0] : Fin 3 → ℕ) a + S1x512x512.size a ≤ S1x4096x512.size a)
    (inb3 : ∀ a, (![0] : Fin 1 → ℕ) a + S512.size a ≤ S512.size a)
    (inb4 : ∀ a, (![0, 1024] : Fin 2 → ℕ) a + S512x512.size a ≤ S512x1536.size a)
    (inb5 : ∀ a, (![0] : Fin 1 → ℕ) a + S1536.size a ≤ S1536.size a)
    (inb9 : ∀ a, (![o, 0] : Fin 2 → ℕ) a + S512x512.size a ≤ S4096x512.size a)
    (x : (Rect.unit (s := S4096x512) ![o, 0] S512x512.size inb9).shape.Idx) :
    kv (View.readAt (Elt Ideal) arg3.view (Rect.unit (s := S512) ![0] S512.size inb3).toLoadRect (harg3.unread x1))
        (k0_pay3 (View.readAt (Elt Ideal) arg5.view (Rect.unit (s := S1536) ![0] S1536.size inb5).toLoadRect (harg5.unread x3)))
        (k0_pay5 (View.readAt (Elt Ideal) arg4.view (Rect.unit (s := S512x1536) ![0, 1024] S512x512.size inb4).toLoadRect (harg4.unread x2)))
        (View.readAt (Elt Ideal) arg2.view (Rect.unit (s := S1x4096x512) ![0, o, 0] S1x512x512.size inb2).toLoadRect (harg2.unread x0)) x
      = Vfun x0 x1 x2 x3 ((Rect.unit (s := S4096x512) ![o, 0] S512x512.size inb9).emb x) := by
  simp only [View.readAt_eq_ld, harg2.read_unread, harg3.read_unread, harg4.read_unread, harg5.read_unread,
    View.ld_unit_zero (S := S512) hz1, View.ld_unit_zero (S := S1536) hz1]
  exact kv_block_V x0 x1 x2 x3 o inb2 inb4 inb9 x

/-! ### The eight stores read back as one function -/

/-- The key scratch after the first query tile of a frame. -/
theorem sout_K (c : Dev nD) (i : grid0.Coords) (arg2 : Memref sig .tc .vmem S1x4096x512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1536 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1x256x512 .f32) (harg8 : arg8.IsWhole) (arg9 : Memref sig .tc .vmem S4096x512 .bf16) (harg9 : arg9.IsWhole) (arg10 : Memref sig .tc .vmem S4096x512 .bf16) (harg10 : arg10.IsWhole) (hc0 : cond0_0 i)
    (x0 : Vec Ideal S1x4096x512 .f32) (x1 : Vec Ideal S512 .f32) (x2 : Vec Ideal S512x1536 .bf16) (x3 : Vec Ideal S1536 .f32) (x4 : Vec Ideal S512x512 .bf16) (x5 : Vec Ideal S512 .f32) :
    sout0_A_0 c i arg2 harg2 arg3 harg3 arg4 harg4 arg5 harg5 arg6 harg6 arg7 harg7 arg8 harg8 arg9 harg9 arg10 harg10 hc0 x0 x1 x2 x3 x4 x5 = Kfun x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  funext y
  refine View.canon_apply_of_pieces (Kfun x0 x1 x2 x3) _ ?_ y (scover0_A_0 c i arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  intro p hp x
  simp only [List.mem_cons, List.not_mem_nil, or_false] at hp
  rcases hp with rfl | rfl | rfl | rfl | rfl | rfl | rfl | rfl
  · exact piece_K arg2 harg2 arg3 harg3 arg4 harg4 arg5 harg5 x0 x1 x2 x3 3584 (by decide) (by decide) (by decide) (by decide) (by decide) x
  · exact piece_K arg2 harg2 arg3 harg3 arg4 harg4 arg5 harg5 x0 x1 x2 x3 3072 (by decide) (by decide) (by decide) (by decide) (by decide) x
  · exact piece_K arg2 harg2 arg3 harg3 arg4 harg4 arg5 harg5 x0 x1 x2 x3 2560 (by decide) (by decide) (by decide) (by decide) (by decide) x
  · exact piece_K arg2 harg2 arg3 harg3 arg4 harg4 arg5 harg5 x0 x1 x2 x3 2048 (by decide) (by decide) (by decide) (by decide) (by decide) x
  · exact piece_K arg2 harg2 arg3 harg3 arg4 harg4 arg5 harg5 x0 x1 x2 x3 1536 (by decide) (by decide) (by decide) (by decide) (by decide) x
  · exact piece_K arg2 harg2 arg3 harg3 arg4 harg4 arg5 harg5 x0 x1 x2 x3 1024 (by decide) (by decide) (by decide) (by decide) (by decide) x
  · exact piece_K arg2 harg2 arg3 harg3 arg4 harg4 arg5 harg5 x0 x1 x2 x3 512 (by decide) (by decide) (by decide) (by decide) (by decide) x
  · exact piece_K arg2 harg2 arg3 harg3 arg4 harg4 arg5 harg5 x0 x1 x2 x3 0 (by decide) (by decide) (by decide) (by decide) (by decide) x

/-- The value scratch after the first query tile of a frame. -/
theorem sout_V (c : Dev nD) (i : grid0.Coords) (arg2 : Memref sig .tc .vmem S1x4096x512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1536 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1x256x512 .f32) (harg8 : arg8.IsWhole) (arg9 : Memref sig .tc .vmem S4096x512 .bf16) (harg9 : arg9.IsWhole) (arg10 : Memref sig .tc .vmem S4096x512 .bf16) (harg10 : arg10.IsWhole) (hc0 : cond0_0 i)
    (x0 : Vec Ideal S1x4096x512 .f32) (x1 : Vec Ideal S512 .f32) (x2 : Vec Ideal S512x1536 .bf16) (x3 : Vec Ideal S1536 .f32) (x4 : Vec Ideal S512x512 .bf16) (x5 : Vec Ideal S512 .f32) :
    sout0_A_1 c i arg2 harg2 arg3 harg3 arg4 harg4 arg5 harg5 arg6 harg6 arg7 harg7 arg8 harg8 arg9 harg9 arg10 harg10 hc0 x0 x1 x2 x3 x4 x5 = Vfun x0 x1 x2 x3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  funext y
  refine View.canon_apply_of_pieces (Vfun x0 x1 x2 x3) _ ?_ y (scover0_A_1 c i arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  intro p hp x
  simp only [List.mem_cons, List.not_mem_nil, or_false] at hp
  rcases hp with rfl | rfl | rfl | rfl | rfl | rfl | rfl | rfl
  · exact piece_V arg2 harg2 arg3 harg3 arg4 harg4 arg5 harg5 x0 x1 x2 x3 3584 (by decide) (by decide) (by decide) (by decide) (by decide) x
  · exact piece_V arg2 harg2 arg3 harg3 arg4 harg4 arg5 harg5 x0 x1 x2 x3 3072 (by decide) (by decide) (by decide) (by decide) (by decide) x
  · exact piece_V arg2 harg2 arg3 harg3 arg4 harg4 arg5 harg5 x0 x1 x2 x3 2560 (by decide) (by decide) (by decide) (by decide) (by decide) x
  · exact piece_V arg2 harg2 arg3 harg3 arg4 harg4 arg5 harg5 x0 x1 x2 x3 2048 (by decide) (by decide) (by decide) (by decide) (by decide) x
  · exact piece_V arg2 harg2 arg3 harg3 arg4 harg4 arg5 harg5 x0 x1 x2 x3 1536 (by decide) (by decide) (by decide) (by decide) (by decide) x
  · exact piece_V arg2 harg2 arg3 harg3 arg4 harg4 arg5 harg5 x0 x1 x2 x3 1024 (by decide) (by decide) (by decide) (by decide) (by decide) x
  · exact piece_V arg2 harg2 arg3 harg3 arg4 harg4 arg5 harg5 x0 x1 x2 x3 512 (by decide) (by decide) (by decide) (by decide) (by decide) x
  · exact piece_V arg2 harg2 arg3 harg3 arg4 harg4 arg5 harg5 x0 x1 x2 x3 0 (by decide) (by decide) (by decide) (by decide) (by decide) x

end Cert.KernelIdeal.Pieces

end
-- ==== Proof.KSteps.lean ====
/-
  The query tile's body as a recurrence of six small steps.

  The body handles one tile of 256 query tokens against four tiles of 1024 key/value tokens.  For each key tile it
  (1) scores the queries against the tile, (2) raises the running row maximum, (3) forms the factor
  exp (old maximum − new maximum), (4) exponentiates the scores shifted by the new maximum, (5) rescales the running
  row sum by the factor and adds the tile's row sum, (6) rescales the running weighted value sum by the factor and adds
  the tile's weights times its values.  After the last tile the weighted sum is divided by the row sum, projected, and
  the bias and the input tile are added.  The steps are stated once here, for any float instance; the body's stores
  are compositions of them.
-/
import proofs.«116806_j90975997264646_2_alg».proof.Proof.Gen.KernelIdeal.Skeleton

noncomputable section

namespace Cert.KernelIdeal.Steps

open Cert.KernelIdeal Cert.KernelIdeal.Gen Idealize.ShloMosaic

variable {F : FTy → Type} [FloatOps F] [Named F]

/-- Step 2: the running row maximum raised by a tile's scores. -/
def tMax (m : FVec F S256x1 .f32) (s : FVec F S256x1024 .f32) : FVec F S256x1 .f32 :=
  maximumf m (shapeCast S256x1 (multiReduction .maximumf [1] S256 s 0xFF800000#32 reduces_S256x1024_S256 (.inl rfl) rfl) shapeCasts_S256_S256x1)

/-- Step 3: the rescaling factor exp (old − new). -/
def tAlpha (m m' : FVec F S256x1 .f32) : FVec F S256x1 .f32 := exp (subf m m')

/-- The scores shifted by the row's maximum. -/
def tSub (s : FVec F S256x1024 .f32) (m' : FVec F S256x1 .f32) : FVec F S256x1024 .f32 :=
  subf s (broadcastTo S256x1024 m' broadcasts_S256x1_S256x1024)

/-- Step 4: the shifted exponentials. -/
def tP (s : FVec F S256x1024 .f32) (m' : FVec F S256x1 .f32) : FVec F S256x1024 .f32 := exp (tSub s m')

/-- Step 5: the running row sum. -/
def tL (α l : FVec F S256x1 .f32) (p : FVec F S256x1024 .f32) : FVec F S256x1 .f32 :=
  addf (mulf α l) (shapeCast S256x1 (multiReduction .add [1] S256 p 0x00000000#32 reduces_S256x1024_S256 (.inl rfl) rfl) shapeCasts_S256_S256x1)

/-- Step 6: the running weighted value sum. -/
def tAcc (α : FVec F S256x1 .f32) (acc : FVec F S256x512 .f32) (p : FVec F S256x1024 .f32) (Vt : Vec F S1024x512 .bf16) : FVec F S256x512 .f32 :=
  addf (mulf (broadcastTo S256x512 α broadcasts_S256x1_S256x512) acc)
    (matmul dot_S256x1024_S1024x512_S256x512_1_0_0_1_n_n none (truncf .bf16 p bitsLt_bf16_f32) Vt (constant S256x512 .f32 0x00000000#32))

/-- The tail: normalise, project, add the bias and the input tile. -/
def tOut (x7 : FVec F S256x512 .f32) (l : FVec F S256x1 .f32) (a : FVec F S256x512 .f32) (pw : Vec F S512x512 .bf16) (pb : Vec F S512 .f32) : FVec F S1x256x512 .f32 :=
  shapeCast S1x256x512
    (addf (addf (matmul dot_S256x512_S512x512_S256x512_1_0_0_1_n_n none
        (truncf .bf16 (divf a (broadcastTo S256x512 l broadcasts_S256x1_S256x512)) bitsLt_bf16_f32)
        (shapeCast S512x512 pw shapeCasts_S512x512_S512x512) (constant S256x512 .f32 0x00000000#32))
      (broadcastTo S256x512 (shapeCast S1x512 pb shapeCasts_S512_S1x512) broadcasts_S1x512_S256x512)) x7)
    shapeCasts_S256x512_S1x256x512

/-! The body's payloads are these steps (each by unfolding). -/

theorem pay47_eq (q : FVec F S256x512 .bf16) (K : Vec F S1024x512 .bf16) : k0_pay47 q K = k0_pay42 q K := rfl
theorem pay52_eq (q : FVec F S256x512 .bf16) (K : Vec F S1024x512 .bf16) : k0_pay52 q K = k0_pay42 q K := rfl
theorem pay58_eq (q : FVec F S256x512 .bf16) (K : Vec F S1024x512 .bf16) : k0_pay58 q K = k0_pay42 q K := rfl

theorem pay43_eq (q : FVec F S256x512 .bf16) (m : FVec F S256x1 .f32) (K : Vec F S1024x512 .bf16) :
    k0_pay43 q m K = tMax m (k0_pay42 q K) := rfl
theorem pay44_eq (q : FVec F S256x512 .bf16) (m : FVec F S256x1 .f32) (K : Vec F S1024x512 .bf16) :
    k0_pay44 q m K = tAlpha m (k0_pay43 q m K) := rfl
theorem pay45_eq (q : FVec F S256x512 .bf16) (m : FVec F S256x1 .f32) (K : Vec F S1024x512 .bf16) :
    k0_pay45 q m K = tP (k0_pay42 q K) (k0_pay43 q m K) := rfl
theorem pay46_eq (q : FVec F S256x512 .bf16) (m : FVec F S256x1 .f32) (a : FVec F S256x512 .f32) (K V : Vec F S1024x512 .bf16) :
    k0_pay46 q m a K V = tAcc (k0_pay44 q m K) a (k0_pay45 q m K) V := rfl
theorem pay48_eq (q : FVec F S256x512 .bf16) (m : FVec F S256x1 .f32) (K0 K1 : Vec F S1024x512 .bf16) :
    k0_pay48 q m K0 K1 = tMax (k0_pay43 q m K0) (k0_pay42 q K1) := rfl
theorem pay49_eq (q : FVec F S256x512 .bf16) (m : FVec F S256x1 .f32) (K0 K1 : Vec F S1024x512 .bf16) :
    k0_pay49 q m K0 K1 = tAlpha (k0_pay43 q m K0) (k0_pay48 q m K0 K1) := rfl
theorem pay50_eq (q : FVec F S256x512 .bf16) (m : FVec F S256x1 .f32) (K0 K1 : Vec F S1024x512 .bf16) :
    k0_pay50 q m K0 K1 = tP (k0_pay42 q K1) (k0_pay48 q m K0 K1) := rfl
theorem pay51_eq (q : FVec F S256x512 .bf16) (m l : FVec F S256x1 .f32) (K0 K1 : Vec F S1024x512 .bf16) :
    k0_pay51 q m l K0 K1 = tL (k0_pay49 q m K0 K1) (tL (k0_pay44 q m K0) l (k0_pay45 q m K0)) (k0_pay50 q m K0 K1) := rfl
theorem pay53_eq (q : FVec F S256x512 .bf16) (m : FVec F S256x1 .f32) (K : Vec F S1024x512 .bf16) :
    k0_pay53 q m K = tMax m (k0_pay42 q K) := rfl
theorem pay54_eq (q : FVec F S256x512 .bf16) (m : FVec F S256x1 .f32) (K : Vec F S1024x512 .bf16) :
    k0_pay54 q m K = tAlpha m (k0_pay53 q m K) := rfl
theorem pay55_eq (q : FVec F S256x512 .bf16) (m : FVec F S256x1 .f32) (K : Vec F S1024x512 .bf16) :
    k0_pay55 q m K = tP (k0_pay42 q K) (k0_pay53 q m K) := rfl
theorem pay56_eq (q : FVec F S256x512 .bf16) (m l : FVec F S256x1 .f32) (K : Vec F S1024x512 .bf16) :
    k0_pay56 q m l K = tL (k0_pay54 q m K) l (k0_pay55 q m K) := rfl
theorem pay57_eq (q : FVec F S256x512 .bf16) (a : FVec F S256x512 .f32) (V1 : Vec F S1024x512 .bf16) (m α : FVec F S256x1 .f32)
    (p : FVec F S256x1024 .f32) (K2 V2 : Vec F S1024x512 .bf16) :
    k0_pay57 q a V1 m α p K2 V2 = tAcc (k0_pay54 q m K2) (tAcc α a p V1) (k0_pay55 q m K2) V2 := rfl
theorem pay59_eq (q : FVec F S256x512 .bf16) (m : FVec F S256x1 .f32) (K2 K3 : Vec F S1024x512 .bf16) :
    k0_pay59 q m K2 K3 = tMax (k0_pay53 q m K2) (k0_pay42 q K3) := rfl
theorem pay60_eq (q : FVec F S256x512 .bf16) (m : FVec F S256x1 .f32) (K2 K3 : Vec F S1024x512 .bf16) :
    k0_pay60 q m K2 K3 = tAlpha (k0_pay53 q m K2) (k0_pay59 q m K2 K3) := rfl
theorem pay61_eq (q : FVec F S256x512 .bf16) (m : FVec F S256x1 .f32) (K2 K3 : Vec F S1024x512 .bf16) :
    k0_pay61 q m K2 K3 = tSub (k0_pay42 q K3) (k0_pay59 q m K2 K3) := rfl
theorem pay1_eq (x7 : FVec F S256x512 .f32) (l : FVec F S256x1 .f32) (a : FVec F S256x512 .f32) (V3 : Vec F S1024x512 .bf16)
    (α : FVec F S256x1 .f32) (s : FVec F S256x1024 .f32) (pw : Vec F S512x512 .bf16) (pb : Vec F S512 .f32) :
    k0_pay1 x7 l a V3 α s pw pb = tOut x7 (tL α l (exp s)) (tAcc α a (exp s) V3) pw pb := rfl

end Cert.KernelIdeal.Steps

end
-- ==== Proof.KStepsIdeal.lean ====
/-
  The six steps and the tail read at an index, on the extended reals.

  Row `r` of the tile is handled independently of the other rows: each step's value in row `r` is a function of the
  previous steps' values in row `r`, the tile of keys or values, and nothing else.  A score is a dot product over the
  512 channels; the row maximum is a maximum folded from −∞ over the tile's 1024 keys; the row sum and the weighted
  value sum are plain sums over the tile's keys.
-/
import proofs.«116806_j90975997264646_2_alg».proof.Proof.KSteps
import proofs.«116806_j90975997264646_2_alg».proof.Proof.LibColumn
import proofs.«116806_j90975997264646_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Steps

open Cert.KernelIdeal Cert.KernelIdeal.Gen Idealize.ShloMosaic Idealize.ShloMosaic.ValueIdx
open Cert.Layer.Column Cert.Layer.Matmul

/-- The f32 word of −∞ is the bottom of the extended reals. -/
theorem ofBits_neg_inf : Ideal.ofBits .f32 0xFF800000#32 = ⊥ := by simp [Ideal.ofBits, Ideal.ieee]

/-- The index a reduction over the second axis inserts: row `r`, column `k`. -/
theorem lift_row (h : Shape.Reduces S256x1024 [1] S256) (r : Fin 256) (k : Fin 1024) :
    h.lift (ix1 r) k = ix2 r k :=
  funext fun a => Fin.ext (by match a with | ⟨0, _⟩ => rfl | ⟨1, _⟩ => rfl)

/-- A row's maximum over the tile, folded from −∞. -/
theorem rowmax_apply (s : FVec Ideal S256x1024 .f32) (hφ : FKind.Formats .f32)
    (hacc : (0xFF800000#32 : BitVec 32) = 0xFF800000#32) (r : Fin 256) :
    multiReduction .maximumf [1] S256 s 0xFF800000#32 reduces_S256x1024_S256 hφ hacc (ix1 r)
      = (Finset.univ : Finset (Fin 1024)).fold max ⊥ (fun j => s (ix2 r j)) := by
  refine (Ideal.multiReduction_maximumf_single s 0xFF800000#32 reduces_S256x1024_S256 hφ hacc (ix1 r)).trans ?_
  show (Finset.univ : Finset (Fin 1024)).fold max (Ideal.ofBits .f32 0xFF800000#32) _ = _
  rw [ofBits_neg_inf]
  congr 1
  funext k
  exact congrArg s (lift_row _ r k)

/-- A row's sum over the tile. -/
theorem rowsum_apply (p : FVec Ideal S256x1024 .f32) (hφ : FKind.Formats .f32)
    (hacc : (0x00000000#32 : BitVec 32) = 0x00000000#32) (r : Fin 256) :
    multiReduction .add [1] S256 p 0x00000000#32 reduces_S256x1024_S256 hφ hacc (ix1 r) = ∑ j : Fin 1024, p (ix2 r j) :=
  (Ideal.multiReduction_add_single p 0x00000000#32 reduces_S256x1024_S256 hφ hacc (ix1 r)).trans
    (Finset.sum_congr rfl fun k _ => congrArg p (lift_row _ r k))

/-- A score: the query row against the key row, over the channels. -/
theorem score_apply (q : FVec Ideal S256x512 .bf16) (K : Vec Ideal S1024x512 .bf16) (r : Fin 256) (j : Fin 1024) :
    k0_pay42 q K (ix2 r j) = ∑ d : Fin 512, q (ix2 r d) * K (ix2 j d) := by
  unfold k0_pay42
  show FloatOps.matmul dot_S256x512_S512x1024_S256x1024_1_0_0_1_n_n none q (transpose S512x1024 [1, 0] K transposes_S1024x512_p1_0_S512x1024)
      (constant S256x1024 .f32 0x00000000#32) (ix2 r j) = _
  rw [Ideal.matmul_constant_zero_apply, plain_contr_sum _ rfl rfl rfl rfl rfl rfl]
  refine Finset.sum_congr rfl fun d _ => ?_
  show q (ix2 r d) * transpose S512x1024 [1, 0] K transposes_S1024x512_p1_0_S512x1024 (ix2 d j) = _
  rw [transpose_ix2_apply]

/-- The raised maximum of row `r`. -/
theorem tMax_apply (m : FVec Ideal S256x1 .f32) (s : FVec Ideal S256x1024 .f32) (r : Fin 256) :
    tMax m s (ix2 r (0 : Fin 1)) = max (m (ix2 r (0 : Fin 1))) ((Finset.univ : Finset (Fin 1024)).fold max ⊥ (fun j => s (ix2 r j))) := by
  unfold tMax
  show max (m (ix2 r (0 : Fin 1))) (shapeCast S256x1 _ shapeCasts_S256_S256x1 (ix2 r (0 : Fin 1))) = _
  rw [shapeCast_a_a1_apply]
  exact congrArg (max (m (ix2 r (0 : Fin 1))) ·) (rowmax_apply s _ _ r)

/-- The rescaling factor at any index. -/
theorem tAlpha_apply (m m' : FVec Ideal S256x1 .f32) (i : S256x1.Idx) : tAlpha m m' i = Ideal.exp (m i - m' i) := rfl

/-- A shifted score. -/
theorem tSub_apply (s : FVec Ideal S256x1024 .f32) (m' : FVec Ideal S256x1 .f32) (r : Fin 256) (j : Fin 1024) :
    tSub s m' (ix2 r j) = s (ix2 r j) - m' (ix2 r (0 : Fin 1)) := by
  unfold tSub
  show s (ix2 r j) - broadcastTo S256x1024 m' broadcasts_S256x1_S256x1024 (ix2 r j) = _
  rw [broadcastTo_a1_ab_apply]

/-- A shifted exponential. -/
theorem tP_apply (s : FVec Ideal S256x1024 .f32) (m' : FVec Ideal S256x1 .f32) (r : Fin 256) (j : Fin 1024) :
    tP s m' (ix2 r j) = Ideal.exp (s (ix2 r j) - m' (ix2 r (0 : Fin 1))) := by
  unfold tP
  show Ideal.exp (tSub s m' (ix2 r j)) = _
  rw [tSub_apply]

/-- The running row sum of row `r`. -/
theorem tL_apply (α l : FVec Ideal S256x1 .f32) (p : FVec Ideal S256x1024 .f32) (r : Fin 256) :
    tL α l p (ix2 r (0 : Fin 1)) = α (ix2 r (0 : Fin 1)) * l (ix2 r (0 : Fin 1)) + ∑ j : Fin 1024, p (ix2 r j) := by
  unfold tL
  show α (ix2 r (0 : Fin 1)) * l (ix2 r (0 : Fin 1)) + shapeCast S256x1 _ shapeCasts_S256_S256x1 (ix2 r (0 : Fin 1)) = _
  rw [shapeCast_a_a1_apply]
  exact congrArg (α (ix2 r (0 : Fin 1)) * l (ix2 r (0 : Fin 1)) + ·) (rowsum_apply p _ _ r)

/-- The running weighted value sum at row `r`, channel `d`. -/
theorem tAcc_apply (α : FVec Ideal S256x1 .f32) (acc : FVec Ideal S256x512 .f32) (p : FVec Ideal S256x1024 .f32)
    (Vt : Vec Ideal S1024x512 .bf16) (r : Fin 256) (d : Fin 512) :
    tAcc α acc p Vt (ix2 r d) = α (ix2 r (0 : Fin 1)) * acc (ix2 r d) + ∑ j : Fin 1024, p (ix2 r j) * Vt (ix2 j d) := by
  unfold tAcc
  show broadcastTo S256x512 α broadcasts_S256x1_S256x512 (ix2 r d) * acc (ix2 r d)
      + FloatOps.matmul dot_S256x1024_S1024x512_S256x512_1_0_0_1_n_n none _ Vt (constant S256x512 .f32 0x00000000#32) (ix2 r d) = _
  rw [broadcastTo_a1_ab_apply, Ideal.matmul_constant_zero_apply, plain_contr_sum _ rfl rfl rfl rfl rfl rfl]
  rfl

/-- The tail at row `r`, channel `d`: the normalised weighted sum projected, plus bias, plus the input tile. -/
theorem tOut_apply (x7 : FVec Ideal S256x512 .f32) (l : FVec Ideal S256x1 .f32) (a : FVec Ideal S256x512 .f32)
    (pw : Vec Ideal S512x512 .bf16) (pb : Vec Ideal S512 .f32) (r : Fin 256) (d : Fin 512) :
    tOut x7 l a pw pb (ix3 (0 : Fin 1) r d)
      = ((∑ c : Fin 512, Ideal.div (a (ix2 r c)) (l (ix2 r (0 : Fin 1))) * pw (ix2 c d)) + pb (ix1 d)) + x7 (ix2 r d) := by
  unfold tOut
  rw [shapeCast_ab_1ab_apply]
  show (FloatOps.matmul dot_S256x512_S512x512_S256x512_1_0_0_1_n_n none _ _ (constant S256x512 .f32 0x00000000#32) (ix2 r d)
      + broadcastTo S256x512 _ broadcasts_S1x512_S256x512 (ix2 r d)) + x7 (ix2 r d) = _
  rw [Ideal.matmul_constant_zero_apply, plain_contr_sum _ rfl rfl rfl rfl rfl rfl, broadcastTo_1b_ab_apply, shapeCast_a_1a_apply]
  congr 2
  refine Finset.sum_congr rfl fun c _ => ?_
  show Ideal.div (a (ix2 r c)) (broadcastTo S256x512 l broadcasts_S256x1_S256x512 (ix2 r c)) * shapeCast S512x512 pw shapeCasts_S512x512_S512x512 (ix2 c d) = _
  rw [broadcastTo_a1_ab_apply, shapeCast_self]

end Cert.KernelIdeal.Steps

end
-- ==== Proof.LibSoftmax.lean ====
/-
  Real-valued extended reals and the softmax.

  An extended real is FINITE when it is neither infinity.  The finite ones are closed under the exact
  operations a normalised attention layer uses (sum, product, quotient by a nonzero, square root of a
  nonnegative, exponential, maximum), and on them the usual laws of the reals hold.  Two such laws are
  proved here:

  * a common factor moves out of a dot product, ∑ (q d · c) · k d = (∑ q d · k d) · c;
  * the softmax-weighted average computed tile by tile with a running shift — each tile rescaling the
    accumulated numerator and denominator by exp (old shift − new shift) — equals the one-shot softmax
    average with ANY finite shift, because exp (a − b) · exp (b − c) = exp (a − c) and the common factor
    exp (−shift) cancels between numerator and denominator.
-/
import Mathlib
import Idealize.ShloMosaic.PureOps.Ideal

open Idealize.ShloMosaic

namespace Cert.Layer.Softmax

/-- An extended real that is a real number: neither infinity. -/
def IsFin (x : EReal) : Prop := x ≠ ⊥ ∧ x ≠ ⊤

theorem isFin_coe (r : ℝ) : IsFin (r : EReal) := ⟨EReal.coe_ne_bot r, EReal.coe_ne_top r⟩

theorem IsFin.exists_coe {x : EReal} (h : IsFin x) : ∃ r : ℝ, x = (r : EReal) := by
  induction x using EReal.rec with
  | bot => exact absurd rfl h.1
  | top => exact absurd rfl h.2
  | coe r => exact ⟨r, rfl⟩

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isFin_zero : IsFin (0 : EReal) := ⟨EReal.zero_ne_bot, EReal.zero_ne_top⟩

theorem IsFin.add {x y : EReal} (hx : IsFin x) (hy : IsFin y) : IsFin (x + y) := by
  obtain ⟨a, rfl⟩ := hx.exists_coe
  obtain ⟨b, rfl⟩ := hy.exists_coe
  rw [← EReal.coe_add]; exact isFin_coe _

theorem IsFin.sub {x y : EReal} (hx : IsFin x) (hy : IsFin y) : IsFin (x - y) := by
  obtain ⟨a, rfl⟩ := hx.exists_coe
  obtain ⟨b, rfl⟩ := hy.exists_coe
  rw [← EReal.coe_sub]; exact isFin_coe _

theorem IsFin.mul {x y : EReal} (hx : IsFin x) (hy : IsFin y) : IsFin (x * y) := by
  obtain ⟨a, rfl⟩ := hx.exists_coe
  obtain ⟨b, rfl⟩ := hy.exists_coe
  rw [← EReal.coe_mul]; exact isFin_coe _

theorem IsFin.max {x y : EReal} (hx : IsFin x) (hy : IsFin y) : IsFin (max x y) := by
  rcases max_choice x y with h | h <;> rw [h] <;> assumption

theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h _ (Finset.mem_insert_self _ _)).add (ih (fun i hi => h i (Finset.mem_insert_of_mem hi)))

/-- A maximum folded from the bottom over a nonempty finite family of finite values is finite. -/
theorem isFin_fold_max {ι : Type*} [Fintype ι] [Nonempty ι] (f : ι → EReal) (h : ∀ i, IsFin (f i)) :
    IsFin ((Finset.univ : Finset ι).fold max (⊥ : EReal) f) := by
  constructor
  · intro hbot
    have hle : f (Classical.arbitrary ι) ≤ (Finset.univ : Finset ι).fold max (⊥ : EReal) f :=
      (Finset.le_fold_max _).mpr (Or.inr ⟨_, Finset.mem_univ _, le_rfl⟩)
    rw [hbot] at hle
    exact (h _).1 (le_bot_iff.mp hle)
  · have hlt : (Finset.univ : Finset ι).fold max (⊥ : EReal) f < ⊤ :=
      (Finset.fold_max_lt _).mpr ⟨bot_lt_top, fun i _ => lt_top_iff_ne_top.mpr (h i).2⟩
    exact hlt.ne

theorem IsFin.exp {x : EReal} (hx : IsFin x) : IsFin (Ideal.exp x) := by
  obtain ⟨a, rfl⟩ := hx.exists_coe
  rw [Ideal.exp_coe]; exact isFin_coe _

theorem exp_pos_of_isFin {x : EReal} (hx : IsFin x) : 0 < Ideal.exp x := by
  obtain ⟨a, rfl⟩ := hx.exists_coe
  rw [Ideal.exp_coe]; exact EReal.coe_pos.mpr (Real.exp_pos a)

/-- The quotient of finite values by a nonzero finite value is finite. -/
theorem IsFin.div {x y : EReal} (hx : IsFin x) (hy : IsFin y) (h0 : y ≠ 0) : IsFin (Ideal.div x y) := by
  obtain ⟨a, rfl⟩ := hx.exists_coe
  obtain ⟨b, rfl⟩ := hy.exists_coe
  have hb : b ≠ 0 := by
    intro hb; apply h0; rw [hb]; rfl
  rw [Ideal.div_coe hb, ← EReal.coe_mul]; exact isFin_coe _

theorem IsFin.sqrt {x : EReal} (hx : IsFin x) (h0 : 0 ≤ x) : IsFin (Ideal.sqrt x) := by
  obtain ⟨a, rfl⟩ := hx.exists_coe
  have ha : 0 ≤ a := EReal.coe_nonneg.mp h0
  rw [Ideal.sqrt_coe, if_neg (not_lt.mpr ha)]; exact isFin_coe _

theorem sqrt_pos_of_pos {x : EReal} (hx : IsFin x) (h0 : 0 < x) : 0 < Ideal.sqrt x := by
  obtain ⟨a, rfl⟩ := hx.exists_coe
  have ha : 0 < a := EReal.coe_pos.mp h0
  rw [Ideal.sqrt_coe, if_neg (not_lt.mpr ha.le)]
  exact EReal.coe_pos.mpr (Real.sqrt_pos.mpr ha)

theorem mul_self_nonneg_of_isFin {x : EReal} (hx : IsFin x) : 0 ≤ x * x := by
  obtain ⟨a, rfl⟩ := hx.exists_coe
  rw [← EReal.coe_mul]; exact EReal.coe_nonneg.mpr (mul_self_nonneg a)

/-- A sum of nonnegative extended reals is nonnegative. -/
theorem sum_nonneg' {ι : Type*} (s : Finset ι) (f : ι → EReal) (h : ∀ i ∈ s, 0 ≤ f i) : 0 ≤ ∑ i ∈ s, f i :=
  Finset.sum_nonneg h

/-- A sum over a nonempty finite type of positive finite values is positive (hence nonzero). -/
theorem sum_pos' {ι : Type*} [Fintype ι] [Nonempty ι] (f : ι → EReal) (h : ∀ i, 0 < f i) : 0 < ∑ i, f i := by
  classical
  rw [← Finset.add_sum_erase Finset.univ f (Finset.mem_univ (Classical.arbitrary ι))]
  exact add_pos_of_pos_of_nonneg (h _) (Finset.sum_nonneg (fun i _ => (h i).le))

/-- A common finite factor moves out of a dot product of finite vectors. -/
theorem sum_mul_scale {ι : Type*} [Fintype ι] (q k : ι → EReal) (c : EReal)
    (hq : ∀ d, IsFin (q d)) (hk : ∀ d, IsFin (k d)) (hc : IsFin c) :
    ∑ d, (q d * c) * k d = (∑ d, q d * k d) * c := by
  choose q' hq' using fun d => (hq d).exists_coe
  choose k' hk' using fun d => (hk d).exists_coe
  obtain ⟨c', rfl⟩ := hc.exists_coe
  simp only [hq', hk', ← EReal.coe_mul, ← coe_sum]
  congr 1
  rw [Finset.sum_mul]
  exact Finset.sum_congr rfl (fun d _ => by ring)

/-- One tile of the running denominator, over the reals: rescaling `P / exp m` by `exp (m - m')` and adding
    the new tile's shifted exponentials gives `(P + new tile) / exp m'`. -/
private theorem den_step {ι : Type*} [Fintype ι] (f : ι → ℝ) (m m' P : ℝ) :
    Ideal.exp ((m : EReal) - (m' : EReal)) * ((P / Real.exp m : ℝ) : EReal)
        + ∑ j, Ideal.exp ((f j : EReal) - (m' : EReal))
      = (((P + ∑ j, Real.exp (f j)) / Real.exp m' : ℝ) : EReal) := by
  simp only [← EReal.coe_sub, Ideal.exp_coe, ← coe_sum, ← EReal.coe_mul, ← EReal.coe_add]
  congr 1
  simp only [Real.exp_sub]
  rw [← Finset.sum_div]
  have h1 := Real.exp_ne_zero m
  have h2 := Real.exp_ne_zero m'
  field_simp

/-- One tile of the running numerator, over the reals. -/
private theorem num_step {ι : Type*} [Fintype ι] (f g : ι → ℝ) (m m' P : ℝ) :
    Ideal.exp ((m : EReal) - (m' : EReal)) * ((P / Real.exp m : ℝ) : EReal)
        + ∑ j, Ideal.exp ((f j : EReal) - (m' : EReal)) * (g j : EReal)
      = (((P + ∑ j, Real.exp (f j) * g j) / Real.exp m' : ℝ) : EReal) := by
  simp only [← EReal.coe_sub, Ideal.exp_coe, ← coe_sum, ← EReal.coe_mul, ← EReal.coe_add]
  congr 1
  simp only [Real.exp_sub]
  have hs : ∑ j, Real.exp (f j) / Real.exp m' * g j = (∑ j, Real.exp (f j) * g j) / Real.exp m' := by
    rw [Finset.sum_div]
    exact Finset.sum_congr rfl (fun j _ => by ring)
  rw [hs]
  have h1 := Real.exp_ne_zero m
  have h2 := Real.exp_ne_zero m'
  field_simp

/-- The cancellation of the common shift factors, over the reals. -/
private theorem real_final {ι : Type*} [Fintype ι] [Nonempty ι] (S V : Fin 4 → ι → ℝ) (μ4 μ : ℝ) :
    (∑ k, ∑ j, Real.exp (S k j) * V k j) / Real.exp μ4
        * (1 / ((∑ k, ∑ j, Real.exp (S k j)) / Real.exp μ4))
      = ∑ k, ∑ j, Real.exp (S k j - μ) * (1 / ∑ k', ∑ j', Real.exp (S k' j' - μ)) * V k j := by
  have hT : 0 < ∑ k, ∑ j, Real.exp (S k j) :=
    Finset.sum_pos (fun k _ => Finset.sum_pos (fun j _ => Real.exp_pos _) Finset.univ_nonempty)
      Finset.univ_nonempty
  have hZ : ∑ k', ∑ j', Real.exp (S k' j' - μ) = (∑ k, ∑ j, Real.exp (S k j)) / Real.exp μ := by
    simp only [Real.exp_sub, Finset.sum_div]
  rw [hZ]
  have hterm : ∀ k j, Real.exp (S k j - μ) * (1 / ((∑ k, ∑ j, Real.exp (S k j)) / Real.exp μ)) * V k j
      = Real.exp (S k j) * V k j * (1 / (∑ k, ∑ j, Real.exp (S k j))) := by
    intro k j
    rw [Real.exp_sub]
    have h1 := Real.exp_ne_zero μ
    have h2 := hT.ne'
    field_simp
  simp only [hterm, ← Finset.sum_mul]
  have h1 := Real.exp_ne_zero μ4
  have h2 := hT.ne'
  field_simp

/-- THE TILED SOFTMAX AVERAGE.  Scores `s` and values `v` over four tiles of a finite nonempty index type;
    `m1 … m4` the shifts after each tile and `M` the one-shot shift, all finite (their values do not matter);
    `α·`, `l·`, `a·` the rescaling factors, denominators and numerators exactly as the tiled recurrence
    computes them, started from the shift `⊥`, denominator `0` and numerator `0`.  Then the tiled quotient is
    the one-shot weighted sum over all entries (indexed by any type `α` in bijection with tile × position). -/
theorem tiled_softmax_avg {ι α : Type*} [Fintype ι] [Nonempty ι] [Fintype α] (e : α ≃ Fin 4 × ι)
    (s v : Fin 4 → ι → EReal) (hs : ∀ k j, IsFin (s k j)) (hv : ∀ k j, IsFin (v k j))
    (m1 m2 m3 m4 M : EReal) (h1 : IsFin m1) (h2 : IsFin m2) (h3 : IsFin m3) (h4 : IsFin m4) (hM : IsFin M)
    (α0 α1 α2 α3 l1 l2 l3 l4 a1 a2 a3 a4 : EReal)
    (hα0 : α0 = Ideal.exp (⊥ - m1))
    (hl1 : l1 = α0 * 0 + ∑ j, Ideal.exp (s 0 j - m1))
    (ha1 : a1 = α0 * 0 + ∑ j, Ideal.exp (s 0 j - m1) * v 0 j)
    (hα1 : α1 = Ideal.exp (m1 - m2))
    (hl2 : l2 = α1 * l1 + ∑ j, Ideal.exp (s 1 j - m2))
    (ha2 : a2 = α1 * a1 + ∑ j, Ideal.exp (s 1 j - m2) * v 1 j)
    (hα2 : α2 = Ideal.exp (m2 - m3))
    (hl3 : l3 = α2 * l2 + ∑ j, Ideal.exp (s 2 j - m3))
    (ha3 : a3 = α2 * a2 + ∑ j, Ideal.exp (s 2 j - m3) * v 2 j)
    (hα3 : α3 = Ideal.exp (m3 - m4))
    (hl4 : l4 = α3 * l3 + ∑ j, Ideal.exp (s 3 j - m4))
    (ha4 : a4 = α3 * a3 + ∑ j, Ideal.exp (s 3 j - m4) * v 3 j) :
    Ideal.div a4 l4
      = ∑ x : α, Ideal.div (Ideal.exp (s (e x).1 (e x).2 - M)) (∑ y : α, Ideal.exp (s (e y).1 (e y).2 - M))
          * v (e x).1 (e x).2 := by
  classical
  -- real witnesses of every finite quantity
  choose S hS using fun k j => (hs k j).exists_coe
  choose V hV using fun k j => (hv k j).exists_coe
  obtain ⟨μ1, rfl⟩ := h1.exists_coe
  obtain ⟨μ2, rfl⟩ := h2.exists_coe
  obtain ⟨μ3, rfl⟩ := h3.exists_coe
  obtain ⟨μ4, rfl⟩ := h4.exists_coe
  obtain ⟨μ, rfl⟩ := hM.exists_coe
  -- the first rescaling factor is exp ⊥ = 0
  have hα0' : α0 = 0 := by rw [hα0, EReal.bot_sub, Ideal.exp_bot]
  -- the running denominators: after tile k, (sum of the exponentials so far) / exp (shift k)
  have hL1 : l1 = (((∑ j, Real.exp (S 0 j)) / Real.exp μ1 : ℝ) : EReal) := by
    rw [hl1, hα0', zero_mul, zero_add]
    simp only [hS, ← EReal.coe_sub, Ideal.exp_coe, ← coe_sum]
    congr 1
    simp only [Real.exp_sub, Finset.sum_div]
  have hL2 : l2 = ((((∑ j, Real.exp (S 0 j)) + ∑ j, Real.exp (S 1 j)) / Real.exp μ2 : ℝ) : EReal) := by
    rw [hl2, hα1, hL1]; simp only [hS]; exact den_step (S 1) μ1 μ2 _
  have hL3 : l3 = (((((∑ j, Real.exp (S 0 j)) + ∑ j, Real.exp (S 1 j)) + ∑ j, Real.exp (S 2 j))
      / Real.exp μ3 : ℝ) : EReal) := by
    rw [hl3, hα2, hL2]; simp only [hS]; exact den_step (S 2) μ2 μ3 _
  have hL4 : l4 = ((((((∑ j, Real.exp (S 0 j)) + ∑ j, Real.exp (S 1 j)) + ∑ j, Real.exp (S 2 j))
      + ∑ j, Real.exp (S 3 j)) / Real.exp μ4 : ℝ) : EReal) := by
    rw [hl4, hα3, hL3]; simp only [hS]; exact den_step (S 3) μ3 μ4 _
  -- the running numerators
  have hA1 : a1 = (((∑ j, Real.exp (S 0 j) * V 0 j) / Real.exp μ1 : ℝ) : EReal) := by
    rw [ha1, hα0', zero_mul, zero_add]
    simp only [hS, hV, ← EReal.coe_sub, Ideal.exp_coe, ← EReal.coe_mul, ← coe_sum]
    congr 1
    simp only [Real.exp_sub]
    rw [Finset.sum_div]
    exact Finset.sum_congr rfl (fun j _ => by ring)
  have hA2 : a2 = ((((∑ j, Real.exp (S 0 j) * V 0 j) + ∑ j, Real.exp (S 1 j) * V 1 j)
      / Real.exp μ2 : ℝ) : EReal) := by
    rw [ha2, hα1, hA1]; simp only [hS, hV]; exact num_step (S 1) (V 1) μ1 μ2 _
  have hA3 : a3 = (((((∑ j, Real.exp (S 0 j) * V 0 j) + ∑ j, Real.exp (S 1 j) * V 1 j)
      + ∑ j, Real.exp (S 2 j) * V 2 j) / Real.exp μ3 : ℝ) : EReal) := by
    rw [ha3, hα2, hA2]; simp only [hS, hV]; exact num_step (S 2) (V 2) μ2 μ3 _
  have hA4 : a4 = ((((((∑ j, Real.exp (S 0 j) * V 0 j) + ∑ j, Real.exp (S 1 j) * V 1 j)
      + ∑ j, Real.exp (S 2 j) * V 2 j) + ∑ j, Real.exp (S 3 j) * V 3 j) / Real.exp μ4 : ℝ) : EReal) := by
    rw [ha4, hα3, hA3]; simp only [hS, hV]; exact num_step (S 3) (V 3) μ3 μ4 _
  -- sums over α are sums over tile × position
  have hsumα : ∀ g : Fin 4 → ι → ℝ, ∑ x : α, g (e x).1 (e x).2 = ∑ k, ∑ j, g k j := fun g =>
    (Equiv.sum_comp e (fun p : Fin 4 × ι => g p.1 p.2)).trans (Fintype.sum_prod_type _)
  have hZα : ∑ y : α, Real.exp (S (e y).1 (e y).2 - μ) = ∑ k, ∑ j, Real.exp (S k j - μ) :=
    hsumα (fun k j => Real.exp (S k j - μ))
  have hZpos : 0 < ∑ k : Fin 4, ∑ j, Real.exp (S k j - μ) :=
    Finset.sum_pos (fun k _ => Finset.sum_pos (fun j _ => Real.exp_pos _) Finset.univ_nonempty)
      Finset.univ_nonempty
  have hTpos : 0 < ∑ k : Fin 4, ∑ j, Real.exp (S k j) :=
    Finset.sum_pos (fun k _ => Finset.sum_pos (fun j _ => Real.exp_pos _) Finset.univ_nonempty)
      Finset.univ_nonempty
  -- the one-shot denominator is a positive real
  have hden : (∑ y : α, Ideal.exp (s (e y).1 (e y).2 - (μ : EReal)))
      = ((∑ k, ∑ j, Real.exp (S k j - μ) : ℝ) : EReal) := by
    simp only [hS, ← EReal.coe_sub, Ideal.exp_coe, ← coe_sum]
    rw [hZα]
  -- the tiled sums written over the tile index
  have hT4 : (((∑ j, Real.exp (S 0 j)) + ∑ j, Real.exp (S 1 j)) + ∑ j, Real.exp (S 2 j))
      + ∑ j, Real.exp (S 3 j) = ∑ k, ∑ j, Real.exp (S k j) :=
    (Fin.sum_univ_four (fun k => ∑ j, Real.exp (S k j))).symm
  have hU4 : (((∑ j, Real.exp (S 0 j) * V 0 j) + ∑ j, Real.exp (S 1 j) * V 1 j)
      + ∑ j, Real.exp (S 2 j) * V 2 j) + ∑ j, Real.exp (S 3 j) * V 3 j
      = ∑ k, ∑ j, Real.exp (S k j) * V k j :=
    (Fin.sum_univ_four (fun k => ∑ j, Real.exp (S k j) * V k j)).symm
  have hL4ne : (∑ k : Fin 4, ∑ j, Real.exp (S k j)) / Real.exp μ4 ≠ 0 :=
    (div_pos hTpos (Real.exp_pos _)).ne'
  rw [hL4, hA4, hT4, hU4, hden, Ideal.div_coe hL4ne]
  simp only [Ideal.div_coe hZpos.ne', hS, hV, ← EReal.coe_sub, Ideal.exp_coe, ← EReal.coe_mul, ← coe_sum]
  congr 1
  rw [real_final S V μ4 μ]
  exact (hsumα (fun k j => Real.exp (S k j - μ) * (1 / ∑ k', ∑ j', Real.exp (S k' j' - μ)) * V k j)).symm

end Cert.Layer.Softmax
-- ==== Proof.KAttnRow.lean ====
/-
  One row of the query tile through the four key/value tiles.

  Fix a query row and an output channel.  Given the row's scores against each tile's keys and the channel's values in
  each tile — all finite — the recurrence's final quotient (weighted value sum over row sum) is the one-shot softmax
  average over all 4096 keys, with any finite shift.  The running maxima enter only through being finite: each is a
  maximum folded from −∞ over finitely many finite scores.
-/
import proofs.«116806_j90975997264646_2_alg».proof.Proof.KStepsIdeal
import proofs.«116806_j90975997264646_2_alg».proof.Proof.LibSoftmax

noncomputable section

namespace Cert.KernelIdeal.Steps

open Cert.KernelIdeal Cert.KernelIdeal.Gen Idealize.ShloMosaic Idealize.ShloMosaic.ValueIdx
open Cert.Layer.Softmax

theorem attn_row {α : Type} [Fintype α] (e : α ≃ Fin 4 × Fin 1024)
    (q : FVec Ideal S256x512 .bf16) (K0 K1 K2 K3 V0 V1 V2 V3 : Vec Ideal S1024x512 .bf16)
    (m0 l0 : FVec Ideal S256x1 .f32) (a0 : FVec Ideal S256x512 .f32) (r : Fin 256) (c : Fin 512)
    (S Vv : Fin 4 → Fin 1024 → EReal)
    (hS0 : ∀ j, k0_pay42 q K0 (ix2 r j) = S 0 j) (hS1 : ∀ j, k0_pay42 q K1 (ix2 r j) = S 1 j)
    (hS2 : ∀ j, k0_pay42 q K2 (ix2 r j) = S 2 j) (hS3 : ∀ j, k0_pay42 q K3 (ix2 r j) = S 3 j)
    (hV0 : ∀ j, V0 (ix2 j c) = Vv 0 j) (hV1 : ∀ j, V1 (ix2 j c) = Vv 1 j)
    (hV2 : ∀ j, V2 (ix2 j c) = Vv 2 j) (hV3 : ∀ j, V3 (ix2 j c) = Vv 3 j)
    (hm0 : m0 (ix2 r (0 : Fin 1)) = ⊥) (hl0 : l0 (ix2 r (0 : Fin 1)) = 0) (ha0 : a0 (ix2 r c) = 0)
    (hS : ∀ k j, IsFin (S k j)) (hVv : ∀ k j, IsFin (Vv k j)) (M : EReal) (hM : IsFin M) :
    let s1 := k0_pay42 q K0; let m1 := tMax m0 s1; let α1 := tAlpha m0 m1; let p1 := tP s1 m1; let l1 := tL α1 l0 p1; let a1 := tAcc α1 a0 p1 V0
    let s2 := k0_pay42 q K1; let m2 := tMax m1 s2; let α2 := tAlpha m1 m2; let p2 := tP s2 m2; let l2 := tL α2 l1 p2; let a2 := tAcc α2 a1 p2 V1
    let s3 := k0_pay42 q K2; let m3 := tMax m2 s3; let α3 := tAlpha m2 m3; let p3 := tP s3 m3; let l3 := tL α3 l2 p3; let a3 := tAcc α3 a2 p3 V2
    let s4 := k0_pay42 q K3; let m4 := tMax m3 s4; let α4 := tAlpha m3 m4; let p4 := tP s4 m4; let l4 := tL α4 l3 p4; let a4 := tAcc α4 a3 p4 V3
    Ideal.div (a4 (ix2 r c)) (l4 (ix2 r (0 : Fin 1)))
      = ∑ x : α, Ideal.div (Ideal.exp (S (e x).1 (e x).2 - M)) (∑ y : α, Ideal.exp (S (e y).1 (e y).2 - M)) * Vv (e x).1 (e x).2 := by
  intro s1 m1 α1 p1 l1 a1 s2 m2 α2 p2 l2 a2 s3 m3 α3 p3 l3 a3 s4 m4 α4 p4 l4 a4
  have hm1 : m1 (ix2 r (0 : Fin 1)) = max (⊥) ((Finset.univ : Finset (Fin 1024)).fold max ⊥ (fun j => S 0 j)) := by
    show tMax m0 s1 (ix2 r (0 : Fin 1)) = _
    rw [tMax_apply, hm0]
    congr 2
    funext j
    exact hS0 j
  have F1 : IsFin (m1 (ix2 r (0 : Fin 1))) := by rw [hm1, max_bot_left]; exact isFin_fold_max _ (hS 0)
  have hm2 : m2 (ix2 r (0 : Fin 1)) = max (m1 (ix2 r (0 : Fin 1))) ((Finset.univ : Finset (Fin 1024)).fold max ⊥ (fun j => S 1 j)) := by
    show tMax m1 s2 (ix2 r (0 : Fin 1)) = _
    rw [tMax_apply]
    congr 2
    funext j
    exact hS1 j
  have F2 : IsFin (m2 (ix2 r (0 : Fin 1))) := by rw [hm2]; exact IsFin.max F1 (isFin_fold_max _ (hS 1))
  have hm3 : m3 (ix2 r (0 : Fin 1)) = max (m2 (ix2 r (0 : Fin 1))) ((Finset.univ : Finset (Fin 1024)).fold max ⊥ (fun j => S 2 j)) := by
    show tMax m2 s3 (ix2 r (0 : Fin 1)) = _
    rw [tMax_apply]
    congr 2
    funext j
    exact hS2 j
  have F3 : IsFin (m3 (ix2 r (0 : Fin 1))) := by rw [hm3]; exact IsFin.max F2 (isFin_fold_max _ (hS 2))
  have hm4 : m4 (ix2 r (0 : Fin 1)) = max (m3 (ix2 r (0 : Fin 1))) ((Finset.univ : Finset (Fin 1024)).fold max ⊥ (fun j => S 3 j)) := by
    show tMax m3 s4 (ix2 r (0 : Fin 1)) = _
    rw [tMax_apply]
    congr 2
    funext j
    exact hS3 j
  have F4 : IsFin (m4 (ix2 r (0 : Fin 1))) := by rw [hm4]; exact IsFin.max F3 (isFin_fold_max _ (hS 3))
  have hp1 : ∀ j : Fin 1024, p1 (ix2 r j) = Ideal.exp (S 0 j - m1 (ix2 r (0 : Fin 1))) := fun j => by
    show tP s1 m1 (ix2 r j) = _
    rw [tP_apply]
    show Ideal.exp (k0_pay42 q K0 (ix2 r j) - _) = _
    rw [hS0]
  have hp2 : ∀ j : Fin 1024, p2 (ix2 r j) = Ideal.exp (S 1 j - m2 (ix2 r (0 : Fin 1))) := fun j => by
    show tP s2 m2 (ix2 r j) = _
    rw [tP_apply]
    show Ideal.exp (k0_pay42 q K1 (ix2 r j) - _) = _
    rw [hS1]
  have hp3 : ∀ j : Fin 1024, p3 (ix2 r j) = Ideal.exp (S 2 j - m3 (ix2 r (0 : Fin 1))) := fun j => by
    show tP s3 m3 (ix2 r j) = _
    rw [tP_apply]
    show Ideal.exp (k0_pay42 q K2 (ix2 r j) - _) = _
    rw [hS2]
  have hp4 : ∀ j : Fin 1024, p4 (ix2 r j) = Ideal.exp (S 3 j - m4 (ix2 r (0 : Fin 1))) := fun j => by
    show tP s4 m4 (ix2 r j) = _
    rw [tP_apply]
    show Ideal.exp (k0_pay42 q K3 (ix2 r j) - _) = _
    rw [hS3]
  have hα1 : α1 (ix2 r (0 : Fin 1)) = Ideal.exp (⊥ - m1 (ix2 r (0 : Fin 1))) := by
    show tAlpha m0 m1 (ix2 r (0 : Fin 1)) = _
    rw [tAlpha_apply, hm0]
  have hl1 : l1 (ix2 r (0 : Fin 1)) = α1 (ix2 r (0 : Fin 1)) * 0 + ∑ j : Fin 1024, Ideal.exp (S 0 j - m1 (ix2 r (0 : Fin 1))) := by
    show tL α1 l0 p1 (ix2 r (0 : Fin 1)) = _
    rw [tL_apply, hl0]
    exact congrArg (α1 (ix2 r (0 : Fin 1)) * 0 + ·) (Finset.sum_congr rfl fun j _ => hp1 j)
  have ha1 : a1 (ix2 r c) = α1 (ix2 r (0 : Fin 1)) * 0 + ∑ j : Fin 1024, Ideal.exp (S 0 j - m1 (ix2 r (0 : Fin 1))) * Vv 0 j := by
    show tAcc α1 a0 p1 V0 (ix2 r c) = _
    rw [tAcc_apply, ha0]
    exact congrArg (α1 (ix2 r (0 : Fin 1)) * 0 + ·) (Finset.sum_congr rfl fun j _ => by rw [hp1 j, hV0 j])
  have hα2 : α2 (ix2 r (0 : Fin 1)) = Ideal.exp (m1 (ix2 r (0 : Fin 1)) - m2 (ix2 r (0 : Fin 1))) := by
    show tAlpha m1 m2 (ix2 r (0 : Fin 1)) = _
    rw [tAlpha_apply]
  have hl2 : l2 (ix2 r (0 : Fin 1)) = α2 (ix2 r (0 : Fin 1)) * l1 (ix2 r (0 : Fin 1)) + ∑ j : Fin 1024, Ideal.exp (S 1 j - m2 (ix2 r (0 : Fin 1))) := by
    show tL α2 l1 p2 (ix2 r (0 : Fin 1)) = _
    rw [tL_apply]
    exact congrArg (α2 (ix2 r (0 : Fin 1)) * l1 (ix2 r (0 : Fin 1)) + ·) (Finset.sum_congr rfl fun j _ => hp2 j)
  have ha2 : a2 (ix2 r c) = α2 (ix2 r (0 : Fin 1)) * a1 (ix2 r c) + ∑ j : Fin 1024, Ideal.exp (S 1 j - m2 (ix2 r (0 : Fin 1))) * Vv 1 j := by
    show tAcc α2 a1 p2 V1 (ix2 r c) = _
    rw [tAcc_apply]
    exact congrArg (α2 (ix2 r (0 : Fin 1)) * a1 (ix2 r c) + ·) (Finset.sum_congr rfl fun j _ => by rw [hp2 j, hV1 j])
  have hα3 : α3 (ix2 r (0 : Fin 1)) = Ideal.exp (m2 (ix2 r (0 : Fin 1)) - m3 (ix2 r (0 : Fin 1))) := by
    show tAlpha m2 m3 (ix2 r (0 : Fin 1)) = _
    rw [tAlpha_apply]
  have hl3 : l3 (ix2 r (0 : Fin 1)) = α3 (ix2 r (0 : Fin 1)) * l2 (ix2 r (0 : Fin 1)) + ∑ j : Fin 1024, Ideal.exp (S 2 j - m3 (ix2 r (0 : Fin 1))) := by
    show tL α3 l2 p3 (ix2 r (0 : Fin 1)) = _
    rw [tL_apply]
    exact congrArg (α3 (ix2 r (0 : Fin 1)) * l2 (ix2 r (0 : Fin 1)) + ·) (Finset.sum_congr rfl fun j _ => hp3 j)
  have ha3 : a3 (ix2 r c) = α3 (ix2 r (0 : Fin 1)) * a2 (ix2 r c) + ∑ j : Fin 1024, Ideal.exp (S 2 j - m3 (ix2 r (0 : Fin 1))) * Vv 2 j := by
    show tAcc α3 a2 p3 V2 (ix2 r c) = _
    rw [tAcc_apply]
    exact congrArg (α3 (ix2 r (0 : Fin 1)) * a2 (ix2 r c) + ·) (Finset.sum_congr rfl fun j _ => by rw [hp3 j, hV2 j])
  have hα4 : α4 (ix2 r (0 : Fin 1)) = Ideal.exp (m3 (ix2 r (0 : Fin 1)) - m4 (ix2 r (0 : Fin 1))) := by
    show tAlpha m3 m4 (ix2 r (0 : Fin 1)) = _
    rw [tAlpha_apply]
  have hl4 : l4 (ix2 r (0 : Fin 1)) = α4 (ix2 r (0 : Fin 1)) * l3 (ix2 r (0 : Fin 1)) + ∑ j : Fin 1024, Ideal.exp (S 3 j - m4 (ix2 r (0 : Fin 1))) := by
    show tL α4 l3 p4 (ix2 r (0 : Fin 1)) = _
    rw [tL_apply]
    exact congrArg (α4 (ix2 r (0 : Fin 1)) * l3 (ix2 r (0 : Fin 1)) + ·) (Finset.sum_congr rfl fun j _ => hp4 j)
  have ha4 : a4 (ix2 r c) = α4 (ix2 r (0 : Fin 1)) * a3 (ix2 r c) + ∑ j : Fin 1024, Ideal.exp (S 3 j - m4 (ix2 r (0 : Fin 1))) * Vv 3 j := by
    show tAcc α4 a3 p4 V3 (ix2 r c) = _
    rw [tAcc_apply]
    exact congrArg (α4 (ix2 r (0 : Fin 1)) * a3 (ix2 r c) + ·) (Finset.sum_congr rfl fun j _ => by rw [hp4 j, hV3 j])
  exact tiled_softmax_avg e S Vv hS hVv (m1 (ix2 r (0 : Fin 1))) (m2 (ix2 r (0 : Fin 1))) (m3 (ix2 r (0 : Fin 1))) (m4 (ix2 r (0 : Fin 1))) M F1 F2 F3 F4 hM
    (α1 (ix2 r (0 : Fin 1))) (α2 (ix2 r (0 : Fin 1))) (α3 (ix2 r (0 : Fin 1))) (α4 (ix2 r (0 : Fin 1))) (l1 (ix2 r (0 : Fin 1))) (l2 (ix2 r (0 : Fin 1))) (l3 (ix2 r (0 : Fin 1))) (l4 (ix2 r (0 : Fin 1)))
    (a1 (ix2 r c)) (a2 (ix2 r c)) (a3 (ix2 r c)) (a4 (ix2 r c))
    hα1 hl1 ha1 hα2 hl2 ha2 hα3 hl3 ha3 hα4 hl4 ha4

end Cert.KernelIdeal.Steps

end
-- ==== Proof.AttnFinite.lean ====
/-
  Every intermediate quantity of the attention frame is a real number when the inputs are.

  The four float words are real and positive (a pattern whose exponent field is not all ones is a real; sign bit 0
  and a nonzero pattern make it positive).  A token's sum of squares is a finite sum of finite nonnegative terms;
  divided by 512 and shifted by ε > 0 it is finite and positive, so its root is finite and positive and the quotient
  by it is finite.  Sums, products and differences of finite values are finite; the row maximum of finitely many
  finite scores is finite; the exponential of a finite value is finite and positive, so the row sum of the shifted
  exponentials is finite and positive, and the quotient by it is finite.
-/
import proofs.«116806_j90975997264646_2_alg».proof.Proof.AttnSpec
import proofs.«116806_j90975997264646_2_alg».proof.Proof.LibSoftmax

open Idealize.ShloMosaic
open Cert.Layer.Softmax

noncomputable section

namespace Cert.Attn

/-! ### The four float words -/

/-- ε is the real 8796093 · 2⁻⁴³. -/
theorem isFin_eps : IsFin eps := by
  unfold eps; simp [Ideal.ofBits, Ideal.ieee, -EReal.coe_mul]; exact isFin_coe _

theorem eps_pos : 0 < eps := by
  unfold eps; simp [Ideal.ofBits, Ideal.ieee, -EReal.coe_mul]

/-- The word 0x44000000 is the real 512. -/
theorem isFin_c512 : IsFin c512 := by
  unfold c512; simp [Ideal.ofBits, Ideal.ieee, -EReal.coe_mul]; exact isFin_coe _

theorem c512_pos : 0 < c512 := by
  unfold c512; simp [Ideal.ofBits, Ideal.ieee, -EReal.coe_mul]

/-- The word 0x41B504F3 is the real 11863283 · 2⁻¹⁹. -/
theorem isFin_rt512 : IsFin rt512 := by
  unfold rt512; simp [Ideal.ofBits, Ideal.ieee, -EReal.coe_mul]; exact isFin_coe _

/-- The word 0x3D3504F3 is the real 11863283 · 2⁻²⁸. -/
theorem isFin_irt512 : IsFin irt512 := by
  unfold irt512; simp [Ideal.ofBits, Ideal.ieee, -EReal.coe_mul]; exact isFin_coe _

/-! ### Two closure facts about the quotient and the sum -/

/-- A finite nonnegative value divided by a finite positive value is nonnegative. -/
private theorem div_nonneg_of_pos {x y : EReal} (hx : IsFin x) (hy : IsFin y) (hx0 : 0 ≤ x) (hy0 : 0 < y) :
    0 ≤ Ideal.div x y := by
  obtain ⟨a, rfl⟩ := hx.exists_coe
  obtain ⟨c, rfl⟩ := hy.exists_coe
  have hc : 0 < c := EReal.coe_pos.mp hy0
  have ha : 0 ≤ a := EReal.coe_nonneg.mp hx0
  rw [Ideal.div_coe hc.ne', ← EReal.coe_mul]
  exact EReal.coe_nonneg.mpr (mul_nonneg ha (one_div_pos.mpr hc).le)

/-- A finite nonnegative value plus a finite positive value is positive. -/
private theorem add_pos_of_isFin {x y : EReal} (hx : IsFin x) (hy : IsFin y) (hx0 : 0 ≤ x) (hy0 : 0 < y) :
    0 < x + y := by
  obtain ⟨a, rfl⟩ := hx.exists_coe
  obtain ⟨c, rfl⟩ := hy.exists_coe
  have hc : 0 < c := EReal.coe_pos.mp hy0
  have ha : 0 ≤ a := EReal.coe_nonneg.mp hx0
  rw [← EReal.coe_add]
  exact EReal.coe_pos.mpr (add_pos_of_nonneg_of_pos ha hc)

/-! ### One row of channels: its sum of squares and the root of its mean square -/

private theorem isFin_rowSumsq (row : Fin 512 → EReal) (hrow : ∀ c, IsFin (row c)) :
    IsFin (∑ c' : Fin 512, row c' * row c') :=
  isFin_sum _ _ fun c _ => (hrow c).mul (hrow c)

private theorem rowSumsq_nonneg (row : Fin 512 → EReal) (hrow : ∀ c, IsFin (row c)) :
    0 ≤ ∑ c' : Fin 512, row c' * row c' :=
  sum_nonneg' _ _ fun c _ => mul_self_nonneg_of_isFin (hrow c)

private theorem isFin_rowMean (row : Fin 512 → EReal) (hrow : ∀ c, IsFin (row c)) :
    IsFin (Ideal.div (∑ c' : Fin 512, row c' * row c') c512 + eps) :=
  ((isFin_rowSumsq row hrow).div isFin_c512 (ne_of_gt c512_pos)).add isFin_eps

private theorem rowMean_pos (row : Fin 512 → EReal) (hrow : ∀ c, IsFin (row c)) :
    0 < Ideal.div (∑ c' : Fin 512, row c' * row c') c512 + eps :=
  add_pos_of_isFin ((isFin_rowSumsq row hrow).div isFin_c512 (ne_of_gt c512_pos)) isFin_eps
    (div_nonneg_of_pos (isFin_rowSumsq row hrow) isFin_c512 (rowSumsq_nonneg row hrow) c512_pos) eps_pos

private theorem isFin_rowRms (row : Fin 512 → EReal) (hrow : ∀ c, IsFin (row c)) :
    IsFin (Ideal.sqrt (Ideal.div (∑ c' : Fin 512, row c' * row c') c512 + eps)) :=
  (isFin_rowMean row hrow).sqrt (rowMean_pos row hrow).le

private theorem rowRms_pos (row : Fin 512 → EReal) (hrow : ∀ c, IsFin (row c)) :
    0 < Ideal.sqrt (Ideal.div (∑ c' : Fin 512, row c' * row c') c512 + eps) :=
  sqrt_pos_of_pos (isFin_rowMean row hrow) (rowMean_pos row hrow)

/-! ### The normalisation -/

theorem isFin_sumsq (X : Fin 4096 → Fin 512 → EReal) (hX : ∀ n c, IsFin (X n c)) (n : Fin 4096) :
    IsFin (sumsq X n) :=
  isFin_rowSumsq (X n) (hX n)

theorem sumsq_nonneg (X : Fin 4096 → Fin 512 → EReal) (hX : ∀ n c, IsFin (X n c)) (n : Fin 4096) :
    0 ≤ sumsq X n :=
  rowSumsq_nonneg (X n) (hX n)

theorem isFin_rms (X : Fin 4096 → Fin 512 → EReal) (hX : ∀ n c, IsFin (X n c)) (n : Fin 4096) :
    IsFin (rms X n) :=
  isFin_rowRms (X n) (hX n)

theorem rms_pos (X : Fin 4096 → Fin 512 → EReal) (hX : ∀ n c, IsFin (X n c)) (n : Fin 4096) :
    0 < rms X n :=
  rowRms_pos (X n) (hX n)

theorem isFin_xnRow (sc : Fin 512 → EReal) (hsc : ∀ c, IsFin (sc c)) (row : Fin 512 → EReal)
    (hrow : ∀ c, IsFin (row c)) (c : Fin 512) : IsFin (xnRow sc row c) :=
  (((hrow c).div (isFin_rowRms row hrow) (ne_of_gt (rowRms_pos row hrow))).mul isFin_rt512).mul (hsc c)

theorem isFin_xn (X : Fin 4096 → Fin 512 → EReal) (sc : Fin 512 → EReal) (hX : ∀ n c, IsFin (X n c))
    (hsc : ∀ c, IsFin (sc c)) (n : Fin 4096) (c : Fin 512) : IsFin (xn X sc n c) :=
  isFin_xnRow sc hsc (X n) (hX n) c

/-! ### Projection, scores, softmax, attended values -/

theorem isFin_qkv (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (n : Fin 4096) (e : Fin 1536) : IsFin (qkv X sc W b n e) :=
  (isFin_sum _ _ fun c _ => (isFin_xn X sc hX hsc n c).mul (hW c e)).add (hb e)

theorem isFin_score (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i j : Fin 4096) : IsFin (score X sc W b i j) :=
  (isFin_sum _ _ fun d _ =>
    (isFin_qkv X sc W b hX hsc hW hb i (colQ d)).mul (isFin_qkv X sc W b hX hsc hW hb j (colK d))).mul isFin_irt512

theorem isFin_rowmax (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i : Fin 4096) : IsFin (rowmax X sc W b i) := by
  unfold rowmax
  rw [max_bot_left]
  exact isFin_fold_max _ fun j => isFin_score X sc W b hX hsc hW hb i j

theorem isFin_pexp (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i j : Fin 4096) : IsFin (pexp X sc W b i j) :=
  ((isFin_score X sc W b hX hsc hW hb i j).sub (isFin_rowmax X sc W b hX hsc hW hb i)).exp

theorem pexp_pos (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i j : Fin 4096) : 0 < pexp X sc W b i j :=
  exp_pos_of_isFin ((isFin_score X sc W b hX hsc hW hb i j).sub (isFin_rowmax X sc W b hX hsc hW hb i))

theorem isFin_den (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i : Fin 4096) : IsFin (den X sc W b i) :=
  isFin_sum _ _ fun j _ => isFin_pexp X sc W b hX hsc hW hb i j

theorem den_pos (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i : Fin 4096) : 0 < den X sc W b i :=
  sum_pos' _ fun j => pexp_pos X sc W b hX hsc hW hb i j

theorem isFin_attn (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i j : Fin 4096) : IsFin (attn X sc W b i j) :=
  (isFin_pexp X sc W b hX hsc hW hb i j).div (isFin_den X sc W b hX hsc hW hb i)
    (ne_of_gt (den_pos X sc W b hX hsc hW hb i))

theorem isFin_ctx (X : Fin 4096 → Fin 512 → EReal) (sc : Fin 512 → EReal) (W : Fin 512 → Fin 1536 → EReal)
    (b : Fin 1536 → EReal) (hX : ∀ n c, IsFin (X n c)) (hsc : ∀ c, IsFin (sc c)) (hW : ∀ c e, IsFin (W c e))
    (hb : ∀ e, IsFin (b e)) (i : Fin 4096) (c : Fin 512) : IsFin (ctx X sc W b i c) :=
  isFin_sum _ _ fun j _ =>
    (isFin_attn X sc W b hX hsc hW hb i j).mul (isFin_qkv X sc W b hX hsc hW hb j (colV c))

end Cert.Attn

end
-- ==== Proof.KTile.lean ====
/-
  The query tile's stored value is the layer's output for its 256 tokens.

  The stored value is the recurrence of the six steps started at (−∞, 0, 0) and finished by the tail.  When the
  tile's rows are tokens of a frame, the four key tiles and four value tiles hold the frame's projected keys and
  values, and the small operands are the layer's parameters, each entry of the stored value is the specification's
  output: a score of the body is the specification's score because the factor 512^(−1/2), folded into the queries,
  moves out of the dot product (all factors finite); the recurrence's quotient is the one-shot softmax average; the
  tail is the specification's projection, bias and residual term for term.
-/
import proofs.«116806_j90975997264646_2_alg».proof.Proof.KAttnRow
import proofs.«116806_j90975997264646_2_alg».proof.Proof.KChunkIdeal
import proofs.«116806_j90975997264646_2_alg».proof.Proof.AttnFinite

noncomputable section

namespace Cert.KernelIdeal.Tile

open Cert.KernelIdeal Cert.KernelIdeal.Gen Idealize.ShloMosaic Idealize.ShloMosaic.ValueIdx
open Cert.KernelIdeal.Steps Cert.KernelIdeal.Chunk Cert.Layer.Softmax

section Generic
variable {F : FTy → Type} [FloatOps F] [Named F]

/-- The value the body stores into the output tile, as a function of what it loads: the query tile, the scale, the
    fused bias, the query block of the fused weight, the four key tiles, the four value tiles, the output projection
    and its bias. -/
def attnTile (xq : Vec F S1x256x512 .f32) (sc : Vec F S512 .f32) (b : Vec F S1536 .f32) (qw : Vec F S512x512 .bf16)
    (K0 K1 K2 K3 V0 V1 V2 V3 : Vec F S1024x512 .bf16) (pw : Vec F S512x512 .bf16) (pb : Vec F S512 .f32) : FVec F S1x256x512 .f32 :=
  k0_pay1 (k0_pay37 xq)
    (k0_pay56 (k0_pay38 xq sc b qw) (k0_pay48 (k0_pay38 xq sc b qw) k0_pay39 K0 K1) (k0_pay51 (k0_pay38 xq sc b qw) k0_pay39 k0_pay40 K0 K1) K2)
    (k0_pay57 (k0_pay38 xq sc b qw) (k0_pay46 (k0_pay38 xq sc b qw) k0_pay39 k0_pay41 K0 V0) V1 (k0_pay48 (k0_pay38 xq sc b qw) k0_pay39 K0 K1)
      (k0_pay49 (k0_pay38 xq sc b qw) k0_pay39 K0 K1) (k0_pay50 (k0_pay38 xq sc b qw) k0_pay39 K0 K1) K2 V2)
    V3 (k0_pay60 (k0_pay38 xq sc b qw) (k0_pay48 (k0_pay38 xq sc b qw) k0_pay39 K0 K1) K2 K3) (k0_pay61 (k0_pay38 xq sc b qw) (k0_pay48 (k0_pay38 xq sc b qw) k0_pay39 K0 K1) K2 K3) pw pb

/-- It is the recurrence of the six steps, then the tail. -/
theorem attnTile_steps (xq : Vec F S1x256x512 .f32) (sc : Vec F S512 .f32) (b : Vec F S1536 .f32) (qw : Vec F S512x512 .bf16)
    (K0 K1 K2 K3 V0 V1 V2 V3 : Vec F S1024x512 .bf16) (pw : Vec F S512x512 .bf16) (pb : Vec F S512 .f32) :
    attnTile xq sc b qw K0 K1 K2 K3 V0 V1 V2 V3 pw pb =
    (let q := k0_pay38 xq sc b qw; let m0 : FVec F S256x1 .f32 := k0_pay39; let l0 : FVec F S256x1 .f32 := k0_pay40; let a0 : FVec F S256x512 .f32 := k0_pay41
     let s1 := k0_pay42 q K0; let m1 := tMax m0 s1; let α1 := tAlpha m0 m1; let p1 := tP s1 m1; let l1 := tL α1 l0 p1; let a1 := tAcc α1 a0 p1 V0
     let s2 := k0_pay42 q K1; let m2 := tMax m1 s2; let α2 := tAlpha m1 m2; let p2 := tP s2 m2; let l2 := tL α2 l1 p2; let a2 := tAcc α2 a1 p2 V1
     let s3 := k0_pay42 q K2; let m3 := tMax m2 s3; let α3 := tAlpha m2 m3; let p3 := tP s3 m3; let l3 := tL α3 l2 p3; let a3 := tAcc α3 a2 p3 V2
     let s4 := k0_pay42 q K3; let m4 := tMax m3 s4; let α4 := tAlpha m3 m4; let p4 := tP s4 m4; let l4 := tL α4 l3 p4; let a4 := tAcc α4 a3 p4 V3
     tOut (k0_pay37 xq) l4 a4 pw pb) := rfl

end Generic

/-- Token `x` of a frame is position `x % 1024` of tile `x / 1024`. -/
def tileEquiv : Fin 4096 ≃ Fin 4 × Fin 1024 where
  toFun x := (⟨x.val / 1024, by have := x.isLt; omega⟩, ⟨x.val % 1024, by omega⟩)
  invFun p := ⟨1024 * p.1.val + p.2.val, by have := p.1.isLt; have := p.2.isLt; omega⟩
  left_inv x := Fin.ext (by show 1024 * (x.val / 1024) + x.val % 1024 = x.val; omega)
  right_inv p := Prod.ext (Fin.ext (by show (1024 * p.1.val + p.2.val) / 1024 = p.1.val; have := p.2.isLt; omega))
    (Fin.ext (by show (1024 * p.1.val + p.2.val) % 1024 = p.2.val; have := p.2.isLt; omega))

open Cert.Attn in
theorem attnTile_spec
    (X : Fin 4096 → Fin 512 → EReal) (sc' : Fin 512 → EReal) (W : Fin 512 → Fin 1536 → EReal) (b' : Fin 1536 → EReal)
    (PW : Fin 512 → Fin 512 → EReal) (pb' : Fin 512 → EReal)
    (hX : ∀ n c, IsFin (X n c)) (hsc' : ∀ c, IsFin (sc' c)) (hW : ∀ c e, IsFin (W c e)) (hb' : ∀ e, IsFin (b' e))
    (xq : Vec Ideal S1x256x512 .f32) (sc : Vec Ideal S512 .f32) (b : Vec Ideal S1536 .f32) (qw : Vec Ideal S512x512 .bf16)
    (K0 K1 K2 K3 V0 V1 V2 V3 : Vec Ideal S1024x512 .bf16) (pw : Vec Ideal S512x512 .bf16) (pb : Vec Ideal S512 .f32)
    (tok : Fin 256 → Fin 4096)
    (hxq : ∀ r c, xq (ix3 (0 : Fin 1) r c) = X (tok r) c)
    (hsc : ∀ c, sc (ix1 c) = sc' c) (hb : ∀ e, b (ix1 e) = b' e) (hqw : ∀ c d, qw (ix2 c d) = W c (colQ d))
    (hK0 : ∀ (j : Fin 1024) (d : Fin 512), K0 (ix2 j d) = qkv X sc' W b' (tileEquiv.symm (0, j)) (colK d))
    (hK1 : ∀ (j : Fin 1024) (d : Fin 512), K1 (ix2 j d) = qkv X sc' W b' (tileEquiv.symm (1, j)) (colK d))
    (hK2 : ∀ (j : Fin 1024) (d : Fin 512), K2 (ix2 j d) = qkv X sc' W b' (tileEquiv.symm (2, j)) (colK d))
    (hK3 : ∀ (j : Fin 1024) (d : Fin 512), K3 (ix2 j d) = qkv X sc' W b' (tileEquiv.symm (3, j)) (colK d))
    (hV0 : ∀ (j : Fin 1024) (d : Fin 512), V0 (ix2 j d) = qkv X sc' W b' (tileEquiv.symm (0, j)) (colV d))
    (hV1 : ∀ (j : Fin 1024) (d : Fin 512), V1 (ix2 j d) = qkv X sc' W b' (tileEquiv.symm (1, j)) (colV d))
    (hV2 : ∀ (j : Fin 1024) (d : Fin 512), V2 (ix2 j d) = qkv X sc' W b' (tileEquiv.symm (2, j)) (colV d))
    (hV3 : ∀ (j : Fin 1024) (d : Fin 512), V3 (ix2 j d) = qkv X sc' W b' (tileEquiv.symm (3, j)) (colV d))
    (hpw : ∀ c d, pw (ix2 c d) = PW c d) (hpb : ∀ d, pb (ix1 d) = pb' d) (r : Fin 256) (d : Fin 512) :
    attnTile xq sc b qw K0 K1 K2 K3 V0 V1 V2 V3 pw pb (ix3 (0 : Fin 1) r d) = Cert.Attn.out X sc' W b' PW pb' (tok r) d := by
  have hq : ∀ d' : Fin 512, k0_pay38 xq sc b qw (ix2 r d') = qkv X sc' W b' (tok r) (colQ d') * irt512 := by
    intro d'
    rw [q_apply]
    have e1 : (fun c' => sc (ix1 c')) = sc' := funext hsc
    have e2 : (fun c' => xq (ix3 (0 : Fin 1) r c')) = X (tok r) := funext (hxq r)
    rw [e1, e2, hb]
    unfold qkv
    refine congrArg (· * irt512) (congrArg (· + b' (colQ d')) ?_)
    exact Finset.sum_congr rfl fun c _ => by rw [hqw]; rfl
  have hS : ∀ (k : Fin 4) (Kt : Vec Ideal S1024x512 .bf16)
      (hKt : ∀ (j : Fin 1024) (d : Fin 512), Kt (ix2 j d) = qkv X sc' W b' (tileEquiv.symm (k, j)) (colK d)) (j : Fin 1024),
      k0_pay42 (k0_pay38 xq sc b qw) Kt (ix2 r j) = score X sc' W b' (tok r) (tileEquiv.symm (k, j)) := by
    intro k Kt hKt j
    rw [score_apply]
    unfold score
    rw [← sum_mul_scale _ _ _ (fun d' => isFin_qkv X sc' W b' hX hsc' hW hb' (tok r) (colQ d'))
      (fun d' => isFin_qkv X sc' W b' hX hsc' hW hb' (tileEquiv.symm (k, j)) (colK d')) isFin_irt512]
    exact Finset.sum_congr rfl fun d' _ => by rw [hq, hKt]
  refine (congrFun (attnTile_steps xq sc b qw K0 K1 K2 K3 V0 V1 V2 V3 pw pb) _).trans ?_
  show tOut (k0_pay37 xq) _ _ pw pb (ix3 (0 : Fin 1) r d) = _
  rw [tOut_apply, x7_apply, hxq, hpb]
  unfold Cert.Attn.out
  refine congrArg (· + X (tok r) d) (congrArg (· + pb' d) ?_)
  refine Finset.sum_congr rfl fun c _ => ?_
  rw [hpw]
  refine congrArg (· * PW c d) ?_
  refine (attn_row tileEquiv (k0_pay38 xq sc b qw) K0 K1 K2 K3 V0 V1 V2 V3 k0_pay39 k0_pay40 k0_pay41 r c
    (fun k j => score X sc' W b' (tok r) (tileEquiv.symm (k, j)))
    (fun k j => qkv X sc' W b' (tileEquiv.symm (k, j)) (colV c))
    (hS 0 K0 hK0) (hS 1 K1 hK1) (hS 2 K2 hK2) (hS 3 K3 hK3)
    (fun j => hV0 j c) (fun j => hV1 j c) (fun j => hV2 j c) (fun j => hV3 j c)
    (m0_apply _) (l0_apply _) (a0_apply _)
    (fun k j => isFin_score X sc' W b' hX hsc' hW hb' (tok r) (tileEquiv.symm (k, j)))
    (fun k j => isFin_qkv X sc' W b' hX hsc' hW hb' (tileEquiv.symm (k, j)) (colV c))
    (rowmax X sc' W b' (tok r)) (isFin_rowmax X sc' W b' hX hsc' hW hb' (tok r))).trans ?_
  unfold ctx attn den pexp
  simp only [Prod.mk.eta, Equiv.symm_apply_apply]

end Cert.KernelIdeal.Tile

end
-- ==== Proof.KOut.lean ====
/-
  What the body leaves in the output tile, entry by entry.

  At every grid point the body stores ONE value into the output tile: the recurrence of the six steps over the query
  tile it loads from the frame at rows `256 q … 256 q + 255` (`q` the point's query-tile coordinate) and the four key
  and four value tiles it loads from the scratch.  At the first query tile of a frame the scratch was just written by
  the same body (the loads read the stores back); at the other tiles it holds what the first tile left.  Either way
  the scratch holds the frame's keys and values, so each entry of the stored tile is the specification's output for
  its token and channel.
-/
import proofs.«116806_j90975997264646_2_alg».proof.Proof.KPieces
import proofs.«116806_j90975997264646_2_alg».proof.Proof.KTile

set_option maxRecDepth 16384

noncomputable section

open Idealize.ShloMosaic Idealize.ShloMosaic.TcCoe Idealize.SL.Sem

namespace Cert.KernelIdeal.Pieces

open Cert.KernelIdeal Cert.KernelIdeal.Gen Idealize.ShloMosaic.ValueIdx Cert.KernelIdeal.Chunk Cert.KernelIdeal.Tile
open Cert.Layer.Softmax

/-- The token a row of the point's query tile is. -/
def tokOf (i : grid0.Coords) (r : Fin 256) : Fin 4096 :=
  ⟨256 * (i 1).val + r.val, by have h16 : (i 1).val < 16 := (i 1).isLt; have := r.isLt; show 256 * (i 1).val + r.val < 4096; omega⟩

theorem hzo1 : (![0] : Fin 1 → ℕ) = fun _ => 0 := funext fun a => by fin_cases a <;> rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-- A load through a rectangle of a buffer whose contents are known reads the contents at the rectangle's index. -/
theorem readAt_unread_apply {s : Shape} {e : EltTy} {m : Memref sig .tc .vmem s e} (hm : m.IsWhole)
    (X : s.Idx → Elt Ideal e) (r : Rect s) (y : r.shape.Idx) :
    View.readAt (Elt Ideal) m.view r.toLoadRect (hm.unread X) y = X (r.idx y) := by
  rw [View.readAt_eq_ld, hm.read_unread]

/-- A load of the whole buffer reads its contents. -/
theorem readAt_unread_whole {s : Shape} {e : EltTy} {m : Memref sig .tc .vmem s e} (hm : m.IsWhole)
    (X : s.Idx → Elt Ideal e) {off : Fin s.rank → ℕ} (hoff : off = fun _ => 0) (inb : ∀ a, off a + s.size a ≤ s.size a) :
    View.readAt (Elt Ideal) m.view (Rect.unit off s.size inb).toLoadRect (hm.unread X) = X := by
  rw [View.readAt_eq_ld, hm.read_unread, View.ld_unit_zero hoff]

/-- Row `r` of the query tile loaded at rows `256 q …` of the frame is token `256 q + r`. -/
theorem idx_q (off : Fin 3 → ℕ) (inb : ∀ a, off a + S1x256x512.size a ≤ S1x4096x512.size a) (i : grid0.Coords)
    (hoff : off = ![0, 256 * (i 1).val, 0]) (r : Fin 256) (c : Fin 512) :
    (Rect.unit (s := S1x4096x512) off S1x256x512.size inb).idx (ix3 (0 : Fin 1) r c) = ix3 (0 : Fin 1) (tokOf i r) c := by
  subst hoff
  funext a
  apply Fin.ext
  match a with
  | ⟨0, _⟩ => show 0 + 1 * 0 = 0; rfl
  | ⟨1, _⟩ => show 256 * (i 1).val + 1 * r.val = 256 * (i 1).val + r.val; omega
  | ⟨2, _⟩ => show 0 + 1 * c.val = c.val; omega

/-- The query block of the fused weight is its first 512 columns. -/
theorem idx_w (off : Fin 2 → ℕ) (inb : ∀ a, off a + S512x512.size a ≤ S512x1536.size a)
    (hoff : off = ![0, 0]) (c d : Fin 512) :
    (Rect.unit (s := S512x1536) off S512x512.size inb).idx (ix2 c d) = ix2 c (Cert.Attn.colQ d) := by
  subst hoff
  funext a
  apply Fin.ext
  match a with
  | ⟨0, _⟩ => show 0 + 1 * c.val = c.val; omega
  | ⟨1, _⟩ => show 0 + 1 * d.val = d.val; omega

/-- Row `j` of the tile loaded at rows `1024 t …` of the scratch is token `1024 t + j`. -/
theorem idx_kv (off : Fin 2 → ℕ) (inb : ∀ a, off a + S1024x512.size a ≤ S4096x512.size a) (t : Fin 4)
    (hoff : off = ![1024 * t.val, 0]) (j : Fin 1024) (d : Fin 512) :
    (Rect.unit (s := S4096x512) off S1024x512.size inb).idx (ix2 j d) = ix2 (tileEquiv.symm (t, j)) d := by
  subst hoff
  funext a
  apply Fin.ext
  match a with
  | ⟨0, _⟩ => show 1024 * t.val + 1 * j.val = 1024 * t.val + j.val; omega
  | ⟨1, _⟩ => show 0 + 1 * d.val = d.val; omega

/-- The stored tile from what its fourteen loads read, entry by entry. -/
theorem tile_out (i : grid0.Coords)
    (x0 : Vec Ideal S1x4096x512 .f32) (x1 : Vec Ideal S512 .f32) (x2 : Vec Ideal S512x1536 .bf16) (x3 : Vec Ideal S1536 .f32) (x4 : Vec Ideal S512x512 .bf16) (x5 : Vec Ideal S512 .f32)
    (h0 : ∀ y, IsFin (x0 y)) (h1 : ∀ y, IsFin (x1 y)) (h2 : ∀ y, IsFin (x2 y)) (h3 : ∀ y, IsFin (x3 y))
    (xq : Vec Ideal S1x256x512 .f32) (sc : Vec Ideal S512 .f32) (b : Vec Ideal S1536 .f32) (qw : Vec Ideal S512x512 .bf16)
    (K0 K1 K2 K3 V0 V1 V2 V3 : Vec Ideal S1024x512 .bf16) (pw : Vec Ideal S512x512 .bf16) (pb : Vec Ideal S512 .f32)
    (hxq : ∀ r c, xq (ix3 (0 : Fin 1) r c) = x0 (ix3 (0 : Fin 1) (tokOf i r) c))
    (hsc : sc = x1) (hb : b = x3)
    (hqw : ∀ c d, qw (ix2 c d) = x2 (ix2 c (Cert.Attn.colQ d)))
    (hK0 : ∀ (j : Fin 1024) (d : Fin 512), K0 (ix2 j d) = Kfun x0 x1 x2 x3 (ix2 (tileEquiv.symm (0, j)) d))
    (hK1 : ∀ (j : Fin 1024) (d : Fin 512), K1 (ix2 j d) = Kfun x0 x1 x2 x3 (ix2 (tileEquiv.symm (1, j)) d))
    (hK2 : ∀ (j : Fin 1024) (d : Fin 512), K2 (ix2 j d) = Kfun x0 x1 x2 x3 (ix2 (tileEquiv.symm (2, j)) d))
    (hK3 : ∀ (j : Fin 1024) (d : Fin 512), K3 (ix2 j d) = Kfun x0 x1 x2 x3 (ix2 (tileEquiv.symm (3, j)) d))
    (hV0 : ∀ (j : Fin 1024) (d : Fin 512), V0 (ix2 j d) = Vfun x0 x1 x2 x3 (ix2 (tileEquiv.symm (0, j)) d))
    (hV1 : ∀ (j : Fin 1024) (d : Fin 512), V1 (ix2 j d) = Vfun x0 x1 x2 x3 (ix2 (tileEquiv.symm (1, j)) d))
    (hV2 : ∀ (j : Fin 1024) (d : Fin 512), V2 (ix2 j d) = Vfun x0 x1 x2 x3 (ix2 (tileEquiv.symm (2, j)) d))
    (hV3 : ∀ (j : Fin 1024) (d : Fin 512), V3 (ix2 j d) = Vfun x0 x1 x2 x3 (ix2 (tileEquiv.symm (3, j)) d))
    (hpw : pw = x4) (hpb : pb = x5) (r : Fin 256) (d : Fin 512) :
    attnTile xq sc b qw K0 K1 K2 K3 V0 V1 V2 V3 pw pb (ix3 (0 : Fin 1) r d)
      = Cert.Attn.out (Xof x0) (scOf x1) (Wof x2) (bOf x3) (PWof x4) (pbOf x5) (tokOf i r) d :=
  attnTile_spec (Xof x0) (scOf x1) (Wof x2) (bOf x3) (PWof x4) (pbOf x5)
    (fun n c => h0 _) (fun c => h1 _) (fun c e => h2 _) (fun e => h3 _)
    xq sc b qw K0 K1 K2 K3 V0 V1 V2 V3 pw pb (tokOf i) hxq
    (fun c => by rw [hsc]; rfl) (fun e => by rw [hb]; rfl) hqw hK0 hK1 hK2 hK3 hV0 hV1 hV2 hV3
    (fun c d => by rw [hpw]; rfl) (fun d => by rw [hpb]; rfl) r d

/-- A later query tile of a frame: the scratch holds the frame's keys and values. -/
theorem out_B_val (c : Dev nD) (i : grid0.Coords) (arg2 : Memref sig .tc .vmem S1x4096x512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1536 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1x256x512 .f32) (harg8 : arg8.IsWhole) (arg9 : Memref sig .tc .vmem S4096x512 .bf16) (harg9 : arg9.IsWhole) (arg10 : Memref sig .tc .vmem S4096x512 .bf16) (harg10 : arg10.IsWhole) (hc0 : ¬cond0_0 i)
    (x0 : Vec Ideal S1x4096x512 .f32) (x1 : Vec Ideal S512 .f32) (x2 : Vec Ideal S512x1536 .bf16) (x3 : Vec Ideal S1536 .f32) (x4 : Vec Ideal S512x512 .bf16) (x5 : Vec Ideal S512 .f32)
    (h0 : ∀ y, IsFin (x0 y)) (h1 : ∀ y, IsFin (x1 y)) (h2 : ∀ y, IsFin (x2 y)) (h3 : ∀ y, IsFin (x3 y))
    (r : Fin 256) (d : Fin 512) :
    out0_B_6 c i arg2 harg2 arg3 harg3 arg4 harg4 arg5 harg5 arg6 harg6 arg7 harg7 arg8 harg8 arg9 harg9 arg10 harg10 hc0 x0 x1 x2 x3 x4 x5 (Kfun x0 x1 x2 x3) (Vfun x0 x1 x2 x3) (ix3 (0 : Fin 1) r d)
      = Cert.Attn.out (Xof x0) (scOf x1) (Wof x2) (bOf x3) (PWof x4) (pbOf x5) (tokOf i r) d := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 (Kfun x0 x1 x2 x3) (Vfun x0 x1 x2 x3))]
  unfold kernelRun0_B
  dsimp only
  sl_unfold_words
  rw [View.canon_unit_zero hz3]
  refine tile_out i x0 x1 x2 x3 x4 x5 h0 h1 h2 h3 _ _ _ _ _ _ _ _ _ _ _ _ _ _
    ?_ ?_ ?_ ?_ ?_ ?_ ?_ ?_ ?_ ?_ ?_ ?_ ?_ ?_ r d
  · exact fun r c => (readAt_unread_apply harg2 x0 _ _).trans (congrArg x0 (idx_q _ _ i (k0_off3_eq i) r c))
  · exact readAt_unread_whole harg3 x1 hzo1 _
  · exact readAt_unread_whole harg5 x3 hzo1 _
  · exact fun c d => (readAt_unread_apply harg4 x2 _ _).trans (congrArg x2 (idx_w _ _ rfl c d))
  · exact fun j d => (readAt_unread_apply harg9 _ _ _).trans (congrArg (Kfun x0 x1 x2 x3) (idx_kv _ _ 0 rfl j d))
  · exact fun j d => (readAt_unread_apply harg9 _ _ _).trans (congrArg (Kfun x0 x1 x2 x3) (idx_kv _ _ 1 rfl j d))
  · exact fun j d => (readAt_unread_apply harg9 _ _ _).trans (congrArg (Kfun x0 x1 x2 x3) (idx_kv _ _ 2 rfl j d))
  · exact fun j d => (readAt_unread_apply harg9 _ _ _).trans (congrArg (Kfun x0 x1 x2 x3) (idx_kv _ _ 3 rfl j d))
  · exact fun j d => (readAt_unread_apply harg10 _ _ _).trans (congrArg (Vfun x0 x1 x2 x3) (idx_kv _ _ 0 rfl j d))
  · exact fun j d => (readAt_unread_apply harg10 _ _ _).trans (congrArg (Vfun x0 x1 x2 x3) (idx_kv _ _ 1 rfl j d))
  · exact fun j d => (readAt_unread_apply harg10 _ _ _).trans (congrArg (Vfun x0 x1 x2 x3) (idx_kv _ _ 2 rfl j d))
  · exact fun j d => (readAt_unread_apply harg10 _ _ _).trans (congrArg (Vfun x0 x1 x2 x3) (idx_kv _ _ 3 rfl j d))
  · exact readAt_unread_whole harg6 x4 hz2 _
  · exact readAt_unread_whole harg7 x5 hzo1 _

/-- The first query tile of a frame: the body reads back the keys and values it has just stored. -/
theorem out_A_val (c : Dev nD) (i : grid0.Coords) (arg2 : Memref sig .tc .vmem S1x4096x512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S1536 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S1x256x512 .f32) (harg8 : arg8.IsWhole) (arg9 : Memref sig .tc .vmem S4096x512 .bf16) (harg9 : arg9.IsWhole) (arg10 : Memref sig .tc .vmem S4096x512 .bf16) (harg10 : arg10.IsWhole) (hc0 : cond0_0 i)
    (x0 : Vec Ideal S1x4096x512 .f32) (x1 : Vec Ideal S512 .f32) (x2 : Vec Ideal S512x1536 .bf16) (x3 : Vec Ideal S1536 .f32) (x4 : Vec Ideal S512x512 .bf16) (x5 : Vec Ideal S512 .f32)
    (h0 : ∀ y, IsFin (x0 y)) (h1 : ∀ y, IsFin (x1 y)) (h2 : ∀ y, IsFin (x2 y)) (h3 : ∀ y, IsFin (x3 y))
    (r : Fin 256) (d : Fin 512) :
    out0_A_6 c i arg2 harg2 arg3 harg3 arg4 harg4 arg5 harg5 arg6 harg6 arg7 harg7 arg8 harg8 arg9 harg9 arg10 harg10 hc0 x0 x1 x2 x3 x4 x5 (ix3 (0 : Fin 1) r d)
      = Cert.Attn.out (Xof x0) (scOf x1) (Wof x2) (bOf x3) (PWof x4) (pbOf x5) (tokOf i r) d := by
  have hK := sout_K c i arg2 harg2 arg3 harg3 arg4 harg4 arg5 harg5 arg6 harg6 arg7 harg7 arg8 harg8 arg9 harg9 arg10 harg10 hc0 x0 x1 x2 x3 x4 x5
  have hV := sout_V c i arg2 harg2 arg3 harg3 arg4 harg4 arg5 harg5 arg6 harg6 arg7 harg7 arg8 harg8 arg9 harg9 arg10 harg10 hc0 x0 x1 x2 x3 x4 x5
  unfold sout0_A_0 at hK
  unfold sout0_A_1 at hV
  rw [View.read_writes_junk_eq_canon] at hK hV
  unfold out0_A_6
  rw [View.read_writes_junk_eq_canon]
  revert hK hV
  unfold kernelRun0_A
  dsimp only
  sl_unfold_words
  intro hK hV
  rw [View.canon_unit_zero hz3]
  refine tile_out i x0 x1 x2 x3 x4 x5 h0 h1 h2 h3 _ _ _ _ _ _ _ _ _ _ _ _ _ _
    ?_ ?_ ?_ ?_ ?_ ?_ ?_ ?_ ?_ ?_ ?_ ?_ ?_ ?_ r d
  · exact fun r c => (readAt_unread_apply harg2 x0 _ _).trans (congrArg x0 (idx_q _ _ i (k0_off3_eq i) r c))
  · exact readAt_unread_whole harg3 x1 hzo1 _
  · exact readAt_unread_whole harg5 x3 hzo1 _
  · exact fun c d => (readAt_unread_apply harg4 x2 _ _).trans (congrArg x2 (idx_w _ _ rfl c d))
  · exact fun j d => (congrFun (View.readCov_eq_canon' _ _ _) _).trans ((congrFun hK _).trans (congrArg (Kfun x0 x1 x2 x3) (idx_kv _ _ 0 rfl j d)))
  · exact fun j d => (congrFun (View.readCov_eq_canon' _ _ _) _).trans ((congrFun hK _).trans (congrArg (Kfun x0 x1 x2 x3) (idx_kv _ _ 1 rfl j d)))
  · exact fun j d => (congrFun (View.readCov_eq_canon' _ _ _) _).trans ((congrFun hK _).trans (congrArg (Kfun x0 x1 x2 x3) (idx_kv _ _ 2 rfl j d)))
  · exact fun j d => (congrFun (View.readCov_eq_canon' _ _ _) _).trans ((congrFun hK _).trans (congrArg (Kfun x0 x1 x2 x3) (idx_kv _ _ 3 rfl j d)))
  · exact fun j d => (congrFun (View.readCov_eq_canon' _ _ _) _).trans ((congrFun hV _).trans (congrArg (Vfun x0 x1 x2 x3) (idx_kv _ _ 0 rfl j d)))
  · exact fun j d => (congrFun (View.readCov_eq_canon' _ _ _) _).trans ((congrFun hV _).trans (congrArg (Vfun x0 x1 x2 x3) (idx_kv _ _ 1 rfl j d)))
  · exact fun j d => (congrFun (View.readCov_eq_canon' _ _ _) _).trans ((congrFun hV _).trans (congrArg (Vfun x0 x1 x2 x3) (idx_kv _ _ 2 rfl j d)))
  · exact fun j d => (congrFun (View.readCov_eq_canon' _ _ _) _).trans ((congrFun hV _).trans (congrArg (Vfun x0 x1 x2 x3) (idx_kv _ _ 3 rfl j d)))
  · exact readAt_unread_whole harg6 x4 hz2 _
  · exact readAt_unread_whole harg7 x5 hzo1 _

end Cert.KernelIdeal.Pieces

end
-- ==== Proof.KHost.lean ====
/-
  The kernel program's host side, on the extended reals.

  Before the region the input is reshaped to 8 frames of 4096 tokens by 512 channels and the two weight matrices are
  narrowed (the identity on the extended reals).  Inside the region grid point `t` of 128 works on frame `t / 16`
  and on the 256 query tokens of tile `t % 16`: its first window is the whole frame, the five parameter windows are
  whole arrays, and its result window is rows `256 · (t % 16) …` of frame `t / 16`.  The result blocks tile the
  result array, so a function that every point writes its block of is the array after the region; the one operation
  after the region reshapes it back to the input's shape.
-/
import proofs.«116806_j90975997264646_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## The host operations before the region -/

/-- The first window's array is the input reshaped to frames. -/
theorem V_v0 (c : Dev nD) :
    (V m c main_v0 : S8x4096x512.Idx → EReal)
      = shapeCast S8x4096x512 (m ((c : Thread nD τ).loc main_arg0)) shapeCasts_S1x8x64x64x512_S8x4096x512 := by
  show StableHlo.after hostOps0 (fun b => m (c, b)) (Proc.devRef .tc main_v0) = _
  after_results
  rfl

/-- Narrowing the fused projection's weights changes nothing on the extended reals. -/
theorem V_v1 (c : Dev nD) (i : S512x1536.Idx) :
    (V m c main_v1 : S512x1536.Idx → EReal) i = m ((c : Thread nD τ).loc main_arg2) i := by
  have e : (V m c main_v1 : S512x1536.Idx → EReal)
      = truncf (F := Ideal) .bf16 (m ((c : Thread nD τ).loc main_arg2)) bitsLt_bf16_f32 := by
    show StableHlo.after hostOps0 (fun b => m (c, b)) (Proc.devRef .tc main_v1) = _
    after_results
  rw [e]
  rfl

/-- Nor does narrowing the output projection's. -/
theorem V_v2 (c : Dev nD) (i : S512x512.Idx) :
    (V m c main_v2 : S512x512.Idx → EReal) i = m ((c : Thread nD τ).loc main_arg4) i := by
  have e : (V m c main_v2 : S512x512.Idx → EReal)
      = truncf (F := Ideal) .bf16 (m ((c : Thread nD τ).loc main_arg4)) bitsLt_bf16_f32 := by
    show StableHlo.after hostOps0 (fun b => m (c, b)) (Proc.devRef .tc main_v2) = _
    after_results
  rw [e]
  rfl

/-! ## The windows' blocks at a grid point -/

/-- The block indices of the first and of the result window, decided over the 128 points: point `t` is frame
    `t / 16`, query tile `t % 16`. -/
theorem idx_facts : ∀ t : Fin cfg0.N,
    win0_0.index t (0 : Fin 3) = t.val / 16 ∧ win0_0.index t (1 : Fin 3) = 0 ∧ win0_0.index t (2 : Fin 3) = 0
    ∧ win0_6.index t (0 : Fin 3) = t.val / 16 ∧ win0_6.index t (1 : Fin 3) = t.val % 16
    ∧ win0_6.index t (2 : Fin 3) = 0 :=
  (by decide +kernel : ∀ t : Fin grid0.N, _)

/-- The first window's block at point `t` is frame `t / 16` of the reshaped input. -/
theorem iblk0_apply (c : Dev nD) (t : Fin cfg0.N) (n : Fin 4096) (k : Fin 512) :
    iblk m c 0 t (ix3 (0 : Fin 1) n k)
      = (V m c main_v0 : S8x4096x512.Idx → EReal)
          (ix3 ⟨t.val / 16, by have := t.isLt; have : cfg0.N = 128 := N_0; omega⟩ n k) := by
  obtain ⟨e0, e1, e2, -, -, -⟩ := idx_facts t
  unfold iblk
  rw [View.read_apply]
  show V m c main_v0 (((cfg0.win 0).blk t).view.emb (ix3 (0 : Fin 1) n k)) = V m c main_v0 _
  refine congrArg (V m c main_v0) ?_
  funext a
  apply Fin.ext
  match a with
  | ⟨0, _⟩ => show win0_0.index t (0 : Fin 3) * 1 + 1 * 0 = t.val / 16; omega
  | ⟨1, _⟩ => show win0_0.index t (1 : Fin 3) * 4096 + 1 * n.val = n.val; omega
  | ⟨2, _⟩ => show win0_0.index t (2 : Fin 3) * 512 + 1 * k.val = k.val; omega

/-- The five parameter windows sit at block index 0 at every point. -/
theorem idx_zero : ∀ t : Fin cfg0.N,
    win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- The scale's window is the whole array. -/
theorem iblk1_apply (c : Dev nD) (t : Fin cfg0.N) (y : S512.Idx) :
    iblk m c 1 t y = (V m c main_arg1 : S512.Idx → EReal) y := by
  obtain ⟨e, -, -, -, -, -, -⟩ := idx_zero t
  unfold iblk
  rw [View.read_apply]
  show V m c main_arg1 (((cfg0.win 1).blk t).view.emb y) = V m c main_arg1 y
  refine congrArg (V m c main_arg1) ?_
  funext a
  apply Fin.ext
  match a with
  | ⟨0, _⟩ => show win0_1.index t (0 : Fin 1) * 512 + 1 * (y 0).val = (y 0).val; omega

theorem iblk1_eq (c : Dev nD) (t : Fin cfg0.N) : iblk m c 1 t = V m c main_arg1 :=
  funext fun y => iblk1_apply m c t y

/-- The fused projection's weights: the whole array. -/
theorem iblk2_apply (c : Dev nD) (t : Fin cfg0.N) (y : S512x1536.Idx) :
    iblk m c 2 t y = (V m c main_v1 : S512x1536.Idx → EReal) y := by
  obtain ⟨-, e0, e1, -, -, -, -⟩ := idx_zero t
  unfold iblk
  rw [View.read_apply]
  show V m c main_v1 (((cfg0.win 2).blk t).view.emb y) = V m c main_v1 y
  refine congrArg (V m c main_v1) ?_
  funext a
  apply Fin.ext
  match a with
  | ⟨0, _⟩ => show win0_2.index t (0 : Fin 2) * 512 + 1 * (y 0).val = (y 0).val; omega
  | ⟨1, _⟩ => show win0_2.index t (1 : Fin 2) * 1536 + 1 * (y 1).val = (y 1).val; omega

theorem iblk2_eq (c : Dev nD) (t : Fin cfg0.N) : iblk m c 2 t = V m c main_v1 :=
  funext fun y => iblk2_apply m c t y

/-- Its bias: the whole array. -/
theorem iblk3_apply (c : Dev nD) (t : Fin cfg0.N) (y : S1536.Idx) :
    iblk m c 3 t y = (V m c main_arg3 : S1536.Idx → EReal) y := by
  obtain ⟨-, -, -, e, -, -, -⟩ := idx_zero t
  unfold iblk
  rw [View.read_apply]
  show V m c main_arg3 (((cfg0.win 3).blk t).view.emb y) = V m c main_arg3 y
  refine congrArg (V m c main_arg3) ?_
  funext a
  apply Fin.ext
  match a with
  | ⟨0, _⟩ => show win0_3.index t (0 : Fin 1) * 1536 + 1 * (y 0).val = (y 0).val; omega

theorem iblk3_eq (c : Dev nD) (t : Fin cfg0.N) : iblk m c 3 t = V m c main_arg3 :=
  funext fun y => iblk3_apply m c t y

/-- The output projection's weights: the whole array. -/
theorem iblk4_apply (c : Dev nD) (t : Fin cfg0.N) (y : S512x512.Idx) :
    iblk m c 4 t y = (V m c main_v2 : S512x512.Idx → EReal) y := by
  obtain ⟨-, -, -, -, e0, e1, -⟩ := idx_zero t
  unfold iblk
  rw [View.read_apply]
  show V m c main_v2 (((cfg0.win 4).blk t).view.emb y) = V m c main_v2 y
  refine congrArg (V m c main_v2) ?_
  funext a
  apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem iblk4_eq (c : Dev nD) (t : Fin cfg0.N) : iblk m c 4 t = V m c main_v2 :=
  funext fun y => iblk4_apply m c t y

/-- Its bias: the whole array. -/
theorem iblk5_apply (c : Dev nD) (t : Fin cfg0.N) (y : S512.Idx) :
    iblk m c 5 t y = (V m c main_arg5 : S512.Idx → EReal) y := by
  obtain ⟨-, -, -, -, -, -, e⟩ := idx_zero t
  unfold iblk
  rw [View.read_apply]
  show V m c main_arg5 (((cfg0.win 5).blk t).view.emb y) = V m c main_arg5 y
  refine congrArg (V m c main_arg5) ?_
  funext a
  apply Fin.ext
  match a with
  | ⟨0, _⟩ => show win0_5.index t (0 : Fin 1) * 512 + 1 * (y 0).val = (y 0).val; omega

theorem iblk5_eq (c : Dev nD) (t : Fin cfg0.N) : iblk m c 5 t = V m c main_arg5 :=
  funext fun y => iblk5_apply m c t y

/-! ## The result window -/

/-- Point `t`'s result block, read off any array `G`: rows `256 · (t % 16) + r` of frame `t / 16`. -/
theorem blk6_read (c : Dev nD) (G : S8x4096x512.Idx → EReal) (t : Fin cfg0.N) (r : Fin 256) (d : Fin 512) :
    ((cfg0.win 6).blk t).view.read (Elt Ideal) G (ix3 (0 : Fin 1) r d)
      = G (ix3 ⟨t.val / 16, by have := t.isLt; have : cfg0.N = 128 := N_0; omega⟩
          ⟨256 * (t.val % 16) + r.val, by have := r.isLt; omega⟩ d) := by
  obtain ⟨-, -, -, e0, e1, e2⟩ := idx_facts t
  rw [View.read_apply]
  show G (((cfg0.win 6).blk t).view.emb (ix3 (0 : Fin 1) r d)) = G _
  refine congrArg G ?_
  funext a
  apply Fin.ext
  match a with
  | ⟨0, _⟩ => show win0_6.index t (0 : Fin 3) * 1 + 1 * 0 = t.val / 16; omega
  | ⟨1, _⟩ => show win0_6.index t (1 : Fin 3) * 256 + 1 * r.val = 256 * (t.val % 16) + r.val; omega
  | ⟨2, _⟩ => show win0_6.index t (2 : Fin 3) * 512 + 1 * d.val = d.val; omega

/-- An index of the result array is in point `t`'s block iff each coordinate is in the block's range. -/
theorem mem_blk6 (t : Fin cfg0.N) (i : S8x4096x512.Idx) :
    i ∈ ((cfg0.win 6).blk t).view.set
      ↔ ∀ a : Fin 3, win0_6.index t a * S1x256x512.size a ≤ (i a).val
          ∧ (i a).val < win0_6.index t a * S1x256x512.size a + S1x256x512.size a := by
  show i ∈ ((View.whole main_v3).slice (win0_6.rect t)).set ↔ _
  rw [View.set_slice_whole, Rect.mem_set_unit]
  exact Iff.rfl

/-- The result blocks tile the result array: index `i` is in the block of point `16 · i₀ + i₁ / 256`. -/
theorem covered6 : ∀ i : S8x4096x512.Idx,
    ∃ t : Fin cfg0.N, (cfg0.win 6).flush t = true ∧ i ∈ ((cfg0.win 6).blk t).view.set := by
  intro i
  have h0 : (i 0).val < 8 := (i 0).isLt
  have h1 : (i 1).val < 4096 := (i 1).isLt
  have h2 : (i 2).val < 512 := (i 2).isLt
  have hN : cfg0.N = 128 := N_0
  let t : Fin cfg0.N := ⟨16 * (i 0).val + (i 1).val / 256, by omega⟩
  have ht : t.val = 16 * (i 0).val + (i 1).val / 256 := rfl
  obtain ⟨-, -, -, e0, e1, e2⟩ := idx_facts t
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 512 ≤ (i 2).val ∧ (i 2).val < win0_6.index t (2 : Fin 3) * 512 + 512
    omega

/-- So an array that every point writes its block of is the result array after the region. -/
theorem final6 (c : Dev nD) (G : S8x4096x512.Idx → EReal)
    (hfl : ∀ t : Fin cfg0.N, (dats m 0 c).flushed 6 t = ((cfg0.win 6).blk t).view.read (Elt Ideal) G) :
    (dats m 0 c).arrAt 6 cfg0.N = G :=
  (dats m 0 c).arrAt_eq_of_cover 6 G (fun t _ => hfl t) covered6

/-! ## The operation after the region, and the run -/

/-- The one operation after the region reshapes the result array back to the input's shape. -/
theorem tail_v4 (c : Dev nD) (G : S8x4096x512.Idx → EReal) (hG : (dats m 0 c).arrAt 6 cfg0.N = G) :
    (Pipeline.afterTail₀ cfgs (dats m) 0 (V0 m) [hostOps1] c main_v4 : S1x8x64x64x512.Idx → EReal)
      = shapeCast S1x8x64x64x512 G shapeCasts_S8x4096x512_S1x8x64x64x512 := by
  unfold Pipeline.afterTail₀
  show StableHlo.after hostOps1 _ (Proc.devRef .tc main_v4) = _
  after_results
  refine congrArg (fun x : S8x4096x512.Idx → EReal =>
    shapeCast S1x8x64x64x512 x shapeCasts_S8x4096x512_S1x8x64x64x512) ?_
  exact (Pipeline.withArrays_arr spec0 launch0.win.arr_inj c _ _ 6).trans hG

/-- The run, read: the result buffer holds the reshape of whatever the result array is shown to hold, and the six
    arguments are unchanged. -/
theorem run_value (G : Dev nD → S8x4096x512.Idx → EReal) (hG : ∀ c : Dev nD, (dats m 0 c).arrAt 6 cfg0.N = G c) :
    θ_run defs (onTc (τ := τ) (main (F := Ideal))) ⟨m, fun _ => 0, ρ⟩ (fun r => ∀ c : Dev nD,
      r.2.mem ((c.tc : Thread nD τ).loc main_v4)
        = shapeCast S1x8x64x64x512 (G c) shapeCasts_S8x4096x512_S1x8x64x64x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (tail_v4 m c (G c) (hG c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.HostSide

end
-- ==== Proof.KInv.lean ====
/-
  What the output tile and the two scratch buffers hold after every grid point.

  The grid runs frame by frame, sixteen query tiles per frame.  By induction along the grid: after any point of frame
  `f` the key and value scratch hold the keys and values of frame `f` (written at the frame's first tile, untouched
  at the other fifteen, and the frame's block of the input is the same at all sixteen), and the output tile holds the
  specification's output for the point's 256 tokens.
-/
import proofs.«116806_j90975997264646_2_alg».proof.Proof.KOut
import proofs.«116806_j90975997264646_2_alg».proof.Proof.KHost

set_option maxRecDepth 16384

noncomputable section

open Idealize.ShloMosaic Idealize.ShloMosaic.TcCoe Idealize.SL.Sem

namespace Cert.KernelIdeal.Inv

open Cert.KernelIdeal Cert.KernelIdeal.Gen Idealize.ShloMosaic.ValueIdx
open Cert.KernelIdeal.Pieces Cert.KernelIdeal.HostSide Cert.Layer.Softmax

variable (m : (ℓ : Loc nD τ sig) → Buf (Elt Ideal) ℓ)

/-- The six input windows' blocks at a point, at their literal shapes. -/
def blk0 (c : Dev nD) (t : Fin cfg0.N) : Vec Ideal S1x4096x512 .f32 := iblk m c 0 t
def blk1 (c : Dev nD) (t : Fin cfg0.N) : Vec Ideal S512 .f32 := iblk m c 1 t
def blk2 (c : Dev nD) (t : Fin cfg0.N) : Vec Ideal S512x1536 .bf16 := iblk m c 2 t
def blk3 (c : Dev nD) (t : Fin cfg0.N) : Vec Ideal S1536 .f32 := iblk m c 3 t
def blk4 (c : Dev nD) (t : Fin cfg0.N) : Vec Ideal S512x512 .bf16 := iblk m c 4 t
def blk5 (c : Dev nD) (t : Fin cfg0.N) : Vec Ideal S512 .f32 := iblk m c 5 t

/-- The input's block is the same at all points of a frame. -/
theorem blk0_eq_of_frame (c : Dev nD) (t t' : Fin cfg0.N) (h : t.val / 16 = t'.val / 16) :
    blk0 m c t = blk0 m c t' := by
  funext y
  unfold blk0
  obtain ⟨u, n, k, rfl⟩ : ∃ (u : Fin 1) (n : Fin 4096) (k : Fin 512), y = ix3 u n k := ⟨y 0, y 1, y 2, eq_ix3 y⟩
  obtain rfl : u = (0 : Fin 1) := Subsingleton.elim _ _
  rw [iblk0_apply, iblk0_apply]
  exact congrArg (fun f => (V m c main_v0 : S8x4096x512.Idx → EReal) (ix3 f n k)) (Fin.ext h)

section Finite

variable (f0 : ∀ (c : Dev nD) y, IsFin (m ((c : Thread nD τ).loc main_arg0) y))
  (f1 : ∀ (c : Dev nD) y, IsFin (m ((c : Thread nD τ).loc main_arg1) y))
  (f2 : ∀ (c : Dev nD) y, IsFin (m ((c : Thread nD τ).loc main_arg2) y))
  (f3 : ∀ (c : Dev nD) y, IsFin (m ((c : Thread nD τ).loc main_arg3) y))

include f0 in
theorem fin_blk0 (c : Dev nD) (t : Fin cfg0.N) (y : S1x4096x512.Idx) : IsFin (blk0 m c t y) := by
  unfold blk0
  obtain ⟨u, n, k, rfl⟩ : ∃ (u : Fin 1) (n : Fin 4096) (k : Fin 512), y = ix3 u n k := ⟨y 0, y 1, y 2, eq_ix3 y⟩
  obtain rfl : u = (0 : Fin 1) := Subsingleton.elim _ _
  rw [iblk0_apply, V_v0]
  exact f0 c _

include f1 in
theorem fin_blk1 (c : Dev nD) (t : Fin cfg0.N) (y : S512.Idx) : IsFin (blk1 m c t y) := by
  unfold blk1
  rw [iblk1_apply, V_main_arg1]; exact f1 c y

include f2 in
theorem fin_blk2 (c : Dev nD) (t : Fin cfg0.N) (y : S512x1536.Idx) : IsFin (blk2 m c t y) := by
  unfold blk2
  rw [iblk2_apply, V_v1]; exact f2 c y

include f3 in
theorem fin_blk3 (c : Dev nD) (t : Fin cfg0.N) (y : S1536.Idx) : IsFin (blk3 m c t y) := by
  unfold blk3
  rw [iblk3_apply, V_main_arg3]; exact f3 c y

set_option maxHeartbeats 1000000 in
/-- What the point's three buffers should hold. -/
def Good (c : Dev nD) (t : Fin cfg0.N) (o : Vec Ideal S1x256x512 .f32 × Vec Ideal S4096x512 .bf16 × Vec Ideal S4096x512 .bf16) : Prop :=
  o.2.1 = Kfun (blk0 m c t) (blk1 m c t) (blk2 m c t) (blk3 m c t)
  ∧ o.2.2 = Vfun (blk0 m c t) (blk1 m c t) (blk2 m c t) (blk3 m c t)
  ∧ ∀ (r : Fin 256) (d : Fin 512), o.1 (ix3 (0 : Fin 1) r d)
      = Cert.Attn.out (Xof (blk0 m c t)) (scOf (blk1 m c t)) (Wof (blk2 m c t)) (bOf (blk3 m c t))
          (PWof (blk4 m c t)) (pbOf (blk5 m c t)) (tokOf (grid0.coords t) r) d

set_option maxHeartbeats 1000000 in
include f0 f1 f2 f3 in
/-- The first query tile of a frame. -/
theorem good_A (c : Dev nD) (t : Fin cfg0.N) (h0 : t.val % 16 = 0) : Good m c t (outsAt0 m c t.val t.isLt) := by
  unfold Good
  rw [outsAt0_A m c t h0]
  dsimp only
  exact ⟨sout_K c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (blk0 m c t) (blk1 m c t) (blk2 m c t) (blk3 m c t) (blk4 m c t) (blk5 m c t),
    sout_V c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (blk0 m c t) (blk1 m c t) (blk2 m c t) (blk3 m c t) (blk4 m c t) (blk5 m c t),
    fun r d => out_A_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (blk0 m c t) (blk1 m c t) (blk2 m c t) (blk3 m c t) (blk4 m c t) (blk5 m c t)
      (fin_blk0 m f0 c t) (fin_blk1 m f1 c t) (fin_blk2 m f2 c t) (fin_blk3 m f3 c t) r d⟩

set_option maxHeartbeats 1000000 in
include f0 f1 f2 f3 in
/-- A later query tile: the scratch is what the point before left, and that point is of the same frame. -/
theorem good_B (c : Dev nD) (t : Fin cfg0.N) (h0 : ¬t.val % 16 = 0)
    (ih : Good m c ⟨t.val - 1, Nat.lt_of_le_of_lt (Nat.sub_le _ _) t.isLt⟩ (outsAt0 m c (t.val - 1) (Nat.lt_of_le_of_lt (Nat.sub_le _ _) t.isLt))) :
    Good m c t (outsAt0 m c t.val t.isLt) := by
  obtain ⟨ihK, ihV, -⟩ := ih
  have hfr : blk0 m c ⟨t.val - 1, Nat.lt_of_le_of_lt (Nat.sub_le _ _) t.isLt⟩ = blk0 m c t :=
    blk0_eq_of_frame m c _ _ (by show (t.val - 1) / 16 = t.val / 16; omega)
  have e1 : blk1 m c ⟨t.val - 1, Nat.lt_of_le_of_lt (Nat.sub_le _ _) t.isLt⟩ = blk1 m c t := by
    unfold blk1; rw [iblk1_eq, iblk1_eq]
  have e2 : blk2 m c ⟨t.val - 1, Nat.lt_of_le_of_lt (Nat.sub_le _ _) t.isLt⟩ = blk2 m c t := by
    unfold blk2; rw [iblk2_eq, iblk2_eq]
  have e3 : blk3 m c ⟨t.val - 1, Nat.lt_of_le_of_lt (Nat.sub_le _ _) t.isLt⟩ = blk3 m c t := by
    unfold blk3; rw [iblk3_eq, iblk3_eq]
  rw [hfr, e1, e2, e3] at ihK ihV
  unfold Good
  rw [outsAt0_B m c t h0]
  dsimp only
  unfold sout0_B_0 sout0_B_1
  refine ⟨ihK, ihV, fun r d => ?_⟩
  show out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (blk0 m c t) (blk1 m c t) (blk2 m c t) (blk3 m c t) (blk4 m c t) (blk5 m c t)
      (outsAt0 m c (t.val - 1) (Nat.lt_of_le_of_lt (Nat.sub_le _ _) t.isLt)).2.1 (outsAt0 m c (t.val - 1) (Nat.lt_of_le_of_lt (Nat.sub_le _ _) t.isLt)).2.2 (ix3 (0 : Fin 1) r d) = _
  rw [ihK, ihV]
  exact out_B_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (blk0 m c t) (blk1 m c t) (blk2 m c t) (blk3 m c t) (blk4 m c t) (blk5 m c t)
    (fin_blk0 m f0 c t) (fin_blk1 m f1 c t) (fin_blk2 m f2 c t) (fin_blk3 m f3 c t) r d

set_option maxHeartbeats 1000000 in
include f0 f1 f2 f3 in
/-- After every point. -/
theorem good (c : Dev nD) : ∀ (n : ℕ) (hn : n < cfg0.N), Good m c ⟨n, hn⟩ (outsAt0 m c n hn)
  | 0, hn => good_A m f0 f1 f2 f3 c ⟨0, hn⟩ rfl
  | n + 1, hn => by
    by_cases h0 : (n + 1) % 16 = 0
    · exact good_A m f0 f1 f2 f3 c ⟨n + 1, hn⟩ h0
    · exact good_B m f0 f1 f2 f3 c ⟨n + 1, hn⟩ h0 (good c n (Nat.lt_of_succ_lt hn))

end Finite

end Cert.KernelIdeal.Inv

end
-- ==== Proof.KValue.lean ====
/-
  The kernel's result array.

  The region's result array (8 frames × 4096 tokens × 512 channels) ends holding, at (frame, token, channel), the
  specification's output of that frame read off the region's input arrays: every grid point writes its output tile
  back to rows `256 q … 256 q + 255` of frame `f`, the 128 tiles cover the array, and each tile holds the
  specification's output for its tokens.  The program's result is that array reshaped.
-/
import proofs.«116806_j90975997264646_2_alg».proof.Proof.KInv

set_option maxRecDepth 16384

noncomputable section

open Idealize.ShloMosaic Idealize.ShloMosaic.TcCoe Idealize.SL.Sem

namespace Cert.KernelIdeal.Result

open Cert.KernelIdeal Cert.KernelIdeal.Gen Idealize.ShloMosaic.ValueIdx
open Cert.KernelIdeal.Pieces Cert.KernelIdeal.HostSide Cert.KernelIdeal.Inv Cert.Layer.Softmax

variable (m : (ℓ : Loc nD τ sig) → Buf (Elt Ideal) ℓ) (ρ : Dev nD → PrngReg)

/-- Frame `f` of the input as the region finds it, and the layer's parameters as launched. -/
def frameOf (c : Dev nD) (f : Fin 8) : Fin 4096 → Fin 512 → EReal :=
  fun n k => shapeCast S8x4096x512 (m ((c : Thread nD τ).loc main_arg0)) shapeCasts_S1x8x64x64x512_S8x4096x512 (ix3 f n k)
def scA (c : Dev nD) : Fin 512 → EReal := fun k => m ((c : Thread nD τ).loc main_arg1) (ix1 k)
def WA (c : Dev nD) : Fin 512 → Fin 1536 → EReal := fun k e => m ((c : Thread nD τ).loc main_arg2) (ix2 k e)
def bA (c : Dev nD) : Fin 1536 → EReal := fun e => m ((c : Thread nD τ).loc main_arg3) (ix1 e)
def PWA (c : Dev nD) : Fin 512 → Fin 512 → EReal := fun k d => m ((c : Thread nD τ).loc main_arg4) (ix2 k d)
def pbA (c : Dev nD) : Fin 512 → EReal := fun d => m ((c : Thread nD τ).loc main_arg5) (ix1 d)

/-- The result array: the specification's output of each frame. -/
def G (c : Dev nD) : S8x4096x512.Idx → EReal :=
  fun y => Cert.Attn.out (frameOf m c (y 0)) (scA m c) (WA m c) (bA m c) (PWA m c) (pbA m c) (y 1) (y 2)

/-- A point's query-tile coordinate. -/
theorem coords_q : ∀ t : Fin cfg0.N, ((grid0.coords t) 1).val = t.val % 16 :=
  (by decide +kernel : ∀ t : Fin grid0.N, ((grid0.coords t) 1).val = t.val % 16)

section Finite

variable (f0 : ∀ (c : Dev nD) y, IsFin (m ((c : Thread nD τ).loc main_arg0) y))
  (f1 : ∀ (c : Dev nD) y, IsFin (m ((c : Thread nD τ).loc main_arg1) y))
  (f2 : ∀ (c : Dev nD) y, IsFin (m ((c : Thread nD τ).loc main_arg2) y))
  (f3 : ∀ (c : Dev nD) y, IsFin (m ((c : Thread nD τ).loc main_arg3) y))

include f0 f1 f2 f3 in
/-- What point `t` writes back is its block of the result array. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  funext y
  obtain ⟨u, r, d, rfl⟩ : ∃ (u : Fin 1) (r : Fin 256) (d : Fin 512), y = ix3 u r d := ⟨y 0, y 1, y 2, eq_ix3 y⟩
  obtain rfl : u = (0 : Fin 1) := Subsingleton.elim _ _
  rw [blk6_read c]
  show (outsAt0 m c t.val t.isLt).1 (ix3 (0 : Fin 1) r d) = _
  rw [(good m f0 f1 f2 f3 c t.val t.isLt).2.2 r d]
  have eX : Xof (blk0 m c t) = frameOf m c ⟨t.val / 16, by have := t.isLt; have : cfg0.N = 128 := N_0; omega⟩ :=
    funext fun n => funext fun k => by
      show blk0 m c t (ix3 (0 : Fin 1) n k) = _
      unfold blk0
      rw [iblk0_apply, V_v0]; rfl
  have e1 : scOf (blk1 m c t) = scA m c := funext fun k => by
    show blk1 m c t (ix1 k) = _
    unfold blk1
    rw [iblk1_apply, V_main_arg1]; rfl
  have e2 : Wof (blk2 m c t) = WA m c := funext fun k => funext fun e => by
    show blk2 m c t (ix2 k e) = _
    unfold blk2
    rw [iblk2_apply, V_v1]; rfl
  have e3 : bOf (blk3 m c t) = bA m c := funext fun e => by
    show blk3 m c t (ix1 e) = _
    unfold blk3
    rw [iblk3_apply, V_main_arg3]; rfl
  have e4 : PWof (blk4 m c t) = PWA m c := funext fun k => funext fun d => by
    show blk4 m c t (ix2 k d) = _
    unfold blk4
    rw [iblk4_apply, V_v2]; rfl
  have e5 : pbOf (blk5 m c t) = pbA m c := funext fun d => by
    show blk5 m c t (ix1 d) = _
    unfold blk5
    rw [iblk5_apply, V_main_arg5]; rfl
  have etok : tokOf (grid0.coords t) r = ⟨256 * (t.val % 16) + r.val, by have := r.isLt; omega⟩ :=
    Fin.ext (by show 256 * ((grid0.coords t) 1).val + r.val = _; rw [coords_q])
  rw [eX, e1, e2, e3, e4, e5, etok]
  rfl

include f0 f1 f2 f3 in
/-- So the result array ends at `G`. -/
theorem final (c : Dev nD) : (dats m 0 c).arrAt 6 cfg0.N = G m c :=
  final6 m c (G m c) (flushed_eq m f0 f1 f2 f3 c)

include f0 f1 f2 f3 in
/-- The run: the program's result is `G` reshaped, the arguments unchanged. -/
theorem run :
    θ_run defs (onTc (τ := τ) (main (F := Ideal))) ⟨m, fun _ => 0, ρ⟩ (fun r => ∀ c : Dev nD,
      r.2.mem ((c.tc : Thread nD τ).loc main_v4)
        = shapeCast S1x8x64x64x512 (G m c) shapeCasts_S8x4096x512_S1x8x64x64x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value m ρ (G m) (final m f0 f1 f2 f3)

end Finite

end Cert.KernelIdeal.Result

end
-- ==== Proof.RefIsSpec.lean ====
/-
  The reference program, read one operation at a time on the extended reals, computes the plain-function
  specification of one attention frame.

  The input is reshaped to 8 frames of 4096 tokens by 512 channels.  For a frame `f` every stage of the
  reference is read at explicit coordinates and identified with the corresponding function of the specification:
  the sum of squares, the root mean square, the normalised token, the fused projection and its three column
  blocks, the scaled score, the row maximum (a fold of `max` from −∞), the shifted exponential, its row sum,
  the attention weight, the attended value, and the output projection with its bias.  The last two operations
  reshape back and add the input.
-/
import proofs.«116806_j90975997264646_2_alg».proof.Proof.Gen.ReferenceIdeal.Read
import proofs.«116806_j90975997264646_2_alg».proof.Proof.AttnSpec
import Idealize.ShloMosaic.Lib.ValueIdx
import Idealize.ShloMosaic.PureOps.Ideal.Laws

noncomputable section

namespace Cert.RefSpec

open Cert.ReferenceIdeal Cert.ReferenceIdeal.Read Cert.ReferenceIdeal.Gen Idealize.ShloMosaic Idealize.ShloMosaic.ValueIdx

variable (x0 : (⟨S1x8x64x64x512, .f32⟩ : BufTy).Contents (Elt Ideal))
  (x1 : (⟨S512, .f32⟩ : BufTy).Contents (Elt Ideal))
  (x2 : (⟨S512x1536, .f32⟩ : BufTy).Contents (Elt Ideal))
  (x3 : (⟨S1536, .f32⟩ : BufTy).Contents (Elt Ideal))
  (x4 : (⟨S512x512, .f32⟩ : BufTy).Contents (Elt Ideal))
  (x5 : (⟨S512, .f32⟩ : BufTy).Contents (Elt Ideal))

/-- Frame `f` of the input: tokens × channels. -/
def frame (f : Fin 8) : Fin 4096 → Fin 512 → EReal :=
  fun n c => val_main_v0 (F := Ideal) x0 (ix3 f n c)

/-- The word of −∞ is the bottom element. -/
theorem ofBits_neg_inf : Ideal.ofBits .f32 0xFF800000#32 = (⊥ : EReal) := by
  simp [Ideal.ofBits, Ideal.ieee]

/-! ## The normalised token -/

/-- The row sum of squares. -/
theorem v2_at (f : Fin 8) (n : Fin 4096) :
    val_main_v2 (F := Ideal) x0 (ix2 f n) = Cert.Attn.sumsq (frame x0 f) n := by
  rw [val_main_v2_apply, val_main_cst_apply]
  simp only [Ideal.ofBits_def, Ideal.ofBits_zero_f32, zero_add]
  unfold Cert.Attn.sumsq
  refine Finset.sum_congr rfl fun k _ => ?_
  have e : idx_main_v2 (ix2 f n) k = ix3 f n k :=
    funext fun a => Fin.ext (by match a with | ⟨0, _⟩ => rfl | ⟨1, _⟩ => rfl | ⟨2, _⟩ => rfl)
  rw [e, val_main_v1_apply, Ideal.mulf_def]
  rfl

/-- The root mean square, with ε under the root. -/
theorem v8_at (f : Fin 8) (n : Fin 4096) :
    val_main_v8 (F := Ideal) x0 (ix3 f n (0 : Fin 1)) = Cert.Attn.rms (frame x0 f) n := by
  rw [val_main_v8_apply, val_main_v7_apply, val_main_v5_apply, val_main_v3_apply, val_main_v4_apply,
    val_main_v6_apply, val_main_cst_0_apply, val_main_cst_1_apply]
  simp only [Ideal.hostUnary_sqrt_def, Ideal.addf_def, Ideal.hostDivf_def, Ideal.ofBits_def]
  have e : idx_main_v3 (ix3 f n (0 : Fin 1)) = ix2 f n :=
    funext fun a => Fin.ext (by match a with | ⟨0, _⟩ => rfl | ⟨1, _⟩ => rfl)
  rw [e, v2_at]
  rfl

/-- The normalised, rescaled token. -/
theorem v15_at (f : Fin 8) (n : Fin 4096) (c : Fin 512) :
    val_main_v15 (F := Ideal) x0 x1 (ix3 f n c) = Cert.Attn.xn (frame x0 f) (fun c => x1 (ix1 c)) n c := by
  rw [val_main_v15_apply, val_main_v12_apply, val_main_v10_apply, val_main_v9_apply, val_main_v11_apply,
    val_main_cst_2_apply, val_main_v14_apply, val_main_v13_apply]
  simp only [Ideal.mulf_def, Ideal.hostDivf_def, Ideal.ofBits_def]
  have e9 : idx_main_v9 (ix3 f n c) = ix3 f n (0 : Fin 1) :=
    funext fun a => Fin.ext (by match a with | ⟨0, _⟩ => rfl | ⟨1, _⟩ => rfl | ⟨2, _⟩ => rfl)
  have e13 : idx_main_v13 (idx_main_v14 (ix3 f n c)) = ix1 c :=
    funext fun a => Fin.ext (by match a with | ⟨0, _⟩ => rfl)
  rw [e9, e13, v8_at]
  rfl

/-! ## The fused projection and its three column blocks -/

/-- The fused projection with its bias. -/
theorem v19_at (f : Fin 8) (n : Fin 4096) (e : Fin 1536) :
    val_main_v19 (F := Ideal) x0 x1 x2 x3 (ix3 f n e)
      = Cert.Attn.qkv (frame x0 f) (fun c => x1 (ix1 c)) (fun c e => x2 (ix2 c e)) (fun e => x3 (ix1 e)) n e := by
  rw [val_main_v19_apply, val_main_v16_apply, val_main_v18_apply, val_main_v17_apply]
  simp only [Ideal.addf_def]
  have e17 : idx_main_v17 (idx_main_v18 (ix3 f n e)) = ix1 e :=
    funext fun a => Fin.ext (by match a with | ⟨0, _⟩ => rfl)
  rw [e17]
  unfold Cert.Attn.qkv
  refine congrArg (· + _) (Finset.sum_congr rfl fun k _ => ?_)
  have el : lidx_main_v16 (ix3 f n e) k = ix3 f n k :=
    funext fun a => Fin.ext (by match a with | ⟨0, _⟩ => rfl | ⟨1, _⟩ => rfl | ⟨2, _⟩ => rfl)
  have er : ridx_main_v16 (ix3 f n e) k = ix2 k e :=
    funext fun a => Fin.ext (by match a with | ⟨0, _⟩ => rfl | ⟨1, _⟩ => rfl)
  rw [el, er, v15_at]

/-- The query block: columns `d`. -/
theorem v20_at (f : Fin 8) (n : Fin 4096) (d : Fin 512) :
    val_main_v20 (F := Ideal) x0 x1 x2 x3 (ix3 f n d)
      = Cert.Attn.qkv (frame x0 f) (fun c => x1 (ix1 c)) (fun c e => x2 (ix2 c e)) (fun e => x3 (ix1 e)) n
          (Cert.Attn.colQ d) := by
  have e : idx_main_v20 (ix3 f n d) = ix3 f n (Cert.Attn.colQ d) :=
    funext fun a => Fin.ext (by match a with | ⟨0, _⟩ => rfl | ⟨1, _⟩ => rfl | ⟨2, _⟩ => rfl)
  rw [val_main_v20_apply, e, v19_at]

/-- The key block: columns `512 + d`. -/
theorem v21_at (f : Fin 8) (n : Fin 4096) (d : Fin 512) :
    val_main_v21 (F := Ideal) x0 x1 x2 x3 (ix3 f n d)
      = Cert.Attn.qkv (frame x0 f) (fun c => x1 (ix1 c)) (fun c e => x2 (ix2 c e)) (fun e => x3 (ix1 e)) n
          (Cert.Attn.colK d) := by
  have e : idx_main_v21 (ix3 f n d) = ix3 f n (Cert.Attn.colK d) :=
    funext fun a => Fin.ext (by match a with | ⟨0, _⟩ => rfl | ⟨1, _⟩ => rfl | ⟨2, _⟩ => rfl)
  rw [val_main_v21_apply, e, v19_at]

/-- The value block: columns `1024 + d`. -/
theorem v22_at (f : Fin 8) (n : Fin 4096) (d : Fin 512) :
    val_main_v22 (F := Ideal) x0 x1 x2 x3 (ix3 f n d)
      = Cert.Attn.qkv (frame x0 f) (fun c => x1 (ix1 c)) (fun c e => x2 (ix2 c e)) (fun e => x3 (ix1 e)) n
          (Cert.Attn.colV d) := by
  have e : idx_main_v22 (ix3 f n d) = ix3 f n (Cert.Attn.colV d) :=
    funext fun a => Fin.ext (by match a with | ⟨0, _⟩ => rfl | ⟨1, _⟩ => rfl | ⟨2, _⟩ => rfl)
  rw [val_main_v22_apply, e, v19_at]

/-! ## The scaled score -/

theorem v25_at (f : Fin 8) (i j : Fin 4096) :
    val_main_v25 (F := Ideal) x0 x1 x2 x3 (ix3 f i j)
      = Cert.Attn.score (frame x0 f) (fun c => x1 (ix1 c)) (fun c e => x2 (ix2 c e)) (fun e => x3 (ix1 e)) i j := by
  rw [val_main_v25_apply, val_main_v23_apply, val_main_v24_apply, val_main_cst_3_apply]
  simp only [Ideal.mulf_def, Ideal.ofBits_def]
  unfold Cert.Attn.score Cert.Attn.irt512
  refine congrArg (· * _) (Finset.sum_congr rfl fun k _ => ?_)
  have el : lidx_main_v23 (ix3 f i j) k = ix3 f i k :=
    funext fun a => Fin.ext (by match a with | ⟨0, _⟩ => rfl | ⟨1, _⟩ => rfl | ⟨2, _⟩ => rfl)
  have er : ridx_main_v23 (ix3 f i j) k = ix3 f j k :=
    funext fun a => Fin.ext (by match a with | ⟨0, _⟩ => rfl | ⟨1, _⟩ => rfl | ⟨2, _⟩ => rfl)
  rw [el, er, v20_at, v21_at]

/-! ## The row maximum -/

/-- A reduced index with coordinate `k` put back on the last axis. -/
theorem lift_ix2 (h : S8x4096x4096.Reduces [2] S8x4096) (f : Fin 8) (i : Fin 4096)
    (k : Fin (S8x4096x4096.size 2)) :
    h.lift (ix2 f i) k = ix3 f i (⟨k.val, k.isLt⟩ : Fin 4096) := by
  funext c; apply Fin.ext
  fin_cases c <;> rfl

/-- The reduce by maximum over the last axis is the fold of `max` from −∞ over the row. -/
theorem v26_at (f : Fin 8) (i : Fin 4096) :
    val_main_v26 (F := Ideal) x0 x1 x2 x3 (ix2 f i)
      = (Finset.univ : Finset (Fin 4096)).fold max (⊥ : EReal)
          (fun j => val_main_v25 (F := Ideal) x0 x1 x2 x3 (ix3 f i j)) := by
  have h : S8x4096x4096.Reduces [2] S8x4096 := by decide
  unfold val_main_v26
  rw [Host.reduce_eq_fold_single FloatOps.maximumf _ _ reducesTo_S8x4096x4096_S8x4096_d2 h h_S_,
    val_main_cst_4_apply, Ideal.ofBits_def, ofBits_neg_inf]
  have hf : (val_main_v25 (F := Ideal) x0 x1 x2 x3 ∘ h.lift (ix2 f i))
      = fun j : Fin 4096 => val_main_v25 (F := Ideal) x0 x1 x2 x3 (ix3 f i j) :=
    funext fun k => congrArg (val_main_v25 (F := Ideal) x0 x1 x2 x3) (lift_ix2 h f i k)
  exact congrArg (fun g => Finset.fold max (⊥ : EReal) g (Finset.univ : Finset (Fin 4096))) hf

theorem v28_at (f : Fin 8) (i : Fin 4096) :
    val_main_v28 (F := Ideal) x0 x1 x2 x3 (ix2 f i)
      = Cert.Attn.rowmax (frame x0 f) (fun c => x1 (ix1 c)) (fun c e => x2 (ix2 c e)) (fun e => x3 (ix1 e)) i := by
  rw [val_main_v28_apply, val_main_v27_apply, val_main_cst_5_apply, v26_at]
  simp only [Ideal.maximumf_def, Ideal.ofBits_def, ofBits_neg_inf, v25_at]
  rfl

/-! ## The weights -/

/-- The shifted exponential. -/
theorem v32_at (f : Fin 8) (i j : Fin 4096) :
    val_main_v32 (F := Ideal) x0 x1 x2 x3 (ix3 f i j)
      = Cert.Attn.pexp (frame x0 f) (fun c => x1 (ix1 c)) (fun c e => x2 (ix2 c e)) (fun e => x3 (ix1 e)) i j := by
  rw [val_main_v32_apply, val_main_v31_apply, val_main_v30_apply, val_main_v29_apply]
  simp only [Ideal.hostUnary_exp_def, Ideal.subf_def]
  have e : idx_main_v29 (idx_main_v30 (ix3 f i j)) = ix2 f i :=
    funext fun a => Fin.ext (by match a with | ⟨0, _⟩ => rfl | ⟨1, _⟩ => rfl)
  rw [e, v25_at, v28_at]
  rfl

/-- Its row sum. -/
theorem v33_at (f : Fin 8) (i : Fin 4096) :
    val_main_v33 (F := Ideal) x0 x1 x2 x3 (ix2 f i)
      = Cert.Attn.den (frame x0 f) (fun c => x1 (ix1 c)) (fun c e => x2 (ix2 c e)) (fun e => x3 (ix1 e)) i := by
  rw [val_main_v33_apply, val_main_cst_6_apply]
  simp only [Ideal.ofBits_def, Ideal.ofBits_zero_f32, zero_add]
  unfold Cert.Attn.den
  refine Finset.sum_congr rfl fun k _ => ?_
  have e : idx_main_v33 (ix2 f i) k = ix3 f i k :=
    funext fun a => Fin.ext (by match a with | ⟨0, _⟩ => rfl | ⟨1, _⟩ => rfl | ⟨2, _⟩ => rfl)
  rw [e, v32_at]

/-- The attention weight. -/
theorem v36_at (f : Fin 8) (i j : Fin 4096) :
    val_main_v36 (F := Ideal) x0 x1 x2 x3 (ix3 f i j)
      = Cert.Attn.attn (frame x0 f) (fun c => x1 (ix1 c)) (fun c e => x2 (ix2 c e)) (fun e => x3 (ix1 e)) i j := by
  rw [val_main_v36_apply, val_main_v35_apply, val_main_v34_apply]
  simp only [Ideal.hostDivf_def]
  have e : idx_main_v34 (idx_main_v35 (ix3 f i j)) = ix2 f i :=
    funext fun a => Fin.ext (by match a with | ⟨0, _⟩ => rfl | ⟨1, _⟩ => rfl)
  rw [e, v32_at, v33_at]
  rfl

/-! ## The attended value and the output projection -/

theorem v37_at (f : Fin 8) (i : Fin 4096) (c : Fin 512) :
    val_main_v37 (F := Ideal) x0 x1 x2 x3 (ix3 f i c)
      = Cert.Attn.ctx (frame x0 f) (fun c => x1 (ix1 c)) (fun c e => x2 (ix2 c e)) (fun e => x3 (ix1 e)) i c := by
  rw [val_main_v37_apply]
  unfold Cert.Attn.ctx
  refine Finset.sum_congr rfl fun k _ => ?_
  have el : lidx_main_v37 (ix3 f i c) k = ix3 f i k :=
    funext fun a => Fin.ext (by match a with | ⟨0, _⟩ => rfl | ⟨1, _⟩ => rfl | ⟨2, _⟩ => rfl)
  have er : ridx_main_v37 (ix3 f i c) k = ix3 f k c :=
    funext fun a => Fin.ext (by match a with | ⟨0, _⟩ => rfl | ⟨1, _⟩ => rfl | ⟨2, _⟩ => rfl)
  rw [el, er, v36_at, v22_at]

theorem v41_at (f : Fin 8) (n : Fin 4096) (d : Fin 512) :
    val_main_v41 (F := Ideal) x0 x1 x2 x3 x4 x5 (ix3 f n d)
      = (∑ c : Fin 512, Cert.Attn.ctx (frame x0 f) (fun c => x1 (ix1 c)) (fun c e => x2 (ix2 c e))
            (fun e => x3 (ix1 e)) n c * x4 (ix2 c d)) + x5 (ix1 d) := by
  rw [val_main_v41_apply, val_main_v38_apply, val_main_v40_apply, val_main_v39_apply]
  simp only [Ideal.addf_def]
  have e : idx_main_v39 (idx_main_v40 (ix3 f n d)) = ix1 d :=
    funext fun a => Fin.ext (by match a with | ⟨0, _⟩ => rfl)
  rw [e]
  refine congrArg (· + _) (Finset.sum_congr rfl fun k _ => ?_)
  have el : lidx_main_v38 (ix3 f n d) k = ix3 f n k :=
    funext fun a => Fin.ext (by match a with | ⟨0, _⟩ => rfl | ⟨1, _⟩ => rfl | ⟨2, _⟩ => rfl)
  have er : ridx_main_v38 (ix3 f n d) k = ix2 k d :=
    funext fun a => Fin.ext (by match a with | ⟨0, _⟩ => rfl | ⟨1, _⟩ => rfl)
  rw [el, er, v37_at]

/-! ## The frame's output, and the result -/

/-- Projection, bias and residual at token `n`, channel `d` of frame `f` are the specification's output. -/
theorem ref_frame (f : Fin 8) (n : Fin 4096) (d : Fin 512) :
    val_main_v41 (F := Ideal) x0 x1 x2 x3 x4 x5 (ValueIdx.ix3 f n d) + val_main_v0 (F := Ideal) x0 (ValueIdx.ix3 f n d)
      = Cert.Attn.out (frame x0 f) (fun c => x1 (ValueIdx.ix1 c)) (fun c e => x2 (ValueIdx.ix2 c e))
          (fun e => x3 (ValueIdx.ix1 e)) (fun c d => x4 (ValueIdx.ix2 c d)) (fun d => x5 (ValueIdx.ix1 d)) n d := by
  rw [v41_at]
  rfl

/-- Reshaping to frames and back is the identity on indices. -/
theorem idx_v0_v42 (i : S1x8x64x64x512.Idx) : idx_main_v0 (idx_main_v42 i) = i := by
  have h0 : (i 0).val < 1 := (i 0).isLt
  have h1 : (i 1).val < 8 := (i 1).isLt
  have h2 : (i 2).val < 64 := (i 2).isLt
  have h3 : (i 3).val < 64 := (i 3).isLt
  have h4 : (i 4).val < 512 := (i 4).isLt
  funext a
  apply Fin.ext
  match a with
  | ⟨0, _⟩ => show 0 = (i 0).val; omega
  | ⟨1, _⟩ =>
    show ((((((((i 0).val * 8 + (i 1).val) * 64 + (i 2).val) * 64 + (i 3).val) * 512 + (i 4).val) / 2097152) * 4096
        + (((((i 0).val * 8 + (i 1).val) * 64 + (i 2).val) * 64 + (i 3).val) * 512 + (i 4).val) / 512 % 4096) * 512
        + (((((i 0).val * 8 + (i 1).val) * 64 + (i 2).val) * 64 + (i 3).val) * 512 + (i 4).val) % 512) / 2097152 % 8
        = (i 1).val
    omega
  | ⟨2, _⟩ =>
    show ((((((((i 0).val * 8 + (i 1).val) * 64 + (i 2).val) * 64 + (i 3).val) * 512 + (i 4).val) / 2097152) * 4096
        + (((((i 0).val * 8 + (i 1).val) * 64 + (i 2).val) * 64 + (i 3).val) * 512 + (i 4).val) / 512 % 4096) * 512
        + (((((i 0).val * 8 + (i 1).val) * 64 + (i 2).val) * 64 + (i 3).val) * 512 + (i 4).val) % 512) / 32768 % 64
        = (i 2).val
    omega
  | ⟨3, _⟩ =>
    show ((((((((i 0).val * 8 + (i 1).val) * 64 + (i 2).val) * 64 + (i 3).val) * 512 + (i 4).val) / 2097152) * 4096
        + (((((i 0).val * 8 + (i 1).val) * 64 + (i 2).val) * 64 + (i 3).val) * 512 + (i 4).val) / 512 % 4096) * 512
        + (((((i 0).val * 8 + (i 1).val) * 64 + (i 2).val) * 64 + (i 3).val) * 512 + (i 4).val) % 512) / 512 % 64
        = (i 3).val
    omega
  | ⟨4, _⟩ =>
    show ((((((((i 0).val * 8 + (i 1).val) * 64 + (i 2).val) * 64 + (i 3).val) * 512 + (i 4).val) / 2097152) * 4096
        + (((((i 0).val * 8 + (i 1).val) * 64 + (i 2).val) * 64 + (i 3).val) * 512 + (i 4).val) / 512 % 4096) * 512
        + (((((i 0).val * 8 + (i 1).val) * 64 + (i 2).val) * 64 + (i 3).val) * 512 + (i 4).val) % 512) % 512
        = (i 4).val
    omega

/-- The last two operations: the reshape back to the input's shape and the residual add. -/
theorem ref_result (i : S1x8x64x64x512.Idx) :
    val_main_v43 (F := Ideal) x0 x1 x2 x3 x4 x5 i
      = val_main_v41 (F := Ideal) x0 x1 x2 x3 x4 x5 (idx_main_v42 i) + val_main_v0 (F := Ideal) x0 (idx_main_v42 i) := by
  rw [val_main_v43_apply, val_main_v42_apply, val_main_v0_apply, idx_v0_v42, Ideal.addf_def]

end Cert.RefSpec

end
-- ==== Proof.Bridge.lean ====
/-
  The two programs' results are one array.

  The reference ends at its last stage: the layer's output per frame (projection plus bias), reshaped to the input's
  shape, plus the input.  The kernel ends at its result array — the specification's output per frame, residual
  included — reshaped the same way.  Index by index both are the specification's output of the frame the index
  falls in: the reshape back and forth is the identity on indices.
-/
import proofs.«116806_j90975997264646_2_alg».proof.Proof.KValue
import proofs.«116806_j90975997264646_2_alg».proof.Proof.RefIsSpec

noncomputable section

open Idealize.ShloMosaic Idealize.ShloMosaic.ValueIdx

namespace Cert.Bridge

/-- The kernel's result array as a function of the six argument arrays. -/
def Gabs (a0 : (⟨Cert.KernelIdeal.S1x8x64x64x512, .f32⟩ : BufTy).Contents (Elt Ideal))
    (a1 : (⟨Cert.KernelIdeal.S512, .f32⟩ : BufTy).Contents (Elt Ideal))
    (a2 : (⟨Cert.KernelIdeal.S512x1536, .f32⟩ : BufTy).Contents (Elt Ideal))
    (a3 : (⟨Cert.KernelIdeal.S1536, .f32⟩ : BufTy).Contents (Elt Ideal))
    (a4 : (⟨Cert.KernelIdeal.S512x512, .f32⟩ : BufTy).Contents (Elt Ideal))
    (a5 : (⟨Cert.KernelIdeal.S512, .f32⟩ : BufTy).Contents (Elt Ideal)) : Cert.KernelIdeal.S8x4096x512.Idx → EReal :=
  fun y => Cert.Attn.out
    (fun n k => shapeCast Cert.KernelIdeal.S8x4096x512 a0 Cert.KernelIdeal.Facts₀.shapeCasts_S1x8x64x64x512_S8x4096x512 (ix3 (y 0) n k))
    (fun k => a1 (ix1 k)) (fun k e => a2 (ix2 k e)) (fun e => a3 (ix1 e)) (fun k d => a4 (ix2 k d)) (fun d => a5 (ix1 d)) (y 1) (y 2)

/-- The reference's last stage is the kernel's result array reshaped. -/
theorem ref_eq_kernel (a0 : (⟨Cert.KernelIdeal.S1x8x64x64x512, .f32⟩ : BufTy).Contents (Elt Ideal))
    (a1 : (⟨Cert.KernelIdeal.S512, .f32⟩ : BufTy).Contents (Elt Ideal))
    (a2 : (⟨Cert.KernelIdeal.S512x1536, .f32⟩ : BufTy).Contents (Elt Ideal))
    (a3 : (⟨Cert.KernelIdeal.S1536, .f32⟩ : BufTy).Contents (Elt Ideal))
    (a4 : (⟨Cert.KernelIdeal.S512x512, .f32⟩ : BufTy).Contents (Elt Ideal))
    (a5 : (⟨Cert.KernelIdeal.S512, .f32⟩ : BufTy).Contents (Elt Ideal)) :
    Cert.ReferenceIdeal.Read.val_main_v43 (F := Ideal) a0 a1 a2 a3 a4 a5
      = shapeCast Cert.KernelIdeal.S1x8x64x64x512 (Gabs a0 a1 a2 a3 a4 a5) Cert.KernelIdeal.Facts₀.shapeCasts_S8x4096x512_S1x8x64x64x512 := by
  funext i
  rw [Cert.RefSpec.ref_result]
  have hk : shapeCast Cert.KernelIdeal.S1x8x64x64x512 (Gabs a0 a1 a2 a3 a4 a5) Cert.KernelIdeal.Facts₀.shapeCasts_S8x4096x512_S1x8x64x64x512 i
      = Gabs a0 a1 a2 a3 a4 a5 (Cert.ReferenceIdeal.Read.idx_main_v42 i) :=
    shapeCast_apply (Gabs a0 a1 a2 a3 a4 a5) Cert.KernelIdeal.Facts₀.shapeCasts_S8x4096x512_S1x8x64x64x512 i (Cert.ReferenceIdeal.Read.idx_main_v42 i)
      (by
        rw [Shape.rowMajor_val_three, Shape.rowMajor_val_five]
        have h0 : (i 0).val < 1 := (i 0).isLt
        have h1 : (i 1).val < 8 := (i 1).isLt
        have h2 : (i 2).val < 64 := (i 2).isLt
        have h3 : (i 3).val < 64 := (i 3).isLt
        have h4 : (i 4).val < 512 := (i 4).isLt
        show ((((((i 0).val * 8 + (i 1).val) * 64 + (i 2).val) * 64 + (i 3).val) * 512 + (i 4).val) / 2097152 * 4096 + (((((i 0).val * 8 + (i 1).val) * 64 + (i 2).val) * 64 + (i 3).val) * 512 + (i 4).val) / 512 % 4096) * 512 + (((((i 0).val * 8 + (i 1).val) * 64 + (i 2).val) * 64 + (i 3).val) * 512 + (i 4).val) % 512 = ((((i 0).val * 8 + (i 1).val) * 64 + (i 2).val) * 64 + (i 3).val) * 512 + (i 4).val
        omega)
  obtain ⟨f, n, d, hy⟩ : ∃ (f : Fin 8) (n : Fin 4096) (d : Fin 512), Cert.ReferenceIdeal.Read.idx_main_v42 i = ix3 f n d :=
    ⟨_, _, _, eq_ix3 _⟩
  rw [hk, hy, Cert.RefSpec.ref_frame]
  rfl

end Cert.Bridge

end
-- ==== Proof.lean ====
/-
  The certificate: a fused attention layer against its plain form.

  The layer normalises each token of a frame by the root of its mean square, projects to queries, keys and values,
  attends (softmax of the scaled scores), projects the attended values, and adds the bias and the input token.
  The kernel does this one query tile of 256 tokens at a time: at the first tile of a frame it writes the frame's keys
  and values to scratch, and at every tile it runs the softmax as a running maximum / running sum recurrence over four
  tiles of 1024 keys.  The reference computes the 4096 × 4096 weights of a frame in one shot.

  On the extended reals, with finite inputs, the two agree entry by entry:
    * the normalisation and the three projections are the same sums on both sides;
    * the scale 512^(−1/2), which the kernel folds into the queries, moves out of the score's dot product;
    * the recurrence's quotient is the one-shot softmax average (any finite shift gives the same average);
    * the tail (projection, bias, residual) is term for term the same, and the two reshapes are one re-indexing.
  The kernel's stand-in for −∞ is named −∞ at the ideal instance (the ledger's one entry).
  The three frames are the generated ones (the reference's is its generated run with the result dropped).
-/
import proofs.«116806_j90975997264646_2_alg».proof.Defs
import proofs.«116806_j90975997264646_2_alg».proof.Proof.Gen.Kernel
import proofs.«116806_j90975997264646_2_alg».proof.Proof.Gen.Kernel.Skeleton
import proofs.«116806_j90975997264646_2_alg».proof.Proof.Gen.Kernel.Launch
import proofs.«116806_j90975997264646_2_alg».proof.Proof.Gen.Kernel.Points
import proofs.«116806_j90975997264646_2_alg».proof.Proof.Gen.Kernel.Frame
import proofs.«116806_j90975997264646_2_alg».proof.Proof.Gen.KernelIdeal
import proofs.«116806_j90975997264646_2_alg».proof.Proof.Gen.KernelIdeal.Skeleton
import proofs.«116806_j90975997264646_2_alg».proof.Proof.Gen.KernelIdeal.Launch
import proofs.«116806_j90975997264646_2_alg».proof.Proof.Gen.KernelIdeal.Points
import proofs.«116806_j90975997264646_2_alg».proof.Proof.Gen.KernelIdeal.Frame
import proofs.«116806_j90975997264646_2_alg».proof.Proof.Gen.ReferenceIdeal
import proofs.«116806_j90975997264646_2_alg».proof.Proof.Gen.ReferenceIdeal.Run
import proofs.«116806_j90975997264646_2_alg».proof.Proof.Gen.ReferenceIdeal.Read
import proofs.«116806_j90975997264646_2_alg».proof.Proof.Gen.Pre_finite_inputs
import proofs.«116806_j90975997264646_2_alg».proof.Proof.FiniteInputs
import proofs.«116806_j90975997264646_2_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the kernel's running-maximum seed the value −∞. -/
theorem preserves : Cert.preserves_Kernel_KernelIdeal :=
  IdealRules.named_const.statement Cert.KernelIdeal.κ "neg_big" .f32 0xFF333332#32 ⊥ rfl

/-- Both programs, from memories agreeing on the arguments, end with the specification's output of every frame,
    reshaped to the input's shape. -/
theorem algebraic : Cert.algebraic_KernelIdeal_ReferenceIdeal := by
  intro m ρ m' ρ' hpre hagree
  have hf := fun c : Dev Cert.KernelIdeal.nD => Cert.FiniteIn.finite_of_pre _ _ _ _ _ _ (hpre c)
  refine ⟨fun c => shapeCast Cert.KernelIdeal.S1x8x64x64x512 (Cert.KernelIdeal.Result.G m c)
      Cert.KernelIdeal.Facts₀.shapeCasts_S8x4096x512_S1x8x64x64x512,
    Cert.KernelIdeal.Result.run m ρ (fun c y => (hf c).1 y) (fun c y => (hf c).2.1 y) (fun c y => (hf c).2.2.1 y)
      (fun c y => (hf c).2.2.2.1 y), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2.1,
    (hagree c).2.2.2.2.1, (hagree c).2.2.2.2.2]
  exact Cert.Bridge.ref_eq_kernel _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
